-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v220)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v220) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S16x4x512x512 : Shape := ⟨4, ![16, 4, 512, 512]⟩
abbrev S16x64x5 : Shape := ⟨3, ![16, 64, 5]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  bcast_S_S16x64x5 : S_.BroadcastsInDim S16x64x5 (![] : Fin 0 → Fin S16x64x5.rank)
  reducesTo_S16x64x5_S_d0_1_2 : S16x64x5.ReducesTo [0, 1, 2] S_

variable [Facts]

def fn_part1 {F : FTy → Type} [FloatOps F] (main_arg4 : FVec F S16x64x5 .f32) (main_v13 : IVec S_ 1) (main_v16 : IVec S16x1x512x512 1) : IVec S_ 1 :=
  let main_c_5 : IVec S_ 1 := constantI S_ 1 1#1
  let main_v17 : IVec S_ 1 := (fun x v => Host.reduce IntOp.andi x v reducesTo_S16x1x512x512_S_d0_1_2_3 h_S_) main_v16 main_c_5
  let main_v18 : IVec S_ 1 := andi main_v13 main_v17
  let main_v19 : FVec F S16x64x5 .f32 := Host.absf main_arg4
  let main_cst_6 : FVec F S_ .f32 := constant S_ .f32 0x7F800000#32
  let main_v20 : FVec F S16x64x5 .f32 := broadcastInDim S16x64x5 ![] bcast_S_S16x64x5 main_cst_6
  let main_v21 : IVec S16x64x5 1 := cmpf .olt main_v19 main_v20
  let main_c_7 : IVec S_ 1 := constantI S_ 1 1#1
  let main_v22 : IVec S_ 1 := (fun x v => Host.reduce IntOp.andi x v reducesTo_S16x64x5_S_d0_1_2 h_S_) main_v21 main_c_7
  let main_v23 : IVec S_ 1 := andi main_v18 main_v22
  main_v23

def fn {F : FTy → Type} [FloatOps F] (main_arg0 : FVec F S16x1x512x512 .f32) (main_arg1 : FVec F S16x1x512x512 .f32) (main_arg2 : FVec F S16x4x512x512 .f32) (main_arg3 : FVec F S16x1x512x512 .f32) (main_arg4 : FVec F S16x64x5 .f32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  let main_v9 : FVec F S16x4x512x512 .f32 := Host.absf main_arg2
  let main_cst_2 : FVec F S_ .f32 := constant S_ .f32 0x7F800000#32
  let main_v10 : FVec F S16x4x512x512 .f32 := broadcastInDim S16x4x512x512 ![] bcast_S_S16x4x512x512 main_cst_2
  let main_v11 : IVec S16x4x512x512 1 := cmpf .olt main_v9 main_v10
  let main_c_3 : IVec S_ 1 := constantI S_ 1 1#1
  let main_v12 : IVec S_ 1 := (fun x v => Host.reduce IntOp.andi x v reducesTo_S16x4x512x512_S_d0_1_2_3 h_S_) main_v11 main_c_3
  let main_v13 : IVec S_ 1 := andi main_v8 main_v12
  let main_v14 : FVec F S16x1x512x512 .f32 := Host.absf main_arg3
  let main_cst_4 : FVec F S_ .f32 := constant S_ .f32 0x7F800000#32
  let main_v15 : FVec F S16x1x512x512 .f32 := broadcastInDim S16x1x512x512 ![] bcast_S_S16x1x512x512 main_cst_4
  let main_v16 : IVec S16x1x512x512 1 := cmpf .olt main_v14 main_v15
  fn_part1 (F := F) main_arg4 main_v13 main_v16
-- ==== Kernel.lean ====
abbrev S16x1x512x512 : Shape := ⟨4, ![16, 1, 512, 512]⟩
abbrev S16x4x512x512 : Shape := ⟨4, ![16, 4, 512, 512]⟩
abbrev S16x64x5 : Shape := ⟨3, ![16, 64, 5]⟩
abbrev S8x128 : Shape := ⟨2, ![8, 128]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩
abbrev S16x64x1 : Shape := ⟨3, ![16, 64, 1]⟩
abbrev S16x64 : Shape := ⟨2, ![16, 64]⟩
abbrev S16x64x4 : Shape := ⟨3, ![16, 64, 4]⟩
abbrev S16 : Shape := ⟨1, ![16]⟩
abbrev S16x1x1 : Shape := ⟨3, ![16, 1, 1]⟩
abbrev S16x512x512x4 : Shape := ⟨4, ![16, 512, 512, 4]⟩
abbrev S16x64x5x1 : Shape := ⟨4, ![16, 64, 5, 1]⟩
abbrev S16x64x5x3 : Shape := ⟨4, ![16, 64, 5, 3]⟩
abbrev S16x64x5x4 : Shape := ⟨4, ![16, 64, 5, 4]⟩
abbrev S16x512x512 : Shape := ⟨3, ![16, 512, 512]⟩
abbrev S16x64x1x4 : Shape := ⟨4, ![16, 64, 1, 4]⟩
abbrev S16x320x4 : Shape := ⟨3, ![16, 320, 4]⟩
abbrev S16x320x1 : Shape := ⟨3, ![16, 320, 1]⟩
abbrev S16x320 : Shape := ⟨2, ![16, 320]⟩
abbrev S4 : Shape := ⟨1, ![4]⟩

abbrev nBuf : Space → Nat
  | .hbm => 336
  | .vmem => 6
  | .smem => 0
  | _ => 0

abbrev hbmTy0_0 (i : Nat) : BufTy := match i % 128 with
  | 0 => ⟨S16x1x512x512, .f32⟩
  | 1 => ⟨S16x1x512x512, .f32⟩
  | 2 => ⟨S16x4x512x512, .f32⟩
  | 3 => ⟨S16x1x512x512, .f32⟩
  | 4 => ⟨S16x64x5, .f32⟩
  | 5 => ⟨S8x128, .f32⟩
  | 6 => ⟨S1x1, .f32⟩
  | 7 => ⟨S_, .f32⟩
  | 8 => ⟨S1x1, .f32⟩
  | 9 => ⟨S_, .f32⟩
  | 10 => ⟨S1x1, .f32⟩
  | 11 => ⟨S_, .f32⟩
  | 12 => ⟨S1x1, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S16x64x1, .f32⟩
  | 29 => ⟨S16x64, .f32⟩
  | 30 => ⟨S16x64x4, .f32⟩
  | 31 => ⟨S16x64x1, .f32⟩
  | 32 => ⟨S16x64, .f32⟩
  | 33 => ⟨S_, .f32⟩
  | 34 => ⟨S16x64, .f32⟩
  | 35 => ⟨S16x64, .f32⟩
  | 36 => ⟨S16x64, .f32⟩
  | 37 => ⟨S16x64, .i32⟩
  | 38 => ⟨S_, .i32⟩
  | 39 => ⟨S_, .i32⟩
  | 40 => ⟨S_, .i32⟩
  | 41 => ⟨S16x64, .i32⟩
  | 42 => ⟨S16x64, .i32⟩
  | 43 => ⟨S_, .i32⟩
  | 44 => ⟨S16x64, .i32⟩
  | 45 => ⟨S16x64, .i32⟩
  | 46 => ⟨S16x64x1, .f32⟩
  | 47 => ⟨S16x64, .f32⟩
  | 48 => ⟨S_, .f32⟩
  | 49 => ⟨S16x64, .f32⟩
  | 50 => ⟨S16x64, .f32⟩
  | 51 => ⟨S16x64, .f32⟩
  | 52 => ⟨S16x64, .i32⟩
  | 53 => ⟨S_, .i32⟩
  | 54 => ⟨S_, .i32⟩
  | 55 => ⟨S_, .i32⟩
  | 56 => ⟨S16x64, .i32⟩
  | 57 => ⟨S16x64, .i32⟩
  | 58 => ⟨S_, .i32⟩
  | 59 => ⟨S16x64, .i32⟩
  | 60 => ⟨S16x64, .i32⟩
  | 61 => ⟨S16x64x1, .f32⟩
  | 62 => ⟨S16x64, .f32⟩
  | 63 => ⟨S_, .f32⟩
  | 64 => ⟨S16x64, .f32⟩
  | 65 => ⟨S16x64, .f32⟩
  | 66 => ⟨S16x64, .f32⟩
  | 67 => ⟨S16x64, .i32⟩
  | 68 => ⟨S_, .i32⟩
  | 69 => ⟨S_, .i32⟩
  | 70 => ⟨S_, .i32⟩
  | 71 => ⟨S16x64, .i32⟩
  | 72 => ⟨S16x64, .i32⟩
  | 73 => ⟨S_, .i32⟩
  | 74 => ⟨S16x64, .i32⟩
  | 75 => ⟨S16x64, .i32⟩
  | 76 => ⟨S16x64x1, .f32⟩
  | 77 => ⟨S16x64, .f32⟩
  | 78 => ⟨S_, .f32⟩
  | 79 => ⟨S16x64, .f32⟩
  | 80 => ⟨S16x64, .f32⟩
  | 81 => ⟨S16x64, .f32⟩
  | 82 => ⟨S16x64, .i32⟩
  | 83 => ⟨S_, .i32⟩
  | 84 => ⟨S_, .i32⟩
  | 85 => ⟨S_, .i32⟩
  | 86 => ⟨S16x64, .i32⟩
  | 87 => ⟨S16x64, .i32⟩
  | 88 => ⟨S_, .i32⟩
  | 89 => ⟨S16x64, .i32⟩
  | 90 => ⟨S16x64, .i32⟩
  | 91 => ⟨S16x64, .i32⟩
  | 92 => ⟨S_, .i32⟩
  | 93 => ⟨S_, .i32⟩
  | 94 => ⟨S16x64, .i32⟩
  | 95 => ⟨S16x64, .i32⟩
  | 96 => ⟨S16x64, .i32⟩
  | 97 => ⟨S_, .i32⟩
  | 98 => ⟨S16x64, .i32⟩
  | 99 => ⟨S16x64, .i1⟩
  | 100 => ⟨S16x64, .i32⟩
  | 101 => ⟨S16x64, .i32⟩
  | 102 => ⟨S_, .i32⟩
  | 103 => ⟨S16x64, .i32⟩
  | 104 => ⟨S16x64, .i1⟩
  | 105 => ⟨S16x64, .i1⟩
  | 106 => ⟨S_, .i32⟩
  | 107 => ⟨S16x64, .i32⟩
  | 108 => ⟨S16x64, .i32⟩
  | 109 => ⟨S16x64, .i32⟩
  | 110 => ⟨S16x64x1, .i32⟩
  | 111 => ⟨S16x64x1, .i32⟩
  | 112 => ⟨S16x64x1, .i32⟩
  | 113 => ⟨S16x64x1, .i32⟩
  | 114 => ⟨S16x64x1, .i32⟩
  | 115 => ⟨S16x64x5, .i32⟩
  | 116 => ⟨S16x64, .i32⟩
  | 117 => ⟨S_, .i32⟩
  | 118 => ⟨S_, .i32⟩
  | 119 => ⟨S16x64, .i32⟩
  | 120 => ⟨S16x64, .i32⟩
  | 121 => ⟨S16x64, .i32⟩
  | 122 => ⟨S_, .i32⟩
  | 123 => ⟨S16x64, .i32⟩
  | 124 => ⟨S16x64, .i1⟩
  | 125 => ⟨S16x64, .i32⟩
  | 126 => ⟨S16x64, .i32⟩
  | 127 => ⟨S_, .i32⟩
  | _ => ⟨S16x1x512x512, .f32⟩

abbrev hbmTy0_1 (i : Nat) : BufTy := match i % 128 with
  | 0 => ⟨S16x64, .i32⟩
  | 1 => ⟨S16x64, .i1⟩
  | 2 => ⟨S16x64, .i1⟩
  | 3 => ⟨S_, .i32⟩
  | 4 => ⟨S16x64, .i32⟩
  | 5 => ⟨S16x64, .i32⟩
  | 6 => ⟨S16x64, .i32⟩
  | 7 => ⟨S16x64x1, .i32⟩
  | 8 => ⟨S16x64x1, .i32⟩
  | 9 => ⟨S16x64x1, .i32⟩
  | 10 => ⟨S16x64x1, .i32⟩
  | 11 => ⟨S16x64x1, .i32⟩
  | 12 => ⟨S16x64x5, .i32⟩
  | 13 => ⟨S16, .i32⟩
  | 14 => ⟨S16x1x1, .i32⟩
  | 15 => ⟨S16x512x512x4, .f32⟩
  | 16 => ⟨S_, .i32⟩
  | 17 => ⟨S16x1x1, .i32⟩
  | 18 => ⟨S16x1x1, .i1⟩
  | 19 => ⟨S_, .i32⟩
  | 20 => ⟨S16x1x1, .i32⟩
  | 21 => ⟨S16x1x1, .i32⟩
  | 22 => ⟨S16x1x1, .i32⟩
  | 23 => ⟨S_, .i32⟩
  | 24 => ⟨S16x64x5, .i32⟩
  | 25 => ⟨S16x64x5, .i1⟩
  | 26 => ⟨S_, .i32⟩
  | 27 => ⟨S16x64x5, .i32⟩
  | 28 => ⟨S16x64x5, .i32⟩
  | 29 => ⟨S16x64x5, .i32⟩
  | 30 => ⟨S_, .i32⟩
  | 31 => ⟨S16x64x5, .i32⟩
  | 32 => ⟨S16x64x5, .i1⟩
  | 33 => ⟨S_, .i32⟩
  | 34 => ⟨S16x64x5, .i32⟩
  | 35 => ⟨S16x64x5, .i32⟩
  | 36 => ⟨S16x64x5, .i32⟩
  | 37 => ⟨S16x64x5, .i32⟩
  | 38 => ⟨S16x64x5x1, .i32⟩
  | 39 => ⟨S16x64x5x1, .i32⟩
  | 40 => ⟨S16x64x5x1, .i32⟩
  | 41 => ⟨S16x64x5x3, .i32⟩
  | 42 => ⟨S16x64x5x4, .f32⟩
  | 43 => ⟨S16x512x512, .f32⟩
  | 44 => ⟨S_, .i32⟩
  | 45 => ⟨S16x1x1, .i32⟩
  | 46 => ⟨S16x1x1, .i1⟩
  | 47 => ⟨S_, .i32⟩
  | 48 => ⟨S16x1x1, .i32⟩
  | 49 => ⟨S16x1x1, .i32⟩
  | 50 => ⟨S16x1x1, .i32⟩
  | 51 => ⟨S_, .i32⟩
  | 52 => ⟨S16x64x5, .i32⟩
  | 53 => ⟨S16x64x5, .i1⟩
  | 54 => ⟨S_, .i32⟩
  | 55 => ⟨S16x64x5, .i32⟩
  | 56 => ⟨S16x64x5, .i32⟩
  | 57 => ⟨S16x64x5, .i32⟩
  | 58 => ⟨S_, .i32⟩
  | 59 => ⟨S16x64x5, .i32⟩
  | 60 => ⟨S16x64x5, .i1⟩
  | 61 => ⟨S_, .i32⟩
  | 62 => ⟨S16x64x5, .i32⟩
  | 63 => ⟨S16x64x5, .i32⟩
  | 64 => ⟨S16x64x5, .i32⟩
  | 65 => ⟨S16x64x5, .i32⟩
  | 66 => ⟨S16x64x5x1, .i32⟩
  | 67 => ⟨S16x64x5x1, .i32⟩
  | 68 => ⟨S16x64x5x1, .i32⟩
  | 69 => ⟨S16x64x5x3, .i32⟩
  | 70 => ⟨S16x64x5, .f32⟩
  | 71 => ⟨S16x64x1x4, .f32⟩
  | 72 => ⟨S16x64x5x4, .f32⟩
  | 73 => ⟨S16x64x1, .f32⟩
  | 74 => ⟨S16x64x5, .f32⟩
  | 75 => ⟨S16x320x4, .f32⟩
  | 76 => ⟨S16x320x4, .f32⟩
  | 77 => ⟨S16x320x1, .f32⟩
  | 78 => ⟨S16x320, .f32⟩
  | 79 => ⟨S16x320x1, .f32⟩
  | 80 => ⟨S16x320, .f32⟩
  | 81 => ⟨S16x320, .f32⟩
  | 82 => ⟨S16x320x1, .f32⟩
  | 83 => ⟨S16x320, .f32⟩
  | 84 => ⟨S16x320x1, .f32⟩
  | 85 => ⟨S16x320, .f32⟩
  | 86 => ⟨S16x320, .f32⟩
  | 87 => ⟨S16x320, .f32⟩
  | 88 => ⟨S16x320x1, .f32⟩
  | 89 => ⟨S16x320, .f32⟩
  | 90 => ⟨S16x320x1, .f32⟩
  | 91 => ⟨S16x320, .f32⟩
  | 92 => ⟨S16x320, .f32⟩
  | 93 => ⟨S16x320x1, .f32⟩
  | 94 => ⟨S16x320, .f32⟩
  | 95 => ⟨S16x320x1, .f32⟩
  | 96 => ⟨S16x320, .f32⟩
  | 97 => ⟨S16x320, .f32⟩
  | 98 => ⟨S16x320, .f32⟩
  | 99 => ⟨S16x320x1, .f32⟩
  | 100 => ⟨S16x320, .f32⟩
  | 101 => ⟨S16x320x1, .f32⟩
  | 102 => ⟨S16x320, .f32⟩
  | 103 => ⟨S16x320, .f32⟩
  | 104 => ⟨S16x320x1, .f32⟩
  | 105 => ⟨S16x320, .f32⟩
  | 106 => ⟨S16x320x1, .f32⟩
  | 107 => ⟨S16x320, .f32⟩
  | 108 => ⟨S16x320, .f32⟩
  | 109 => ⟨S16x320x1, .f32⟩
  | 110 => ⟨S16x320, .f32⟩
  | 111 => ⟨S16x320x1, .f32⟩
  | 112 => ⟨S16x320, .f32⟩
  | 113 => ⟨S16x320, .f32⟩
  | 114 => ⟨S16x320x1, .f32⟩
  | 115 => ⟨S16x320, .f32⟩
  | 116 => ⟨S16x320x1, .f32⟩
  | 117 => ⟨S16x320, .f32⟩
  | 118 => ⟨S16x320, .f32⟩
  | 119 => ⟨S16x320, .f32⟩
  | 120 => ⟨S_, .f32⟩
  | 121 => ⟨S_, .f32⟩
  | 122 => ⟨S16x320, .f32⟩
  | 123 => ⟨S16x320, .f32⟩
  | 124 => ⟨S16x320, .f32⟩
  | 125 => ⟨S_, .f32⟩
  | 126 => ⟨S_, .f32⟩
  | 127 => ⟨S16x320, .f32⟩
  | _ => ⟨S16x1x512x512, .f32⟩

abbrev hbmTy0_2 (i : Nat) : BufTy := match i % 128 with
  | 0 => ⟨S16x320, .f32⟩
  | 1 => ⟨S16x320, .f32⟩
  | 2 => ⟨S16x320, .f32⟩
  | 3 => ⟨S16x320, .f32⟩
  | 4 => ⟨S_, .f32⟩
  | 5 => ⟨S16x320, .f32⟩
  | 6 => ⟨S16x320, .f32⟩
  | 7 => ⟨S16x320, .f32⟩
  | 8 => ⟨S_, .f32⟩
  | 9 => ⟨S16x320, .f32⟩
  | 10 => ⟨S16x320, .f32⟩
  | 11 => ⟨S16x320, .f32⟩
  | 12 => ⟨S_, .f32⟩
  | 13 => ⟨S16, .f32⟩
  | 14 => ⟨S_, .f32⟩
  | 15 => ⟨S16, .f32⟩
  | 16 => ⟨S16, .f32⟩
  | 17 => ⟨S16, .f32⟩
  | 18 => ⟨S16x320x4, .f32⟩
  | 19 => ⟨S16x320x4, .f32⟩
  | 20 => ⟨S_, .f32⟩
  | 21 => ⟨S16x320x4, .f32⟩
  | 22 => ⟨S16x320x4, .i1⟩
  | 23 => ⟨S_, .f32⟩
  | 24 => ⟨S16x320x4, .f32⟩
  | 25 => ⟨S16x320x4, .f32⟩
  | 26 => ⟨S16x320x4, .f32⟩
  | 27 => ⟨S_, .f32⟩
  | 28 => ⟨S16x320x4, .f32⟩
  | 29 => ⟨S16x320x4, .f32⟩
  | 30 => ⟨S16x320x4, .f32⟩
  | 31 => ⟨S_, .f32⟩
  | 32 => ⟨S16, .f32⟩
  | 33 => ⟨S_, .f32⟩
  | 34 => ⟨S16, .f32⟩
  | 35 => ⟨S16, .f32⟩
  | 36 => ⟨S_, .f32⟩
  | 37 => ⟨S16, .f32⟩
  | 38 => ⟨S16, .f32⟩
  | 39 => ⟨S16, .f32⟩
  | 40 => ⟨S_, .f32⟩
  | 41 => ⟨S_, .f32⟩
  | 42 => ⟨S_, .f32⟩
  | 43 => ⟨S_, .f32⟩
  | 44 => ⟨S16x320, .f32⟩
  | 45 => ⟨S16x320, .f32⟩
  | 46 => ⟨S16x320, .f32⟩
  | 47 => ⟨S16x320, .f32⟩
  | 48 => ⟨S_, .f32⟩
  | 49 => ⟨S16x320, .f32⟩
  | 50 => ⟨S16x320, .f32⟩
  | 51 => ⟨S_, .f32⟩
  | 52 => ⟨S16x320, .f32⟩
  | 53 => ⟨S16x320, .f32⟩
  | 54 => ⟨S16x320, .f32⟩
  | 55 => ⟨S16x320, .f32⟩
  | 56 => ⟨S16x320, .f32⟩
  | 57 => ⟨S_, .f32⟩
  | 58 => ⟨S16, .f32⟩
  | 59 => ⟨S_, .f32⟩
  | 60 => ⟨S16, .f32⟩
  | 61 => ⟨S16, .f32⟩
  | 62 => ⟨S16, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S1, .f32⟩
  | 76 => ⟨S1, .f32⟩
  | 77 => ⟨S1, .f32⟩
  | 78 => ⟨S1, .f32⟩
  | 79 => ⟨S4, .f32⟩
  | _ => ⟨S16x1x512x512, .f32⟩

abbrev hbmTy (i : Nat) : BufTy := match i / 128 with
  | 0 => hbmTy0_0 i
  | 1 => hbmTy0_1 i
  | 2 => hbmTy0_2 i
  | _ => ⟨S16x1x512x512, .f32⟩

abbrev bufTy : (tb : Table) → Fin (tcTables nBuf tb) → BufTy
  | .hbm, ⟨i, _⟩ => hbmTy i
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S8x128, .f32⟩
  | .local _ .vmem, ⟨5, _⟩ => ⟨S8x128, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_c_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_c_8 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_10 : Ref sig .tc := ⟨.hbm, 68, rfl⟩
abbrev main_c_11 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_cst_12 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_13 : Ref sig .tc := ⟨.hbm, 83, rfl⟩
abbrev main_c_14 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v48 : Ref sig .tc := ⟨.hbm, 90, rfl⟩
abbrev main_v49 : Ref sig .tc := ⟨.hbm, 91, rfl⟩
abbrev main_c_15 : Ref sig .tc := ⟨.hbm, 92, rfl⟩
abbrev main_call4_v0 : Ref sig .tc := ⟨.hbm, 93, rfl⟩
abbrev main_call4_v1 : Ref sig .tc := ⟨.hbm, 94, rfl⟩
abbrev main_call4_v2 : Ref sig .tc := ⟨.hbm, 95, rfl⟩
abbrev main_call4_v3 : Ref sig .tc := ⟨.hbm, 96, rfl⟩
abbrev main_call4_v4 : Ref sig .tc := ⟨.hbm, 97, rfl⟩
abbrev main_call4_v5 : Ref sig .tc := ⟨.hbm, 98, rfl⟩
abbrev main_call4_v6 : Ref sig .tc := ⟨.hbm, 99, rfl⟩
abbrev main_call4_v7 : Ref sig .tc := ⟨.hbm, 100, rfl⟩
abbrev main_call4_v8 : Ref sig .tc := ⟨.hbm, 101, rfl⟩
abbrev main_call4_c : Ref sig .tc := ⟨.hbm, 102, rfl⟩
abbrev main_call4_v9 : Ref sig .tc := ⟨.hbm, 103, rfl⟩
abbrev main_call4_v10 : Ref sig .tc := ⟨.hbm, 104, rfl⟩
abbrev main_call4_v11 : Ref sig .tc := ⟨.hbm, 105, rfl⟩
abbrev main_call4_c_0 : Ref sig .tc := ⟨.hbm, 106, rfl⟩
abbrev main_call4_v12 : Ref sig .tc := ⟨.hbm, 107, rfl⟩
abbrev main_call4_v13 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_c_16 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_call5_v4 : Ref sig .tc := ⟨.hbm, 122, rfl⟩
abbrev main_call5_v5 : Ref sig .tc := ⟨.hbm, 123, rfl⟩
abbrev main_call5_v6 : Ref sig .tc := ⟨.hbm, 124, rfl⟩
abbrev main_call5_v7 : Ref sig .tc := ⟨.hbm, 125, rfl⟩
abbrev main_call5_v8 : Ref sig .tc := ⟨.hbm, 126, rfl⟩
abbrev main_call5_c : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_0 : Ref sig .tc := ⟨.hbm, 131, rfl⟩
abbrev main_call5_v12 : Ref sig .tc := ⟨.hbm, 132, rfl⟩
abbrev main_call5_v13 : Ref sig .tc := ⟨.hbm, 133, rfl⟩
abbrev main_v58 : Ref sig .tc := ⟨.hbm, 134, rfl⟩
abbrev main_v59 : Ref sig .tc := ⟨.hbm, 135, rfl⟩
abbrev main_v60 : Ref sig .tc := ⟨.hbm, 136, rfl⟩
abbrev main_v61 : Ref sig .tc := ⟨.hbm, 137, rfl⟩
abbrev main_v62 : Ref sig .tc := ⟨.hbm, 138, rfl⟩
abbrev main_v63 : Ref sig .tc := ⟨.hbm, 139, rfl⟩
abbrev main_v64 : Ref sig .tc := ⟨.hbm, 140, rfl⟩
abbrev main_v65 : Ref sig .tc := ⟨.hbm, 141, rfl⟩
abbrev main_v66 : Ref sig .tc := ⟨.hbm, 142, rfl⟩
abbrev main_v67 : Ref sig .tc := ⟨.hbm, 143, rfl⟩
abbrev main_c_17 : Ref sig .tc := ⟨.hbm, 144, rfl⟩
abbrev main_v68 : Ref sig .tc := ⟨.hbm, 145, rfl⟩
abbrev main_v69 : Ref sig .tc := ⟨.hbm, 146, rfl⟩
abbrev main_c_18 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_c_19 : Ref sig .tc := ⟨.hbm, 151, rfl⟩
abbrev main_v73 : Ref sig .tc := ⟨.hbm, 152, rfl⟩
abbrev main_v74 : Ref sig .tc := ⟨.hbm, 153, rfl⟩
abbrev main_c_20 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_c_21 : Ref sig .tc := ⟨.hbm, 158, rfl⟩
abbrev main_v78 : Ref sig .tc := ⟨.hbm, 159, rfl⟩
abbrev main_v79 : Ref sig .tc := ⟨.hbm, 160, rfl⟩
abbrev main_c_22 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev main_v84 : Ref sig .tc := ⟨.hbm, 166, rfl⟩
abbrev main_v85 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_c_23 : Ref sig .tc := ⟨.hbm, 172, rfl⟩
abbrev main_v90 : Ref sig .tc := ⟨.hbm, 173, rfl⟩
abbrev main_v91 : Ref sig .tc := ⟨.hbm, 174, rfl⟩
abbrev main_c_24 : Ref sig .tc := ⟨.hbm, 175, rfl⟩
abbrev main_v92 : Ref sig .tc := ⟨.hbm, 176, rfl⟩
abbrev main_v93 : Ref sig .tc := ⟨.hbm, 177, rfl⟩
abbrev main_v94 : Ref sig .tc := ⟨.hbm, 178, rfl⟩
abbrev main_c_25 : Ref sig .tc := ⟨.hbm, 179, rfl⟩
abbrev main_v95 : Ref sig .tc := ⟨.hbm, 180, rfl⟩
abbrev main_v96 : Ref sig .tc := ⟨.hbm, 181, rfl⟩
abbrev main_c_26 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_c_27 : Ref sig .tc := ⟨.hbm, 186, rfl⟩
abbrev main_v100 : Ref sig .tc := ⟨.hbm, 187, rfl⟩
abbrev main_v101 : Ref sig .tc := ⟨.hbm, 188, rfl⟩
abbrev main_c_28 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_v130 : Ref sig .tc := ⟨.hbm, 218, rfl⟩
abbrev main_v131 : Ref sig .tc := ⟨.hbm, 219, rfl⟩
abbrev main_v132 : Ref sig .tc := ⟨.hbm, 220, rfl⟩
abbrev main_v133 : Ref sig .tc := ⟨.hbm, 221, rfl⟩
abbrev main_v134 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_v149 : Ref sig .tc := ⟨.hbm, 237, rfl⟩
abbrev main_v150 : Ref sig .tc := ⟨.hbm, 238, rfl⟩
abbrev main_v151 : Ref sig .tc := ⟨.hbm, 239, rfl⟩
abbrev main_v152 : Ref sig .tc := ⟨.hbm, 240, rfl⟩
abbrev main_v153 : Ref sig .tc := ⟨.hbm, 241, rfl⟩
abbrev main_v154 : Ref sig .tc := ⟨.hbm, 242, rfl⟩
abbrev main_v155 : Ref sig .tc := ⟨.hbm, 243, rfl⟩
abbrev main_v156 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_29 : Ref sig .tc := ⟨.hbm, 248, rfl⟩
abbrev main_call6_v0 : Ref sig .tc := ⟨.hbm, 249, rfl⟩
abbrev main_call6_v1 : Ref sig .tc := ⟨.hbm, 250, rfl⟩
abbrev main_v160 : Ref sig .tc := ⟨.hbm, 251, rfl⟩
abbrev main_v161 : Ref sig .tc := ⟨.hbm, 252, rfl⟩
abbrev main_cst_30 : Ref sig .tc := ⟨.hbm, 253, rfl⟩
abbrev main_call7_v0 : Ref sig .tc := ⟨.hbm, 254, rfl⟩
abbrev main_call7_v1 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_cst_31 : Ref sig .tc := ⟨.hbm, 260, rfl⟩
abbrev main_v166 : Ref sig .tc := ⟨.hbm, 261, rfl⟩
abbrev main_v167 : Ref sig .tc := ⟨.hbm, 262, rfl⟩
abbrev main_v168 : Ref sig .tc := ⟨.hbm, 263, rfl⟩
abbrev main_cst_32 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_cst_33 : Ref sig .tc := ⟨.hbm, 268, rfl⟩
abbrev main_v172 : Ref sig .tc := ⟨.hbm, 269, rfl⟩
abbrev main_cst_34 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_cst_35 : Ref sig .tc := ⟨.hbm, 276, rfl⟩
abbrev main_v178 : Ref sig .tc := ⟨.hbm, 277, rfl⟩
abbrev main_v179 : Ref sig .tc := ⟨.hbm, 278, rfl⟩
abbrev main_cst_36 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_cst_37 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_cst_38 : Ref sig .tc := ⟨.hbm, 287, rfl⟩
abbrev main_v186 : Ref sig .tc := ⟨.hbm, 288, rfl⟩
abbrev main_cst_39 : Ref sig .tc := ⟨.hbm, 289, rfl⟩
abbrev main_v187 : Ref sig .tc := ⟨.hbm, 290, rfl⟩
abbrev main_v188 : Ref sig .tc := ⟨.hbm, 291, rfl⟩
abbrev main_cst_40 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_cst_41 : Ref sig .tc := ⟨.hbm, 296, rfl⟩
abbrev main_v192 : Ref sig .tc := ⟨.hbm, 297, rfl⟩
abbrev main_cst_42 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_cst_43 : Ref sig .tc := ⟨.hbm, 304, rfl⟩
abbrev main_v198 : Ref sig .tc := ⟨.hbm, 305, rfl⟩
abbrev main_v199 : Ref sig .tc := ⟨.hbm, 306, rfl⟩
abbrev main_cst_44 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_cst_45 : Ref sig .tc := ⟨.hbm, 313, rfl⟩
abbrev main_v205 : Ref sig .tc := ⟨.hbm, 314, rfl⟩
abbrev main_cst_46 : Ref sig .tc := ⟨.hbm, 315, rfl⟩
abbrev main_v206 : Ref sig .tc := ⟨.hbm, 316, rfl⟩
abbrev main_v207 : Ref sig .tc := ⟨.hbm, 317, rfl⟩
abbrev main_v208 : Ref sig .tc := ⟨.hbm, 318, rfl⟩
abbrev main_cst_47 : Ref sig .tc := ⟨.hbm, 319, rfl⟩
abbrev main_v209 : Ref sig .tc := ⟨.hbm, 320, rfl⟩
abbrev main_cst_48 : Ref sig .tc := ⟨.hbm, 321, rfl⟩
abbrev main_v210 : Ref sig .tc := ⟨.hbm, 322, rfl⟩
abbrev main_cst_49 : Ref sig .tc := ⟨.hbm, 323, rfl⟩
abbrev main_v211 : Ref sig .tc := ⟨.hbm, 324, rfl⟩
abbrev main_cst_50 : Ref sig .tc := ⟨.hbm, 325, rfl⟩
abbrev main_v212 : Ref sig .tc := ⟨.hbm, 326, rfl⟩
abbrev main_v213 : Ref sig .tc := ⟨.hbm, 327, rfl⟩
abbrev main_cst_51 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_v220 : Ref sig .tc := ⟨.hbm, 335, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v60 : BitVec 1 := Scalar.cmpi .eq arg0 c15_i32
  let v61 : BitVec 32 := Scalar.extui v60
  let c0_i32_23 : BitVec 32 := 0#32
  let v62 : BitVec 1 := Scalar.cmpi .ne v61 c0_i32_23
  v62

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  iota_S8x128_d0_w32 : S8x128.Iotas .tc 32 [0]
  shapeCasts_S1x1_S1x1 : S1x1.ShapeCasts S1x1
  broadcasts_S1x1_S8x128 : S1x1.Broadcasts S8x128
  slices_S8x128_S1x1_0_0 : S8x128.Slices ![0, 0] S1x1
  shapeCasts_S1x1_S_ : S1x1.ShapeCasts S_
  slices_S8x128_S1x1_1_0 : S8x128.Slices ![1, 0] S1x1
  slices_S8x128_S1x1_2_0 : S8x128.Slices ![2, 0] S1x1
  slices_S8x128_S1x1_3_0 : S8x128.Slices ![3, 0] S1x1
  slices_S16x64x5_S16x64x1_0_0_0 : S16x64x5.Slices ![0, 0, 0] S16x64x1
  shapeCasts_S16x64x1_S16x64 : S16x64x1.ShapeCasts S16x64
  slices_S16x64x5_S16x64x4_0_0_1 : S16x64x5.Slices ![0, 0, 1] S16x64x4
  slices_S16x64x4_S16x64x1_0_0_0 : S16x64x4.Slices ![0, 0, 0] S16x64x1
  bcast_S_S16x64 : S_.BroadcastsInDim S16x64 (![] : Fin 0 → Fin S16x64.rank)
  slices_S16x64x4_S16x64x1_0_0_1 : S16x64x4.Slices ![0, 0, 1] S16x64x1
  slices_S16x64x4_S16x64x1_0_0_2 : S16x64x4.Slices ![0, 0, 2] S16x64x1
  slices_S16x64x4_S16x64x1_0_0_3 : S16x64x4.Slices ![0, 0, 3] S16x64x1
  bcast_S16x64_S16x64x1_0_1 : S16x64.BroadcastsInDim S16x64x1 (![0, 1] : Fin 2 → Fin S16x64x1.rank)
  concatenates_S16x64x1_S16x64x1_S16x64x1_S16x64x1_S16x64x1_S16x64x5_d2 : Shape.Concatenates [S16x64x1, S16x64x1, S16x64x1, S16x64x1, S16x64x1] S16x64x5 2
  bcast_S16_S16x1x1_0 : S16.BroadcastsInDim S16x1x1 (![0] : Fin 1 → Fin S16x1x1.rank)
  transposes_S16x4x512x512_S16x512x512x4_0_2_3_1 : S16x4x512x512.Transposes [0, 2, 3, 1] S16x512x512x4
  bcast_S_S16x1x1 : S_.BroadcastsInDim S16x1x1 (![] : Fin 0 → Fin S16x1x1.rank)
  bcast_S_S16x64x5 : S_.BroadcastsInDim S16x64x5 (![] : Fin 0 → Fin S16x64x5.rank)
  bcast_S16x1x1_S16x64x5_0_1_2 : S16x1x1.BroadcastsInDim S16x64x5 (![0, 1, 2] : Fin 3 → Fin S16x64x5.rank)
  bcast_S16x64x5_S16x64x5x1_0_1_2 : S16x64x5.BroadcastsInDim S16x64x5x1 (![0, 1, 2] : Fin 3 → Fin S16x64x5x1.rank)
  concatenates_S16x64x5x1_S16x64x5x1_S16x64x5x1_S16x64x5x3_d3 : Shape.Concatenates [S16x64x5x1, S16x64x5x1, S16x64x5x1] S16x64x5x3 3
  shapeCasts_S16x1x512x512_S16x512x512 : S16x1x512x512.ShapeCasts S16x512x512
  bcast_S16x64x4_S16x64x1x4_0_1_3 : S16x64x4.BroadcastsInDim S16x64x1x4 (![0, 1, 3] : Fin 3 → Fin S16x64x1x4.rank)
  bcast_S16x64x1x4_S16x64x5x4_0_1_2_3 : S16x64x1x4.BroadcastsInDim S16x64x5x4 (![0, 1, 2, 3] : Fin 4 → Fin S16x64x5x4.rank)
  bcast_S16x64x1_S16x64x5_0_1_2 : S16x64x1.BroadcastsInDim S16x64x5 (![0, 1, 2] : Fin 3 → Fin S16x64x5.rank)
  shapeCasts_S16x64x5x4_S16x320x4 : S16x64x5x4.ShapeCasts S16x320x4
  slices_S16x320x4_S16x320x1_0_0_2 : S16x320x4.Slices ![0, 0, 2] S16x320x1
  shapeCasts_S16x320x1_S16x320 : S16x320x1.ShapeCasts S16x320
  slices_S16x320x4_S16x320x1_0_0_0 : S16x320x4.Slices ![0, 0, 0] S16x320x1
  slices_S16x320x4_S16x320x1_0_0_3 : S16x320x4.Slices ![0, 0, 3] S16x320x1
  slices_S16x320x4_S16x320x1_0_0_1 : S16x320x4.Slices ![0, 0, 1] S16x320x1
  bcast_S_S16x320 : S_.BroadcastsInDim S16x320 (![] : Fin 0 → Fin S16x320.rank)
  reducesTo_S16x320_S16_d1 : S16x320.ReducesTo [1] S16
  h_S_ : 0 < S_.numel
  bcast_S_S16 : S_.BroadcastsInDim S16 (![] : Fin 0 → Fin S16.rank)
  bcast_S_S16x320x4 : S_.BroadcastsInDim S16x320x4 (![] : Fin 0 → Fin S16x320x4.rank)
  reducesTo_S16x320x4_S16_d1_2 : S16x320x4.ReducesTo [1, 2] S16
  reducesTo_S16_S_d0 : S16.ReducesTo [0] S_
  shapeCasts_S16x64x5_S16x320 : S16x64x5.ShapeCasts S16x320
  bcast_S_S1 : S_.BroadcastsInDim S1 (![] : Fin 0 → Fin S1.rank)
  concatenates_S1_S1_S1_S1_S4_d0 : Shape.Concatenates [S1, S1, S1, S1] S4 0
  gather_S16x512x512x4_S16x64x5x3_S16x64x5x4_3_012_n_n_012_3_1114_wf : GatherDims.WF S16x512x512x4 S16x64x5x3 S16x64x5x4 [3] [0, 1, 2] [] [0, 1, 2] [] 3 ![1, 1, 1, 4]
  gather_S16x512x512_S16x64x5x3_S16x64x5_n_012_n_n_012_3_111_wf : GatherDims.WF S16x512x512 S16x64x5x3 S16x64x5 [] [0, 1, 2] [] [0, 1, 2] [] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S16x1x512x512.size a
  hwx0_0 : ∀ i : grid0.Coords, EltTy.bits .f32 = 32 ∨ (Rect.block (s := S16x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)

variable [Facts₀]

def gather_S16x512x512x4_S16x64x5x3_S16x64x5x4_3_012_n_n_012_3_1114 : GatherDims S16x512x512x4 S16x64x5x3 S16x64x5x4 where
  offsetDims := [3]
  collapsedSliceDims := [0, 1, 2]
  operandBatchingDims := []
  startIndicesBatchingDims := []
  startIndexMap := [0, 1, 2]
  indexVectorDim := 3
  sliceSizes := ![1, 1, 1, 4]
  wf := gather_S16x512x512x4_S16x64x5x3_S16x64x5x4_3_012_n_n_012_3_1114_wf
def gather_S16x512x512_S16x64x5x3_S16x64x5_n_012_n_n_012_3_111 : GatherDims S16x512x512 S16x64x5x3 S16x64x5 where
  offsetDims := []
  collapsedSliceDims := [0, 1, 2]
  operandBatchingDims := []
  startIndicesBatchingDims := []
  startIndexMap := [0, 1, 2]
  indexVectorDim := 3
  sliceSizes := ![1, 1, 1]
  wf := gather_S16x512x512_S16x64x5x3_S16x64x5_n_012_n_n_012_3_111_wf

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1x512x512 : Shape := ⟨4, ![16, 1, 512, 512]⟩
abbrev S16x4x512x512 : Shape := ⟨4, ![16, 4, 512, 512]⟩
abbrev S16x64x5 : Shape := ⟨3, ![16, 64, 5]⟩
abbrev S4194304 : Shape := ⟨1, ![4194304]⟩
abbrev S_ : Shape := ⟨0, ![]⟩
abbrev S16x64x1 : Shape := ⟨3, ![16, 64, 1]⟩
abbrev S16x64 : Shape := ⟨2, ![16, 64]⟩
abbrev S16x64x4 : Shape := ⟨3, ![16, 64, 4]⟩
abbrev S16 : Shape := ⟨1, ![16]⟩
abbrev S16x1x1 : Shape := ⟨3, ![16, 1, 1]⟩
abbrev S16x512x512x4 : Shape := ⟨4, ![16, 512, 512, 4]⟩
abbrev S16x64x5x1 : Shape := ⟨4, ![16, 64, 5, 1]⟩
abbrev S16x64x5x3 : Shape := ⟨4, ![16, 64, 5, 3]⟩
abbrev S16x64x5x4 : Shape := ⟨4, ![16, 64, 5, 4]⟩
abbrev S16x512x512 : Shape := ⟨3, ![16, 512, 512]⟩
abbrev S16x64x1x4 : Shape := ⟨4, ![16, 64, 1, 4]⟩
abbrev S16x320x4 : Shape := ⟨3, ![16, 320, 4]⟩
abbrev S16x320x1 : Shape := ⟨3, ![16, 320, 1]⟩
abbrev S16x320 : Shape := ⟨2, ![16, 320]⟩
abbrev S1 : Shape := ⟨1, ![1]⟩
abbrev S4 : Shape := ⟨1, ![4]⟩

abbrev nBuf : Space → Nat
  | .hbm => 349
  | .vmem => 0
  | .smem => 0
  | _ => 0

abbrev hbmTy0_0 (i : Nat) : BufTy := match i % 128 with
  | 0 => ⟨S16x1x512x512, .f32⟩
  | 1 => ⟨S16x1x512x512, .f32⟩
  | 2 => ⟨S16x4x512x512, .f32⟩
  | 3 => ⟨S16x1x512x512, .f32⟩
  | 4 => ⟨S16x64x5, .f32⟩
  | 5 => ⟨S4194304, .f32⟩
  | 6 => ⟨S4194304, .f32⟩
  | 7 => ⟨S4194304, .f32⟩
  | 8 => ⟨S4194304, .f32⟩
  | 9 => ⟨S_, .f32⟩
  | 10 => ⟨S4194304, .f32⟩
  | 11 => ⟨S4194304, .f32⟩
  | 12 => ⟨S_, .f32⟩
  | 13 => ⟨S4194304, .f32⟩
  | 14 => ⟨S4194304, .f32⟩
  | 15 => ⟨S4194304, .f32⟩
  | 16 => ⟨S4194304, .f32⟩
  | 17 => ⟨S4194304, .f32⟩
  | 18 => ⟨S_, .f32⟩
  | 19 => ⟨S_, .f32⟩
  | 20 => ⟨S_, .f32⟩
  | 21 => ⟨S_, .f32⟩
  | 22 => ⟨S_, .f32⟩
  | 23 => ⟨S4194304, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S16x64x1, .f32⟩
  | 42 => ⟨S16x64, .f32⟩
  | 43 => ⟨S16x64x4, .f32⟩
  | 44 => ⟨S16x64x1, .f32⟩
  | 45 => ⟨S16x64, .f32⟩
  | 46 => ⟨S_, .f32⟩
  | 47 => ⟨S16x64, .f32⟩
  | 48 => ⟨S16x64, .f32⟩
  | 49 => ⟨S16x64, .f32⟩
  | 50 => ⟨S16x64, .i32⟩
  | 51 => ⟨S_, .i32⟩
  | 52 => ⟨S_, .i32⟩
  | 53 => ⟨S_, .i32⟩
  | 54 => ⟨S16x64, .i32⟩
  | 55 => ⟨S16x64, .i32⟩
  | 56 => ⟨S_, .i32⟩
  | 57 => ⟨S16x64, .i32⟩
  | 58 => ⟨S16x64, .i32⟩
  | 59 => ⟨S16x64x1, .f32⟩
  | 60 => ⟨S16x64, .f32⟩
  | 61 => ⟨S_, .f32⟩
  | 62 => ⟨S16x64, .f32⟩
  | 63 => ⟨S16x64, .f32⟩
  | 64 => ⟨S16x64, .f32⟩
  | 65 => ⟨S16x64, .i32⟩
  | 66 => ⟨S_, .i32⟩
  | 67 => ⟨S_, .i32⟩
  | 68 => ⟨S_, .i32⟩
  | 69 => ⟨S16x64, .i32⟩
  | 70 => ⟨S16x64, .i32⟩
  | 71 => ⟨S_, .i32⟩
  | 72 => ⟨S16x64, .i32⟩
  | 73 => ⟨S16x64, .i32⟩
  | 74 => ⟨S16x64x1, .f32⟩
  | 75 => ⟨S16x64, .f32⟩
  | 76 => ⟨S_, .f32⟩
  | 77 => ⟨S16x64, .f32⟩
  | 78 => ⟨S16x64, .f32⟩
  | 79 => ⟨S16x64, .f32⟩
  | 80 => ⟨S16x64, .i32⟩
  | 81 => ⟨S_, .i32⟩
  | 82 => ⟨S_, .i32⟩
  | 83 => ⟨S_, .i32⟩
  | 84 => ⟨S16x64, .i32⟩
  | 85 => ⟨S16x64, .i32⟩
  | 86 => ⟨S_, .i32⟩
  | 87 => ⟨S16x64, .i32⟩
  | 88 => ⟨S16x64, .i32⟩
  | 89 => ⟨S16x64x1, .f32⟩
  | 90 => ⟨S16x64, .f32⟩
  | 91 => ⟨S_, .f32⟩
  | 92 => ⟨S16x64, .f32⟩
  | 93 => ⟨S16x64, .f32⟩
  | 94 => ⟨S16x64, .f32⟩
  | 95 => ⟨S16x64, .i32⟩
  | 96 => ⟨S_, .i32⟩
  | 97 => ⟨S_, .i32⟩
  | 98 => ⟨S_, .i32⟩
  | 99 => ⟨S16x64, .i32⟩
  | 100 => ⟨S16x64, .i32⟩
  | 101 => ⟨S_, .i32⟩
  | 102 => ⟨S16x64, .i32⟩
  | 103 => ⟨S16x64, .i32⟩
  | 104 => ⟨S16x64, .i32⟩
  | 105 => ⟨S_, .i32⟩
  | 106 => ⟨S_, .i32⟩
  | 107 => ⟨S16x64, .i32⟩
  | 108 => ⟨S16x64, .i32⟩
  | 109 => ⟨S16x64, .i32⟩
  | 110 => ⟨S_, .i32⟩
  | 111 => ⟨S16x64, .i32⟩
  | 112 => ⟨S16x64, .i1⟩
  | 113 => ⟨S16x64, .i32⟩
  | 114 => ⟨S16x64, .i32⟩
  | 115 => ⟨S_, .i32⟩
  | 116 => ⟨S16x64, .i32⟩
  | 117 => ⟨S16x64, .i1⟩
  | 118 => ⟨S16x64, .i1⟩
  | 119 => ⟨S_, .i32⟩
  | 120 => ⟨S16x64, .i32⟩
  | 121 => ⟨S16x64, .i32⟩
  | 122 => ⟨S16x64, .i32⟩
  | 123 => ⟨S16x64x1, .i32⟩
  | 124 => ⟨S16x64x1, .i32⟩
  | 125 => ⟨S16x64x1, .i32⟩
  | 126 => ⟨S16x64x1, .i32⟩
  | 127 => ⟨S16x64x1, .i32⟩
  | _ => ⟨S16x1x512x512, .f32⟩

abbrev hbmTy0_1 (i : Nat) : BufTy := match i % 128 with
  | 0 => ⟨S16x64x5, .i32⟩
  | 1 => ⟨S16x64, .i32⟩
  | 2 => ⟨S_, .i32⟩
  | 3 => ⟨S_, .i32⟩
  | 4 => ⟨S16x64, .i32⟩
  | 5 => ⟨S16x64, .i32⟩
  | 6 => ⟨S16x64, .i32⟩
  | 7 => ⟨S_, .i32⟩
  | 8 => ⟨S16x64, .i32⟩
  | 9 => ⟨S16x64, .i1⟩
  | 10 => ⟨S16x64, .i32⟩
  | 11 => ⟨S16x64, .i32⟩
  | 12 => ⟨S_, .i32⟩
  | 13 => ⟨S16x64, .i32⟩
  | 14 => ⟨S16x64, .i1⟩
  | 15 => ⟨S16x64, .i1⟩
  | 16 => ⟨S_, .i32⟩
  | 17 => ⟨S16x64, .i32⟩
  | 18 => ⟨S16x64, .i32⟩
  | 19 => ⟨S16x64, .i32⟩
  | 20 => ⟨S16x64x1, .i32⟩
  | 21 => ⟨S16x64x1, .i32⟩
  | 22 => ⟨S16x64x1, .i32⟩
  | 23 => ⟨S16x64x1, .i32⟩
  | 24 => ⟨S16x64x1, .i32⟩
  | 25 => ⟨S16x64x5, .i32⟩
  | 26 => ⟨S16, .i32⟩
  | 27 => ⟨S16x1x1, .i32⟩
  | 28 => ⟨S16x512x512x4, .f32⟩
  | 29 => ⟨S_, .i32⟩
  | 30 => ⟨S16x1x1, .i32⟩
  | 31 => ⟨S16x1x1, .i1⟩
  | 32 => ⟨S_, .i32⟩
  | 33 => ⟨S16x1x1, .i32⟩
  | 34 => ⟨S16x1x1, .i32⟩
  | 35 => ⟨S16x1x1, .i32⟩
  | 36 => ⟨S_, .i32⟩
  | 37 => ⟨S16x64x5, .i32⟩
  | 38 => ⟨S16x64x5, .i1⟩
  | 39 => ⟨S_, .i32⟩
  | 40 => ⟨S16x64x5, .i32⟩
  | 41 => ⟨S16x64x5, .i32⟩
  | 42 => ⟨S16x64x5, .i32⟩
  | 43 => ⟨S_, .i32⟩
  | 44 => ⟨S16x64x5, .i32⟩
  | 45 => ⟨S16x64x5, .i1⟩
  | 46 => ⟨S_, .i32⟩
  | 47 => ⟨S16x64x5, .i32⟩
  | 48 => ⟨S16x64x5, .i32⟩
  | 49 => ⟨S16x64x5, .i32⟩
  | 50 => ⟨S16x64x5, .i32⟩
  | 51 => ⟨S16x64x5x1, .i32⟩
  | 52 => ⟨S16x64x5x1, .i32⟩
  | 53 => ⟨S16x64x5x1, .i32⟩
  | 54 => ⟨S16x64x5x3, .i32⟩
  | 55 => ⟨S16x64x5x4, .f32⟩
  | 56 => ⟨S16x512x512, .f32⟩
  | 57 => ⟨S_, .i32⟩
  | 58 => ⟨S16x1x1, .i32⟩
  | 59 => ⟨S16x1x1, .i1⟩
  | 60 => ⟨S_, .i32⟩
  | 61 => ⟨S16x1x1, .i32⟩
  | 62 => ⟨S16x1x1, .i32⟩
  | 63 => ⟨S16x1x1, .i32⟩
  | 64 => ⟨S_, .i32⟩
  | 65 => ⟨S16x64x5, .i32⟩
  | 66 => ⟨S16x64x5, .i1⟩
  | 67 => ⟨S_, .i32⟩
  | 68 => ⟨S16x64x5, .i32⟩
  | 69 => ⟨S16x64x5, .i32⟩
  | 70 => ⟨S16x64x5, .i32⟩
  | 71 => ⟨S_, .i32⟩
  | 72 => ⟨S16x64x5, .i32⟩
  | 73 => ⟨S16x64x5, .i1⟩
  | 74 => ⟨S_, .i32⟩
  | 75 => ⟨S16x64x5, .i32⟩
  | 76 => ⟨S16x64x5, .i32⟩
  | 77 => ⟨S16x64x5, .i32⟩
  | 78 => ⟨S16x64x5, .i32⟩
  | 79 => ⟨S16x64x5x1, .i32⟩
  | 80 => ⟨S16x64x5x1, .i32⟩
  | 81 => ⟨S16x64x5x1, .i32⟩
  | 82 => ⟨S16x64x5x3, .i32⟩
  | 83 => ⟨S16x64x5, .f32⟩
  | 84 => ⟨S16x64x1x4, .f32⟩
  | 85 => ⟨S16x64x5x4, .f32⟩
  | 86 => ⟨S16x64x1, .f32⟩
  | 87 => ⟨S16x64x5, .f32⟩
  | 88 => ⟨S16x320x4, .f32⟩
  | 89 => ⟨S16x320x4, .f32⟩
  | 90 => ⟨S16x320x1, .f32⟩
  | 91 => ⟨S16x320, .f32⟩
  | 92 => ⟨S16x320x1, .f32⟩
  | 93 => ⟨S16x320, .f32⟩
  | 94 => ⟨S16x320, .f32⟩
  | 95 => ⟨S16x320x1, .f32⟩
  | 96 => ⟨S16x320, .f32⟩
  | 97 => ⟨S16x320x1, .f32⟩
  | 98 => ⟨S16x320, .f32⟩
  | 99 => ⟨S16x320, .f32⟩
  | 100 => ⟨S16x320, .f32⟩
  | 101 => ⟨S16x320x1, .f32⟩
  | 102 => ⟨S16x320, .f32⟩
  | 103 => ⟨S16x320x1, .f32⟩
  | 104 => ⟨S16x320, .f32⟩
  | 105 => ⟨S16x320, .f32⟩
  | 106 => ⟨S16x320x1, .f32⟩
  | 107 => ⟨S16x320, .f32⟩
  | 108 => ⟨S16x320x1, .f32⟩
  | 109 => ⟨S16x320, .f32⟩
  | 110 => ⟨S16x320, .f32⟩
  | 111 => ⟨S16x320, .f32⟩
  | 112 => ⟨S16x320x1, .f32⟩
  | 113 => ⟨S16x320, .f32⟩
  | 114 => ⟨S16x320x1, .f32⟩
  | 115 => ⟨S16x320, .f32⟩
  | 116 => ⟨S16x320, .f32⟩
  | 117 => ⟨S16x320x1, .f32⟩
  | 118 => ⟨S16x320, .f32⟩
  | 119 => ⟨S16x320x1, .f32⟩
  | 120 => ⟨S16x320, .f32⟩
  | 121 => ⟨S16x320, .f32⟩
  | 122 => ⟨S16x320x1, .f32⟩
  | 123 => ⟨S16x320, .f32⟩
  | 124 => ⟨S16x320x1, .f32⟩
  | 125 => ⟨S16x320, .f32⟩
  | 126 => ⟨S16x320, .f32⟩
  | 127 => ⟨S16x320x1, .f32⟩
  | _ => ⟨S16x1x512x512, .f32⟩

abbrev hbmTy0_2 (i : Nat) : BufTy := match i % 128 with
  | 0 => ⟨S16x320, .f32⟩
  | 1 => ⟨S16x320x1, .f32⟩
  | 2 => ⟨S16x320, .f32⟩
  | 3 => ⟨S16x320, .f32⟩
  | 4 => ⟨S16x320, .f32⟩
  | 5 => ⟨S_, .f32⟩
  | 6 => ⟨S_, .f32⟩
  | 7 => ⟨S16x320, .f32⟩
  | 8 => ⟨S16x320, .f32⟩
  | 9 => ⟨S16x320, .f32⟩
  | 10 => ⟨S_, .f32⟩
  | 11 => ⟨S_, .f32⟩
  | 12 => ⟨S16x320, .f32⟩
  | 13 => ⟨S16x320, .f32⟩
  | 14 => ⟨S16x320, .f32⟩
  | 15 => ⟨S16x320, .f32⟩
  | 16 => ⟨S16x320, .f32⟩
  | 17 => ⟨S_, .f32⟩
  | 18 => ⟨S16x320, .f32⟩
  | 19 => ⟨S16x320, .f32⟩
  | 20 => ⟨S16x320, .f32⟩
  | 21 => ⟨S_, .f32⟩
  | 22 => ⟨S16x320, .f32⟩
  | 23 => ⟨S16x320, .f32⟩
  | 24 => ⟨S16x320, .f32⟩
  | 25 => ⟨S_, .f32⟩
  | 26 => ⟨S16, .f32⟩
  | 27 => ⟨S_, .f32⟩
  | 28 => ⟨S16, .f32⟩
  | 29 => ⟨S16, .f32⟩
  | 30 => ⟨S16, .f32⟩
  | 31 => ⟨S16x320x4, .f32⟩
  | 32 => ⟨S16x320x4, .f32⟩
  | 33 => ⟨S_, .f32⟩
  | 34 => ⟨S16x320x4, .f32⟩
  | 35 => ⟨S16x320x4, .i1⟩
  | 36 => ⟨S_, .f32⟩
  | 37 => ⟨S16x320x4, .f32⟩
  | 38 => ⟨S16x320x4, .f32⟩
  | 39 => ⟨S16x320x4, .f32⟩
  | 40 => ⟨S_, .f32⟩
  | 41 => ⟨S16x320x4, .f32⟩
  | 42 => ⟨S16x320x4, .f32⟩
  | 43 => ⟨S16x320x4, .f32⟩
  | 44 => ⟨S_, .f32⟩
  | 45 => ⟨S16, .f32⟩
  | 46 => ⟨S_, .f32⟩
  | 47 => ⟨S16, .f32⟩
  | 48 => ⟨S16, .f32⟩
  | 49 => ⟨S_, .f32⟩
  | 50 => ⟨S16, .f32⟩
  | 51 => ⟨S16, .f32⟩
  | 52 => ⟨S16, .f32⟩
  | 53 => ⟨S_, .f32⟩
  | 54 => ⟨S_, .f32⟩
  | 55 => ⟨S_, .f32⟩
  | 56 => ⟨S_, .f32⟩
  | 57 => ⟨S16x320, .f32⟩
  | 58 => ⟨S16x320, .f32⟩
  | 59 => ⟨S16x320, .f32⟩
  | 60 => ⟨S16x320, .f32⟩
  | 61 => ⟨S_, .f32⟩
  | 62 => ⟨S16x320, .f32⟩
  | 63 => ⟨S16x320, .f32⟩
  | 64 => ⟨S_, .f32⟩
  | 65 => ⟨S16x320, .f32⟩
  | 66 => ⟨S16x320, .f32⟩
  | 67 => ⟨S16x320, .f32⟩
  | 68 => ⟨S16x320, .f32⟩
  | 69 => ⟨S16x320, .f32⟩
  | 70 => ⟨S_, .f32⟩
  | 71 => ⟨S16, .f32⟩
  | 72 => ⟨S_, .f32⟩
  | 73 => ⟨S16, .f32⟩
  | 74 => ⟨S16, .f32⟩
  | 75 => ⟨S16, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1, .f32⟩
  | 89 => ⟨S1, .f32⟩
  | 90 => ⟨S1, .f32⟩
  | 91 => ⟨S1, .f32⟩
  | 92 => ⟨S4, .f32⟩
  | _ => ⟨S16x1x512x512, .f32⟩

abbrev hbmTy (i : Nat) : BufTy := match i / 128 with
  | 0 => hbmTy0_0 i
  | 1 => hbmTy0_1 i
  | 2 => hbmTy0_2 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_cst_7 : Ref sig .tc := ⟨.hbm, 32, rfl⟩
abbrev main_v19 : Ref sig .tc := ⟨.hbm, 33, rfl⟩
abbrev main_v20 : Ref sig .tc := ⟨.hbm, 34, rfl⟩
abbrev main_cst_8 : Ref sig .tc := ⟨.hbm, 35, rfl⟩
abbrev main_v21 : Ref sig .tc := ⟨.hbm, 36, rfl⟩
abbrev main_v22 : Ref sig .tc := ⟨.hbm, 37, rfl⟩
abbrev main_cst_9 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c : Ref sig .tc := ⟨.hbm, 51, rfl⟩
abbrev main_c_11 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_12 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c_13 : Ref sig .tc := ⟨.hbm, 66, rfl⟩
abbrev main_c_14 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_call1_v3 : Ref sig .tc := ⟨.hbm, 71, rfl⟩
abbrev main_call1_v4 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_cst_15 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_c_16 : Ref sig .tc := ⟨.hbm, 81, rfl⟩
abbrev main_c_17 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_cst_18 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_c_19 : Ref sig .tc := ⟨.hbm, 96, rfl⟩
abbrev main_c_20 : Ref sig .tc := ⟨.hbm, 97, rfl⟩
abbrev main_call3_v0 : Ref sig .tc := ⟨.hbm, 98, rfl⟩
abbrev main_call3_v1 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_v55 : Ref sig .tc := ⟨.hbm, 103, rfl⟩
abbrev main_v56 : Ref sig .tc := ⟨.hbm, 104, rfl⟩
abbrev main_c_21 : Ref sig .tc := ⟨.hbm, 105, rfl⟩
abbrev main_call4_v0 : Ref sig .tc := ⟨.hbm, 106, rfl⟩
abbrev main_call4_v1 : Ref sig .tc := ⟨.hbm, 107, rfl⟩
abbrev main_call4_v2 : Ref sig .tc := ⟨.hbm, 108, rfl⟩
abbrev main_call4_v3 : Ref sig .tc := ⟨.hbm, 109, rfl⟩
abbrev main_call4_v4 : Ref sig .tc := ⟨.hbm, 110, rfl⟩
abbrev main_call4_v5 : Ref sig .tc := ⟨.hbm, 111, rfl⟩
abbrev main_call4_v6 : Ref sig .tc := ⟨.hbm, 112, rfl⟩
abbrev main_call4_v7 : Ref sig .tc := ⟨.hbm, 113, rfl⟩
abbrev main_call4_v8 : Ref sig .tc := ⟨.hbm, 114, rfl⟩
abbrev main_call4_c : Ref sig .tc := ⟨.hbm, 115, rfl⟩
abbrev main_call4_v9 : Ref sig .tc := ⟨.hbm, 116, rfl⟩
abbrev main_call4_v10 : Ref sig .tc := ⟨.hbm, 117, rfl⟩
abbrev main_call4_v11 : Ref sig .tc := ⟨.hbm, 118, rfl⟩
abbrev main_call4_c_0 : Ref sig .tc := ⟨.hbm, 119, rfl⟩
abbrev main_call4_v12 : Ref sig .tc := ⟨.hbm, 120, rfl⟩
abbrev main_call4_v13 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_c_22 : Ref sig .tc := ⟨.hbm, 130, rfl⟩
abbrev main_call5_v0 : Ref sig .tc := ⟨.hbm, 131, rfl⟩
abbrev main_call5_v1 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_v5 : Ref sig .tc := ⟨.hbm, 136, rfl⟩
abbrev main_call5_v6 : Ref sig .tc := ⟨.hbm, 137, rfl⟩
abbrev main_call5_v7 : Ref sig .tc := ⟨.hbm, 138, rfl⟩
abbrev main_call5_v8 : Ref sig .tc := ⟨.hbm, 139, rfl⟩
abbrev main_call5_c : Ref sig .tc := ⟨.hbm, 140, rfl⟩
abbrev main_call5_v9 : Ref sig .tc := ⟨.hbm, 141, rfl⟩
abbrev main_call5_v10 : Ref sig .tc := ⟨.hbm, 142, rfl⟩
abbrev main_call5_v11 : Ref sig .tc := ⟨.hbm, 143, rfl⟩
abbrev main_call5_c_0 : Ref sig .tc := ⟨.hbm, 144, rfl⟩
abbrev main_call5_v12 : Ref sig .tc := ⟨.hbm, 145, rfl⟩
abbrev main_call5_v13 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_v69 : Ref sig .tc := ⟨.hbm, 151, rfl⟩
abbrev main_v70 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_c_23 : Ref sig .tc := ⟨.hbm, 157, rfl⟩
abbrev main_v75 : Ref sig .tc := ⟨.hbm, 158, rfl⟩
abbrev main_v76 : Ref sig .tc := ⟨.hbm, 159, rfl⟩
abbrev main_c_24 : Ref sig .tc := ⟨.hbm, 160, rfl⟩
abbrev main_v77 : Ref sig .tc := ⟨.hbm, 161, rfl⟩
abbrev main_v78 : Ref sig .tc := ⟨.hbm, 162, rfl⟩
abbrev main_v79 : Ref sig .tc := ⟨.hbm, 163, rfl⟩
abbrev main_c_25 : Ref sig .tc := ⟨.hbm, 164, rfl⟩
abbrev main_v80 : Ref sig .tc := ⟨.hbm, 165, rfl⟩
abbrev main_v81 : Ref sig .tc := ⟨.hbm, 166, rfl⟩
abbrev main_c_26 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_c_27 : Ref sig .tc := ⟨.hbm, 171, rfl⟩
abbrev main_v85 : Ref sig .tc := ⟨.hbm, 172, rfl⟩
abbrev main_v86 : Ref sig .tc := ⟨.hbm, 173, rfl⟩
abbrev main_c_28 : Ref sig .tc := ⟨.hbm, 174, rfl⟩
abbrev main_v87 : Ref sig .tc := ⟨.hbm, 175, rfl⟩
abbrev main_v88 : Ref sig .tc := ⟨.hbm, 176, rfl⟩
abbrev main_v89 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_v95 : Ref sig .tc := ⟨.hbm, 183, rfl⟩
abbrev main_v96 : Ref sig .tc := ⟨.hbm, 184, rfl⟩
abbrev main_c_29 : Ref sig .tc := ⟨.hbm, 185, rfl⟩
abbrev main_v97 : Ref sig .tc := ⟨.hbm, 186, rfl⟩
abbrev main_v98 : Ref sig .tc := ⟨.hbm, 187, rfl⟩
abbrev main_c_30 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_c_31 : Ref sig .tc := ⟨.hbm, 192, rfl⟩
abbrev main_v102 : Ref sig .tc := ⟨.hbm, 193, rfl⟩
abbrev main_v103 : Ref sig .tc := ⟨.hbm, 194, rfl⟩
abbrev main_c_32 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_c_33 : Ref sig .tc := ⟨.hbm, 199, rfl⟩
abbrev main_v107 : Ref sig .tc := ⟨.hbm, 200, rfl⟩
abbrev main_v108 : Ref sig .tc := ⟨.hbm, 201, rfl⟩
abbrev main_c_34 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_v119 : Ref sig .tc := ⟨.hbm, 213, rfl⟩
abbrev main_v120 : Ref sig .tc := ⟨.hbm, 214, rfl⟩
abbrev main_v121 : Ref sig .tc := ⟨.hbm, 215, rfl⟩
abbrev main_v122 : Ref sig .tc := ⟨.hbm, 216, rfl⟩
abbrev main_v123 : Ref sig .tc := ⟨.hbm, 217, rfl⟩
abbrev main_v124 : Ref sig .tc := ⟨.hbm, 218, rfl⟩
abbrev main_v125 : Ref sig .tc := ⟨.hbm, 219, rfl⟩
abbrev main_v126 : Ref sig .tc := ⟨.hbm, 220, rfl⟩
abbrev main_v127 : Ref sig .tc := ⟨.hbm, 221, rfl⟩
abbrev main_v128 : Ref sig .tc := ⟨.hbm, 222, rfl⟩
abbrev main_v129 : Ref sig .tc := ⟨.hbm, 223, rfl⟩
abbrev main_v130 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_v134 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_v163 : Ref sig .tc := ⟨.hbm, 257, rfl⟩
abbrev main_v164 : Ref sig .tc := ⟨.hbm, 258, rfl⟩
abbrev main_v165 : Ref sig .tc := ⟨.hbm, 259, rfl⟩
abbrev main_v166 : Ref sig .tc := ⟨.hbm, 260, rfl⟩
abbrev main_cst_35 : Ref sig .tc := ⟨.hbm, 261, rfl⟩
abbrev main_call6_v0 : Ref sig .tc := ⟨.hbm, 262, rfl⟩
abbrev main_call6_v1 : Ref sig .tc := ⟨.hbm, 263, rfl⟩
abbrev main_v167 : Ref sig .tc := ⟨.hbm, 264, rfl⟩
abbrev main_v168 : Ref sig .tc := ⟨.hbm, 265, rfl⟩
abbrev main_cst_36 : Ref sig .tc := ⟨.hbm, 266, rfl⟩
abbrev main_call7_v0 : Ref sig .tc := ⟨.hbm, 267, rfl⟩
abbrev main_call7_v1 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_cst_37 : Ref sig .tc := ⟨.hbm, 273, rfl⟩
abbrev main_v173 : Ref sig .tc := ⟨.hbm, 274, rfl⟩
abbrev main_v174 : Ref sig .tc := ⟨.hbm, 275, rfl⟩
abbrev main_v175 : Ref sig .tc := ⟨.hbm, 276, rfl⟩
abbrev main_cst_38 : Ref sig .tc := ⟨.hbm, 277, rfl⟩
abbrev main_v176 : Ref sig .tc := ⟨.hbm, 278, rfl⟩
abbrev main_v177 : Ref sig .tc := ⟨.hbm, 279, rfl⟩
abbrev main_v178 : Ref sig .tc := ⟨.hbm, 280, rfl⟩
abbrev main_cst_39 : Ref sig .tc := ⟨.hbm, 281, rfl⟩
abbrev main_v179 : Ref sig .tc := ⟨.hbm, 282, rfl⟩
abbrev main_cst_40 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_v183 : Ref sig .tc := ⟨.hbm, 287, rfl⟩
abbrev main_v184 : Ref sig .tc := ⟨.hbm, 288, rfl⟩
abbrev main_cst_41 : Ref sig .tc := ⟨.hbm, 289, rfl⟩
abbrev main_v185 : Ref sig .tc := ⟨.hbm, 290, rfl⟩
abbrev main_v186 : Ref sig .tc := ⟨.hbm, 291, rfl⟩
abbrev main_cst_42 : Ref sig .tc := ⟨.hbm, 292, rfl⟩
abbrev main_v187 : Ref sig .tc := ⟨.hbm, 293, rfl⟩
abbrev main_v188 : Ref sig .tc := ⟨.hbm, 294, rfl⟩
abbrev main_v189 : Ref sig .tc := ⟨.hbm, 295, rfl⟩
abbrev main_cst_43 : Ref sig .tc := ⟨.hbm, 296, rfl⟩
abbrev main_v190 : Ref sig .tc := ⟨.hbm, 297, rfl⟩
abbrev main_v191 : Ref sig .tc := ⟨.hbm, 298, rfl⟩
abbrev main_v192 : Ref sig .tc := ⟨.hbm, 299, rfl⟩
abbrev main_cst_44 : Ref sig .tc := ⟨.hbm, 300, rfl⟩
abbrev main_v193 : Ref sig .tc := ⟨.hbm, 301, rfl⟩
abbrev main_cst_45 : Ref sig .tc := ⟨.hbm, 302, rfl⟩
abbrev main_v194 : Ref sig .tc := ⟨.hbm, 303, rfl⟩
abbrev main_v195 : Ref sig .tc := ⟨.hbm, 304, rfl⟩
abbrev main_cst_46 : Ref sig .tc := ⟨.hbm, 305, rfl⟩
abbrev main_v196 : Ref sig .tc := ⟨.hbm, 306, rfl⟩
abbrev main_v197 : Ref sig .tc := ⟨.hbm, 307, rfl⟩
abbrev main_v198 : Ref sig .tc := ⟨.hbm, 308, rfl⟩
abbrev main_cst_47 : Ref sig .tc := ⟨.hbm, 309, rfl⟩
abbrev main_v199 : Ref sig .tc := ⟨.hbm, 310, rfl⟩
abbrev main_cst_48 : Ref sig .tc := ⟨.hbm, 311, rfl⟩
abbrev main_v200 : Ref sig .tc := ⟨.hbm, 312, rfl⟩
abbrev main_v201 : Ref sig .tc := ⟨.hbm, 313, rfl⟩
abbrev main_v202 : Ref sig .tc := ⟨.hbm, 314, rfl⟩
abbrev main_v203 : Ref sig .tc := ⟨.hbm, 315, rfl⟩
abbrev main_v204 : Ref sig .tc := ⟨.hbm, 316, rfl⟩
abbrev main_cst_49 : Ref sig .tc := ⟨.hbm, 317, rfl⟩
abbrev main_v205 : Ref sig .tc := ⟨.hbm, 318, rfl⟩
abbrev main_v206 : Ref sig .tc := ⟨.hbm, 319, rfl⟩
abbrev main_cst_50 : Ref sig .tc := ⟨.hbm, 320, rfl⟩
abbrev main_v207 : Ref sig .tc := ⟨.hbm, 321, rfl⟩
abbrev main_v208 : Ref sig .tc := ⟨.hbm, 322, rfl⟩
abbrev main_v209 : Ref sig .tc := ⟨.hbm, 323, rfl⟩
abbrev main_v210 : Ref sig .tc := ⟨.hbm, 324, rfl⟩
abbrev main_v211 : Ref sig .tc := ⟨.hbm, 325, rfl⟩
abbrev main_cst_51 : Ref sig .tc := ⟨.hbm, 326, rfl⟩
abbrev main_v212 : Ref sig .tc := ⟨.hbm, 327, rfl⟩
abbrev main_cst_52 : Ref sig .tc := ⟨.hbm, 328, rfl⟩
abbrev main_v213 : Ref sig .tc := ⟨.hbm, 329, rfl⟩
abbrev main_v214 : Ref sig .tc := ⟨.hbm, 330, rfl⟩
abbrev main_v215 : Ref sig .tc := ⟨.hbm, 331, rfl⟩
abbrev main_cst_53 : Ref sig .tc := ⟨.hbm, 332, rfl⟩
abbrev main_v216 : Ref sig .tc := ⟨.hbm, 333, rfl⟩
abbrev main_cst_54 : Ref sig .tc := ⟨.hbm, 334, rfl⟩
abbrev main_v217 : Ref sig .tc := ⟨.hbm, 335, rfl⟩
abbrev main_cst_55 : Ref sig .tc := ⟨.hbm, 336, rfl⟩
abbrev main_v218 : Ref sig .tc := ⟨.hbm, 337, rfl⟩
abbrev main_cst_56 : Ref sig .tc := ⟨.hbm, 338, rfl⟩
abbrev main_v219 : Ref sig .tc := ⟨.hbm, 339, rfl⟩
abbrev main_v220 : Ref sig .tc := ⟨.hbm, 340, rfl⟩
abbrev main_cst_57 : Ref sig .tc := ⟨.hbm, 341, rfl⟩
abbrev main_v221 : Ref sig .tc := ⟨.hbm, 342, rfl⟩
abbrev main_v222 : Ref sig .tc := ⟨.hbm, 343, rfl⟩
abbrev main_v223 : Ref sig .tc := ⟨.hbm, 344, rfl⟩
abbrev main_v224 : Ref sig .tc := ⟨.hbm, 345, rfl⟩
abbrev main_v225 : Ref sig .tc := ⟨.hbm, 346, rfl⟩
abbrev main_v226 : Ref sig .tc := ⟨.hbm, 347, rfl⟩
abbrev main_v227 : Ref sig .tc := ⟨.hbm, 348, rfl⟩

abbrev nD : Nat := 1
abbrev τ : Topo := Topo.v7x

variable {F : FTy → Type} [FloatOps F]

class Facts₀ : Prop where
  shapeCasts_S16x1x512x512_S4194304 : S16x1x512x512.ShapeCasts S4194304
  bcast_S_S4194304 : S_.BroadcastsInDim S4194304 (![] : Fin 0 → Fin S4194304.rank)
  reducesTo_S4194304_S_d0 : S4194304.ReducesTo [0] S_
  h_S_ : 0 < S_.numel
  slices_S16x64x5_S16x64x1_0_0_0 : S16x64x5.Slices ![0, 0, 0] S16x64x1
  shapeCasts_S16x64x1_S16x64 : S16x64x1.ShapeCasts S16x64
  slices_S16x64x5_S16x64x4_0_0_1 : S16x64x5.Slices ![0, 0, 1] S16x64x4
  slices_S16x64x4_S16x64x1_0_0_0 : S16x64x4.Slices ![0, 0, 0] S16x64x1
  bcast_S_S16x64 : S_.BroadcastsInDim S16x64 (![] : Fin 0 → Fin S16x64.rank)
  slices_S16x64x4_S16x64x1_0_0_1 : S16x64x4.Slices ![0, 0, 1] S16x64x1
  slices_S16x64x4_S16x64x1_0_0_2 : S16x64x4.Slices ![0, 0, 2] S16x64x1
  slices_S16x64x4_S16x64x1_0_0_3 : S16x64x4.Slices ![0, 0, 3] S16x64x1
  bcast_S16x64_S16x64x1_0_1 : S16x64.BroadcastsInDim S16x64x1 (![0, 1] : Fin 2 → Fin S16x64x1.rank)
  concatenates_S16x64x1_S16x64x1_S16x64x1_S16x64x1_S16x64x1_S16x64x5_d2 : Shape.Concatenates [S16x64x1, S16x64x1, S16x64x1, S16x64x1, S16x64x1] S16x64x5 2
  bcast_S16_S16x1x1_0 : S16.BroadcastsInDim S16x1x1 (![0] : Fin 1 → Fin S16x1x1.rank)
  transposes_S16x4x512x512_S16x512x512x4_0_2_3_1 : S16x4x512x512.Transposes [0, 2, 3, 1] S16x512x512x4
  bcast_S_S16x1x1 : S_.BroadcastsInDim S16x1x1 (![] : Fin 0 → Fin S16x1x1.rank)
  bcast_S_S16x64x5 : S_.BroadcastsInDim S16x64x5 (![] : Fin 0 → Fin S16x64x5.rank)
  bcast_S16x1x1_S16x64x5_0_1_2 : S16x1x1.BroadcastsInDim S16x64x5 (![0, 1, 2] : Fin 3 → Fin S16x64x5.rank)
  bcast_S16x64x5_S16x64x5x1_0_1_2 : S16x64x5.BroadcastsInDim S16x64x5x1 (![0, 1, 2] : Fin 3 → Fin S16x64x5x1.rank)
  concatenates_S16x64x5x1_S16x64x5x1_S16x64x5x1_S16x64x5x3_d3 : Shape.Concatenates [S16x64x5x1, S16x64x5x1, S16x64x5x1] S16x64x5x3 3
  shapeCasts_S16x1x512x512_S16x512x512 : S16x1x512x512.ShapeCasts S16x512x512
  bcast_S16x64x4_S16x64x1x4_0_1_3 : S16x64x4.BroadcastsInDim S16x64x1x4 (![0, 1, 3] : Fin 3 → Fin S16x64x1x4.rank)
  bcast_S16x64x1x4_S16x64x5x4_0_1_2_3 : S16x64x1x4.BroadcastsInDim S16x64x5x4 (![0, 1, 2, 3] : Fin 4 → Fin S16x64x5x4.rank)
  bcast_S16x64x1_S16x64x5_0_1_2 : S16x64x1.BroadcastsInDim S16x64x5 (![0, 1, 2] : Fin 3 → Fin S16x64x5.rank)
  shapeCasts_S16x64x5x4_S16x320x4 : S16x64x5x4.ShapeCasts S16x320x4
  slices_S16x320x4_S16x320x1_0_0_2 : S16x320x4.Slices ![0, 0, 2] S16x320x1
  shapeCasts_S16x320x1_S16x320 : S16x320x1.ShapeCasts S16x320
  slices_S16x320x4_S16x320x1_0_0_0 : S16x320x4.Slices ![0, 0, 0] S16x320x1
  slices_S16x320x4_S16x320x1_0_0_3 : S16x320x4.Slices ![0, 0, 3] S16x320x1
  slices_S16x320x4_S16x320x1_0_0_1 : S16x320x4.Slices ![0, 0, 1] S16x320x1
  bcast_S_S16x320 : S_.BroadcastsInDim S16x320 (![] : Fin 0 → Fin S16x320.rank)
  reducesTo_S16x320_S16_d1 : S16x320.ReducesTo [1] S16
  bcast_S_S16 : S_.BroadcastsInDim S16 (![] : Fin 0 → Fin S16.rank)
  bcast_S_S16x320x4 : S_.BroadcastsInDim S16x320x4 (![] : Fin 0 → Fin S16x320x4.rank)
  reducesTo_S16x320x4_S16_d1_2 : S16x320x4.ReducesTo [1, 2] S16
  reducesTo_S16_S_d0 : S16.ReducesTo [0] S_
  shapeCasts_S16x64x5_S16x320 : S16x64x5.ShapeCasts S16x320
  bcast_S_S1 : S_.BroadcastsInDim S1 (![] : Fin 0 → Fin S1.rank)
  concatenates_S1_S1_S1_S1_S4_d0 : Shape.Concatenates [S1, S1, S1, S1] S4 0
  gather_S16x512x512x4_S16x64x5x3_S16x64x5x4_3_012_n_n_012_3_1114_wf : GatherDims.WF S16x512x512x4 S16x64x5x3 S16x64x5x4 [3] [0, 1, 2] [] [0, 1, 2] [] 3 ![1, 1, 1, 4]
  gather_S16x512x512_S16x64x5x3_S16x64x5_n_012_n_n_012_3_111_wf : GatherDims.WF S16x512x512 S16x64x5x3 S16x64x5 [] [0, 1, 2] [] [0, 1, 2] [] 3 ![1, 1, 1]

variable [Facts₀]

def gather_S16x512x512x4_S16x64x5x3_S16x64x5x4_3_012_n_n_012_3_1114 : GatherDims S16x512x512x4 S16x64x5x3 S16x64x5x4 where
  offsetDims := [3]
  collapsedSliceDims := [0, 1, 2]
  operandBatchingDims := []
  startIndicesBatchingDims := []
  startIndexMap := [0, 1, 2]
  indexVectorDim := 3
  sliceSizes := ![1, 1, 1, 4]
  wf := gather_S16x512x512x4_S16x64x5x3_S16x64x5x4_3_012_n_n_012_3_1114_wf
def gather_S16x512x512_S16x64x5x3_S16x64x5_n_012_n_n_012_3_111 : GatherDims S16x512x512 S16x64x5x3 S16x64x5 where
  offsetDims := []
  collapsedSliceDims := [0, 1, 2]
  operandBatchingDims := []
  startIndicesBatchingDims := []
  startIndexMap := [0, 1, 2]
  indexVectorDim := 3
  sliceSizes := ![1, 1, 1]
  wf := gather_S16x512x512_S16x64x5x3_S16x64x5_n_012_n_n_012_3_111_wf

class Facts : Prop extends Facts₀ where

variable [Facts]
-- ==== Proof.K.Base.lean ====
/-
  The kernel program's @main is its one pipelined region followed by nineteen stretches of host
  operations.  This module names that tail and the contents the region finds: no host operation
  runs before the region, so every TensorCore buffer is found as launched.
-/
import proofs.«116515_j64166811402734_2_alg».proof.Proof.Gen.Kernel.Launch
import Idealize.ShloMosaic.Lib.Pipeline.FrameSuffix

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

/-- The host stretches that follow the region, in program order (a called function's operations
    are a stretch of their own). -/
abbrev tail : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18]

/-- Core `c`'s TensorCore buffer contents when the region is entered: the launch contents, folded over
    the (empty) list of host operations before the region. -/
abbrev V0 (c : Dev nD) : Valuation τ sig (Elt F) :=
  StableHlo.after (List.flatten ([] : List (List (HloOp τ sig (Elt F))))) (fun b => m (c, b))

/-- The same read at a TensorCore reference. -/
abbrev V (c : Dev nD) (b : Ref sig .tc) : Buf (Elt F) ((c : Thread nD τ).loc b) := V0 m c (Proc.devRef .tc b)

/-- The fold over no operations is the launch memory. -/
theorem V_arr (c : Dev nD) (b : Ref sig .tc) : V m c b = m ((c : Thread nD τ).loc b) := rfl

end Cert.Kernel.Hand

end
-- ==== Proof.K.Runs.lean ====
/-
  What the three control cases of the kernel body share.  The body branches twice on the grid
  position: at the first point it zeroes the accumulator scratch, at the last point it copies the
  accumulator to the output block.  So the sixteen points fall into three cases: the first point
  (reset, no copy), the fourteen middle points (neither) and the last point (copy, no reset).
  Here: the two conditions in closed form over the grid, where the output window is idle and where
  it is written back, each window's block read off its array, and the region invariant spelled with
  the accumulator scratch as an owned memref.
-/
import proofs.«116515_j64166811402734_2_alg».proof.Proof.K.Base
import proofs.«116515_j64166811402734_2_alg».proof.Proof.Gen.Kernel.Skeleton
import proofs.«116515_j64166811402734_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose
    array is the region-entry contents and whose body leaves the block in place: window 0. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val = 0 :=
  (by decide +kernel : ∀ t : Fin grid0.N, cond0_0 (grid0.coords t) ↔ t.val = 0)

/-- "This is the last grid point", as the body computes it. -/
abbrev cond0_1 (i : grid0.Coords) : Prop := k0_cond2 i = 1#1
/-- It holds exactly at point 15. -/
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the output block, -/
theorem idleAt0_2 : ∀ t : Fin cfg0.N, ¬cond0_1 (grid0.coords t) → cfg0.idle 2 (grid0.coords t) = true := by decide +kernel
/-- and the pipeline does not write it back there. -/
theorem noFlush0_2 : ∀ t : Fin cfg0.N, ¬cond0_1 (grid0.coords t) → (cfg0.win 2).flush t = false := by decide +kernel
/-- At the last point the output block is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S8x128 .f32 := (Memref.whole cc0_stg2_0 : Memref sig .tc .vmem S8x128 .f32).view
abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S8x128 .f32 := Memref.whole cc0_scratch0
abbrev VS0_0 : View sig .tc .vmem S8x128 .f32 := scM0_0.view

/-- The launch's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Hand

end
-- ==== Proof.K.RunA.lean ====
/-
  The body's run at the FIRST grid point: the reset branch is taken (the accumulator is loaded once
  — a value nothing uses — and then stored whole with zeros), the two input tiles are loaded, the
  accumulator is loaded back and stored whole with itself plus this tile's four sums, and the copy
  branch is not taken, so the output block is handed back untouched.
-/
import proofs.«116515_j64166811402734_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first-point run leaves in the accumulator (found by the run), with the triple: from
    whole memrefs — the inputs at `x0`, `x1`, the idle output at `xi2`, the accumulator at anything — the
    body runs to a continuation holding the inputs and the output as they were and the accumulator
    with those pieces written. -/
noncomputable def kernelRun0_A (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 : Vec F S1x1x512x512 .f32) (x1 : Vec F S1x1x512x512 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__text_loss_kernel i arg1 harg1 arg2 harg2 arg3 harg3 arg4 harg4) K } := by
  refine ⟨[], ?_, fun xi2 E K => ?run⟩
  case run =>
    simp only [cc0__text_loss_kernel_eq_skeleton]; unfold cc0__text_loss_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.RunB.lean ====
/-
  The body's run at a MIDDLE grid point: neither branch is taken.  The two input tiles are loaded,
  the accumulator — which holds what the point before left — is loaded and stored whole with itself
  plus this tile's four sums; the output block is handed back untouched.
-/
import proofs.«116515_j64166811402734_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a middle-point run leaves in the accumulator, with the triple: the accumulator is
    found at `xs0`, the contents the point before left. -/
noncomputable def kernelRun0_B (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 : Vec F S1x1x512x512 .f32) (x1 : Vec F S1x1x512x512 .f32) (xs0 : Vec F S8x128 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__text_loss_kernel i arg1 harg1 arg2 harg2 arg3 harg3 arg4 harg4) K } := by
  refine ⟨[], ?_, fun xi2 E K => ?run⟩
  case run =>
    simp only [cc0__text_loss_kernel_eq_skeleton]; unfold cc0__text_loss_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.Kernel.Hand

end
-- ==== Proof.K.RunC.lean ====
/-
  The body's run at the LAST grid point: the reset branch is not taken, the copy branch is.  The
  input tiles are loaded, the accumulator is loaded and stored whole with itself plus this tile's
  four sums, then loaded once more and stored whole into the output block (which is loaded first —
  a value nothing uses).
-/
import proofs.«116515_j64166811402734_2_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the last-point run leaves in the output block and in the accumulator, with the
    triple: the accumulator is found at `xs0`, the output block at anything. -/
noncomputable def kernelRun0_C (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 : Vec F S1x1x512x512 .f32) (x1 : Vec F S1x1x512x512 .f32) (xs0 : Vec F S8x128 .f32) :
    Σ' (L2 : List (View.Piece (Elt F) S8x128 .f32)), { LS0 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__text_loss_kernel i arg1 harg1 arg2 harg2 arg3 harg3 arg4 harg4) K } := by
  refine ⟨?_, ?_, fun E K => ?run⟩
  case run =>
    simp only [cc0__text_loss_kernel_eq_skeleton]; unfold cc0__text_loss_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.Kernel.Hand

end
-- ==== Proof.K.Frame.lean ====
/-
  The proof data of the kernel's one pipeline, and the body obligation.
  After the body at point `n` the accumulator scratch holds: at point 0 the zero block plus the four
  sums of tile 0 in rows 0–3 (every other row plus zero); at each later point what the point before
  left plus that tile's sums.  The output block is touched at the last point only, where it receives
  the accumulator.  `outsAt0` states this by recursion on the point through the pieces each case's
  run leaves; the region invariant carries the accumulator at `outsAt0`'s second component from one
  point to the next, and the body obligation is the three runs, selected by the closed forms of the
  two branch conditions.
-/
import proofs.«116515_j64166811402734_2_alg».proof.Proof.K.RunA
import proofs.«116515_j64166811402734_2_alg».proof.Proof.K.RunB
import proofs.«116515_j64166811402734_2_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point stores nothing into the output block: no pieces (a placeholder nothing consults). -/
def out0_A_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 x1 : Vec F S1x1x512x512 .f32) : Vec F S8x128 .f32 :=
  VO0_2.read (Elt F) (VO0_2.writes (Elt F) VO0_2.junk (kernelRun0_A c i arg1 harg1 arg2 harg2 arg3 harg3 arg4 harg4 hc0 hc1 x0 x1).1)

/-- The first point's pieces cover the accumulator (two whole stores). -/
theorem scover0_A_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 x1 : Vec F S1x1x512x512 .f32) (y : S8x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S8x128.size (by sl_kernel_rfl) y

/-- What the first point leaves in the accumulator. -/
def sout0_A_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 x1 : Vec F S1x1x512x512 .f32) : Vec F S8x128 .f32 :=
  VS0_0.read (Elt F) (VS0_0.writes (Elt F) VS0_0.junk (kernelRun0_A c i arg1 harg1 arg2 harg2 arg3 harg3 arg4 harg4 hc0 hc1 x0 x1).2.1)

/-- A middle point stores nothing into the output block. -/
def out0_B_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 x1 : Vec F S1x1x512x512 .f32) (xs0 : Vec F S8x128 .f32) : Vec F S8x128 .f32 :=
  VO0_2.read (Elt F) (VO0_2.writes (Elt F) VO0_2.junk (kernelRun0_B c i arg1 harg1 arg2 harg2 arg3 harg3 arg4 harg4 hc0 hc1 x0 x1 xs0).1)

theorem scover0_B_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 x1 : Vec F S1x1x512x512 .f32) (xs0 : Vec F S8x128 .f32) (y : S8x128.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S8x128.size (by sl_kernel_rfl) y

/-- What a middle point leaves in the accumulator. -/
def sout0_B_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 x1 : Vec F S1x1x512x512 .f32) (xs0 : Vec F S8x128 .f32) : Vec F S8x128 .f32 :=
  VS0_0.read (Elt F) (VS0_0.writes (Elt F) VS0_0.junk (kernelRun0_B c i arg1 harg1 arg2 harg2 arg3 harg3 arg4 harg4 hc0 hc1 x0 x1 xs0).2.1)

/-- The last point's one store covers the output block. -/
theorem cover0_C_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) (y : S8x128.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S8x128.size (by sl_kernel_rfl) y

/-- What the last point leaves in the output block. -/
def out0_C_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) : Vec F S8x128 .f32 :=
  VO0_2.read (Elt F) (VO0_2.writes (Elt F) VO0_2.junk (kernelRun0_C c i arg1 harg1 arg2 harg2 arg3 harg3 arg4 harg4 hc0 hc1 x0 x1 xs0).1)

theorem scover0_C_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) (y : S8x128.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S8x128.size (by sl_kernel_rfl) y

/-- What the last point leaves in the accumulator. -/
def sout0_C_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) : Vec F S8x128 .f32 :=
  VS0_0.read (Elt F) (VS0_0.writes (Elt F) VS0_0.junk (kernelRun0_C c i arg1 harg1 arg2 harg2 arg3 harg3 arg4 harg4 hc0 hc1 x0 x1 xs0).2.1)

/-! ## The accumulation, point by point -/

/-- What the output block's buffer and the accumulator hold after the body at position `n`: the case the
    closed forms select there, run on the point's memrefs and input blocks, over what the point before
    left in the accumulator. -/
def outsAt0 (c : Dev nD) : (n : ℕ) → n < cfg0.N → Vec F S8x128 .f32 × Vec F S8x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬ (0 : ℕ) = 15 by decide)) (iblk m c 0 ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬ (0 : ℕ) = 15 by decide)) (iblk m c 0 ⟨0, hn⟩) (iblk m c 1 ⟨0, hn⟩))
  | n + 1, hn =>
    if h1 : n + 1 = 15 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at the first point. -/
theorem outsAt0_A (c : Dev nD) (t : Fin cfg0.N) (h0 : t.val = 0) (h1 : ¬t.val = 15) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 15) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-! ## The region invariant: the accumulator carried from point to point -/

/-- Before the first point the launch's invariant (the accumulator at anything); before each later point the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and
    the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the
    point is in; the invariant hands the body the accumulator at what the point before left (at anything
    at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have h1 : ¬t.val = 15 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · by_cases h1 : t.val = 15
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.Kernel.Hand

end
-- ==== Proof.K.TailLib.lean ====
/-
  The buffers the host stretches after the region must leave alone — the five arguments and the
  region's result array — and the one step every per-operation fact goes through: an operation
  whose only written buffer is its own result writes none of them.
-/
import proofs.«116515_j64166811402734_2_alg».proof.Proof.K.Base

set_option maxRecDepth 16384
set_option maxHeartbeats 4000000

noncomputable section

namespace Cert.Kernel.Hand

open Cert.Kernel Cert.Kernel.Gen
open Idealize.ShloMosaic Idealize.ShloMosaic.TcCoe
open Idealize.SL Idealize.SL.Sem

variable {F : FTy → Type} [FloatOps F]

/-- The buffers no host operation after the region may write: the five arguments and the region's result array. -/
abbrev prot : List (Ref sig .tc) := [main_arg0, main_arg1, main_arg2, main_arg3, main_arg4, main_v0]

/-- An operation that writes exactly its result buffer `y`, no protected buffer, writes none of them (distinct
    references are distinct device buffers). -/
theorem keep_of {op : HloOp τ sig (Elt F)} (y : Ref sig .tc) (h : op.writes = {Proc.devRef .tc y})
    (hy : ∀ b ∈ prot, b ≠ y) : ∀ b ∈ prot, Proc.devRef (τ := τ) .tc b ∉ op.writes := by
  intro b hb
  rw [h, Finset.mem_singleton]
  exact StableHlo.devRef_ne_of_ne (hy b hb)

end Cert.Kernel.Hand

end
-- ==== Proof.K.TailOpsA.lean ====
/-
  Per-operation facts of the host stretches hostOps1 … hostOps1_11 that follow the region: each operation
  writes only its own result buffer — never an argument nor the region's result array — and allocates nothing.
-/
import proofs.«116515_j64166811402734_2_alg».proof.Proof.K.TailLib

set_option maxRecDepth 16384
set_option maxHeartbeats 4000000

noncomputable section

namespace Cert.Kernel.Hand

open Cert.Kernel Cert.Kernel.Gen
open Idealize.ShloMosaic Idealize.ShloMosaic.TcCoe
open Idealize.SL Idealize.SL.Sem

variable {F : FTy → Type} [FloatOps F]

/-- Every operation of `hostOps1` writes its own result buffer only, which is none of the protected ones. -/
theorem keeps_0 : (hostOps1 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_0 : (hostOps1 : List (HloOp τ sig (Elt F))).Forall fun op => op.fresh = ∅ := by
  simp only [List.Forall]; repeat' constructor

/-- Every operation of `hostOps1_1` writes its own result buffer only, which is none of the protected ones. -/
theorem keeps_1 : (hostOps1_1 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_1 : (hostOps1_1 : List (HloOp τ sig (Elt F))).Forall fun op => op.fresh = ∅ := by
  simp only [List.Forall]; repeat' constructor

/-- Every operation of `hostOps1_2` writes its own result buffer only, which is none of the protected ones. -/
theorem keeps_2 : (hostOps1_2 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_2 : (hostOps1_2 : List (HloOp τ sig (Elt F))).Forall fun op => op.fresh = ∅ := by
  simp only [List.Forall]; repeat' constructor

/-- Every operation of `hostOps1_3` writes its own result buffer only, which is none of the protected ones. -/
theorem keeps_3 : (hostOps1_3 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_3 : (hostOps1_3 : List (HloOp τ sig (Elt F))).Forall fun op => op.fresh = ∅ := by
  simp only [List.Forall]; repeat' constructor

/-- Every operation of `hostOps1_4` writes its own result buffer only, which is none of the protected ones. -/
theorem keeps_4 : (hostOps1_4 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_4 : (hostOps1_4 : List (HloOp τ sig (Elt F))).Forall fun op => op.fresh = ∅ := by
  simp only [List.Forall]; repeat' constructor

/-- Every operation of `hostOps1_5` writes its own result buffer only, which is none of the protected ones. -/
theorem keeps_5 : (hostOps1_5 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_5 : (hostOps1_5 : List (HloOp τ sig (Elt F))).Forall fun op => op.fresh = ∅ := by
  simp only [List.Forall]; repeat' constructor

/-- Every operation of `hostOps1_6` writes its own result buffer only, which is none of the protected ones. -/
theorem keeps_6 : (hostOps1_6 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_6 : (hostOps1_6 : List (HloOp τ sig (Elt F))).Forall fun op => op.fresh = ∅ := by
  simp only [List.Forall]; repeat' constructor

/-- Every operation of `hostOps1_7` writes its own result buffer only, which is none of the protected ones. -/
theorem keeps_7 : (hostOps1_7 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_7 : (hostOps1_7 : List (HloOp τ sig (Elt F))).Forall fun op => op.fresh = ∅ := by
  simp only [List.Forall]; repeat' constructor

/-- Every operation of `hostOps1_8` writes its own result buffer only, which is none of the protected ones. -/
theorem keeps_8 : (hostOps1_8 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_8 : (hostOps1_8 : List (HloOp τ sig (Elt F))).Forall fun op => op.fresh = ∅ := by
  simp only [List.Forall]; repeat' constructor

/-- Every operation of `hostOps1_9` writes its own result buffer only, which is none of the protected ones. -/
theorem keeps_9 : (hostOps1_9 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_9 : (hostOps1_9 : List (HloOp τ sig (Elt F))).Forall fun op => op.fresh = ∅ := by
  simp only [List.Forall]; repeat' constructor

/-- Every operation of `hostOps1_10` writes its own result buffer only, which is none of the protected ones. -/
theorem keeps_10 : (hostOps1_10 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_10 : (hostOps1_10 : List (HloOp τ sig (Elt F))).Forall fun op => op.fresh = ∅ := by
  simp only [List.Forall]; repeat' constructor

/-- Every operation of `hostOps1_11` writes its own result buffer only, which is none of the protected ones. -/
theorem keeps_11 : (hostOps1_11 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_11 : (hostOps1_11 : List (HloOp τ sig (Elt F))).Forall fun op => op.fresh = ∅ := by
  simp only [List.Forall]; repeat' constructor

end Cert.Kernel.Hand

end
-- ==== Proof.K.TailOpsB.lean ====
/-
  Per-operation facts of the host stretches hostOps1_12 … hostOps1_12 that follow the region: each operation
  writes only its own result buffer — never an argument nor the region's result array — and allocates nothing.
-/
import proofs.«116515_j64166811402734_2_alg».proof.Proof.K.TailLib

set_option maxRecDepth 16384
set_option maxHeartbeats 4000000

noncomputable section

namespace Cert.Kernel.Hand

open Cert.Kernel Cert.Kernel.Gen
open Idealize.ShloMosaic Idealize.ShloMosaic.TcCoe
open Idealize.SL Idealize.SL.Sem

variable {F : FTy → Type} [FloatOps F]

/-- Every operation of `hostOps1_12` writes its own result buffer only, which is none of the protected ones. -/
theorem keeps_12 : (hostOps1_12 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_12 : (hostOps1_12 : List (HloOp τ sig (Elt F))).Forall fun op => op.fresh = ∅ := by
  simp only [List.Forall]; repeat' constructor

end Cert.Kernel.Hand

end
-- ==== Proof.K.TailOpsC.lean ====
/-
  Per-operation facts of the host stretches hostOps1_13 … hostOps1_18 that follow the region: each operation
  writes only its own result buffer — never an argument nor the region's result array — and allocates nothing.
-/
import proofs.«116515_j64166811402734_2_alg».proof.Proof.K.TailLib

set_option maxRecDepth 16384
set_option maxHeartbeats 4000000

noncomputable section

namespace Cert.Kernel.Hand

open Cert.Kernel Cert.Kernel.Gen
open Idealize.ShloMosaic Idealize.ShloMosaic.TcCoe
open Idealize.SL Idealize.SL.Sem

variable {F : FTy → Type} [FloatOps F]

/-- Every operation of `hostOps1_13` writes its own result buffer only, which is none of the protected ones. -/
theorem keeps_13 : (hostOps1_13 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_13 : (hostOps1_13 : List (HloOp τ sig (Elt F))).Forall fun op => op.fresh = ∅ := by
  simp only [List.Forall]; repeat' constructor

/-- Every operation of `hostOps1_14` writes its own result buffer only, which is none of the protected ones. -/
theorem keeps_14 : (hostOps1_14 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_14 : (hostOps1_14 : List (HloOp τ sig (Elt F))).Forall fun op => op.fresh = ∅ := by
  simp only [List.Forall]; repeat' constructor

/-- Every operation of `hostOps1_15` writes its own result buffer only, which is none of the protected ones. -/
theorem keeps_15 : (hostOps1_15 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_15 : (hostOps1_15 : List (HloOp τ sig (Elt F))).Forall fun op => op.fresh = ∅ := by
  simp only [List.Forall]; repeat' constructor

/-- Every operation of `hostOps1_16` writes its own result buffer only, which is none of the protected ones. -/
theorem keeps_16 : (hostOps1_16 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_16 : (hostOps1_16 : List (HloOp τ sig (Elt F))).Forall fun op => op.fresh = ∅ := by
  simp only [List.Forall]; repeat' constructor

/-- Every operation of `hostOps1_17` writes its own result buffer only, which is none of the protected ones. -/
theorem keeps_17 : (hostOps1_17 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_17 : (hostOps1_17 : List (HloOp τ sig (Elt F))).Forall fun op => op.fresh = ∅ := by
  simp only [List.Forall]; repeat' constructor

/-- Every operation of `hostOps1_18` writes its own result buffer only, which is none of the protected ones. -/
theorem keeps_18 : (hostOps1_18 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_18 : (hostOps1_18 : List (HloOp τ sig (Elt F))).Forall fun op => op.fresh = ∅ := by
  simp only [List.Forall]; repeat' constructor

end Cert.Kernel.Hand

end
-- ==== Proof.K.TailOps.lean ====
/-
  The per-operation facts of all nineteen host stretches, gathered.
-/
import proofs.«116515_j64166811402734_2_alg».proof.Proof.K.TailOpsA
import proofs.«116515_j64166811402734_2_alg».proof.Proof.K.TailOpsB
import proofs.«116515_j64166811402734_2_alg».proof.Proof.K.TailOpsC
-- ==== Proof.K.Tail.lean ====
/-
  The launch side of the kernel program's frame run: @main reduced to its region continued by the
  nineteen host stretches, the three side conditions on those stretches (they touch only the
  pipeline's arrays and the bypassing buffers, allocate nothing, and write no array of the pipeline),
  and the frame claim's post read off the frame run's post.
-/
import proofs.«116515_j64166811402734_2_alg».proof.Proof.K.TailOps
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- @main is its region followed by the nineteen stretches: it reduces to the region continued by them, entered at
    the launch contents (no host operation precedes the region). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall]) (by simp only [List.Forall]) main_chain

/-- Membership in the tail, stretch by stretch. -/
theorem tail_cases {P : List (HloOp τ sig (Elt F)) → Prop}
    (h0 : P hostOps1)
    (h1 : P hostOps1_1)
    (h2 : P hostOps1_2)
    (h3 : P hostOps1_3)
    (h4 : P hostOps1_4)
    (h5 : P hostOps1_5)
    (h6 : P hostOps1_6)
    (h7 : P hostOps1_7)
    (h8 : P hostOps1_8)
    (h9 : P hostOps1_9)
    (h10 : P hostOps1_10)
    (h11 : P hostOps1_11)
    (h12 : P hostOps1_12)
    (h13 : P hostOps1_13)
    (h14 : P hostOps1_14)
    (h15 : P hostOps1_15)
    (h16 : P hostOps1_16)
    (h17 : P hostOps1_17)
    (h18 : P hostOps1_18) :
    ∀ ops ∈ (tail : List (List (HloOp τ sig (Elt F)))), P ops := by
  intro ops hops
  simp only [List.mem_cons, List.mem_nil_iff, or_false] at hops
  rcases hops with rfl | rfl | rfl | rfl | rfl | rfl | rfl | rfl | rfl | rfl | rfl | rfl | rfl | rfl | rfl | rfl | rfl | rfl | rfl
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18

/-- The stretches touch the pipeline's arrays and the bypassing buffers only: each operation's buffers are unscoped
    TensorCore references, and with nothing prefetched every such reference is one or the other. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  exact tail_cases (P := fun ops => ∀ op ∈ ops, op.bufs ⊆ Pipeline.ucRefs τ sig)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
    (fun op hop => Pipeline.sub_ucRefs op ((List.forall_iff_forall_mem.mp hostOps1_7_sub) op hop))
    (fun op hop => Pipeline.sub_ucRefs op ((List.forall_iff_forall_mem.mp hostOps1_8_sub) op hop))
    (fun op hop => Pipeline.sub_ucRefs op ((List.forall_iff_forall_mem.mp hostOps1_9_sub) op hop))
    (fun op hop => Pipeline.sub_ucRefs op ((List.forall_iff_forall_mem.mp hostOps1_10_sub) op hop))
    (fun op hop => Pipeline.sub_ucRefs op ((List.forall_iff_forall_mem.mp hostOps1_11_sub) op hop))
    (fun op hop => Pipeline.sub_ucRefs op ((List.forall_iff_forall_mem.mp hostOps1_12_sub) op hop))
    (fun op hop => Pipeline.sub_ucRefs op ((List.forall_iff_forall_mem.mp hostOps1_13_sub) op hop))
    (fun op hop => Pipeline.sub_ucRefs op ((List.forall_iff_forall_mem.mp hostOps1_14_sub) op hop))
    (fun op hop => Pipeline.sub_ucRefs op ((List.forall_iff_forall_mem.mp hostOps1_15_sub) op hop))
    (fun op hop => Pipeline.sub_ucRefs op ((List.forall_iff_forall_mem.mp hostOps1_16_sub) op hop))
    (fun op hop => Pipeline.sub_ucRefs op ((List.forall_iff_forall_mem.mp hostOps1_17_sub) op hop))
    (fun op hop => Pipeline.sub_ucRefs op ((List.forall_iff_forall_mem.mp hostOps1_18_sub) op hop))

/-- They allocate nothing. -/
theorem sfx_fresh : ∀ ops ∈ (tail : List (List (HloOp τ sig (Elt F)))), ∀ op ∈ ops, op.fresh = ∅ :=
  tail_cases (P := fun ops => ∀ op ∈ ops, op.fresh = ∅)
    (List.forall_iff_forall_mem.mp fresh_0)
    (List.forall_iff_forall_mem.mp fresh_1)
    (List.forall_iff_forall_mem.mp fresh_2)
    (List.forall_iff_forall_mem.mp fresh_3)
    (List.forall_iff_forall_mem.mp fresh_4)
    (List.forall_iff_forall_mem.mp fresh_5)
    (List.forall_iff_forall_mem.mp fresh_6)
    (List.forall_iff_forall_mem.mp fresh_7)
    (List.forall_iff_forall_mem.mp fresh_8)
    (List.forall_iff_forall_mem.mp fresh_9)
    (List.forall_iff_forall_mem.mp fresh_10)
    (List.forall_iff_forall_mem.mp fresh_11)
    (List.forall_iff_forall_mem.mp fresh_12)
    (List.forall_iff_forall_mem.mp fresh_13)
    (List.forall_iff_forall_mem.mp fresh_14)
    (List.forall_iff_forall_mem.mp fresh_15)
    (List.forall_iff_forall_mem.mp fresh_16)
    (List.forall_iff_forall_mem.mp fresh_17)
    (List.forall_iff_forall_mem.mp fresh_18)

/-- No operation of the tail writes an argument or the region's result array: each writes its own result buffer only. -/
theorem tail_prot : ∀ ops ∈ (tail : List (List (HloOp τ sig (Elt F)))), ∀ op ∈ ops,
    ∀ b ∈ prot, Proc.devRef (τ := τ) .tc b ∉ op.writes :=
  tail_cases (P := fun ops => ∀ op ∈ ops, ∀ b ∈ prot, Proc.devRef (τ := τ) .tc b ∉ op.writes)
    (List.forall_iff_forall_mem.mp keeps_0)
    (List.forall_iff_forall_mem.mp keeps_1)
    (List.forall_iff_forall_mem.mp keeps_2)
    (List.forall_iff_forall_mem.mp keeps_3)
    (List.forall_iff_forall_mem.mp keeps_4)
    (List.forall_iff_forall_mem.mp keeps_5)
    (List.forall_iff_forall_mem.mp keeps_6)
    (List.forall_iff_forall_mem.mp keeps_7)
    (List.forall_iff_forall_mem.mp keeps_8)
    (List.forall_iff_forall_mem.mp keeps_9)
    (List.forall_iff_forall_mem.mp keeps_10)
    (List.forall_iff_forall_mem.mp keeps_11)
    (List.forall_iff_forall_mem.mp keeps_12)
    (List.forall_iff_forall_mem.mp keeps_13)
    (List.forall_iff_forall_mem.mp keeps_14)
    (List.forall_iff_forall_mem.mp keeps_15)
    (List.forall_iff_forall_mem.mp keeps_16)
    (List.forall_iff_forall_mem.mp keeps_17)
    (List.forall_iff_forall_mem.mp keeps_18)

/-- In particular they write no array of the pipeline. -/
theorem sfx_keeps : ∀ ops ∈ (tail : List (List (HloOp τ sig (Elt F)))), ∀ op ∈ ops,
    ∀ w, Proc.devRef .tc (Pipeline.arrRef spec0 w) ∉ op.writes := fun ops hops op hop w =>
  tail_prot ops hops op hop (Pipeline.arrRef spec0 w) ((by decide : ∀ w, Pipeline.arrRef spec0 w ∈ prot) w)

/-- A protected buffer that is no array of the pipeline ends the tail as launched: no operation of the tail writes it,
    the region leaves it, and nothing runs before the region. -/
theorem W_of_prot (dats : (p : Fin 1) → (c : Dev nD) → Dat τ (Elt F) Unit ℕ (UR sig nD τ) ℕ (cfgs p) c) (c : Dev nD)
    (b : Ref sig .tc) (hb : b ∈ prot) (hne : ∀ w, Pipeline.arrRef spec0 w ≠ b) :
    Pipeline.afterTail₀ cfgs dats 0 (V0 m) tail c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact tail_prot ops hops op hop' b hb),
    Pipeline.withArrays_of_ne _ c (V0 m c) _ b hne]
  exact V_arr m c b

theorem W_main_arg1 (dats : (p : Fin 1) → (c : Dev nD) → Dat τ (Elt F) Unit ℕ (UR sig nD τ) ℕ (cfgs p) c) (c : Dev nD) :
    Pipeline.afterTail₀ cfgs dats 0 (V0 m) tail c main_arg1 = m ((c : Thread nD τ).loc main_arg1) :=
  W_of_prot m dats c main_arg1 (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tail c main_arg2 = m ((c : Thread nD τ).loc main_arg2) :=
  W_of_prot m dats c main_arg2 (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tail c main_arg4 = m ((c : Thread nD τ).loc main_arg4) :=
  W_of_prot m dats c main_arg4 (by decide) (by decide)

/-- The frame run's post read at the result buffer and at the five arguments: the result and the bypassing arguments
    by the post's second clause (then no operation of the tail writes an argument), the two staged inputs by its
    first clause (an input's array is never written back). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_v220) = Pipeline.afterTail₀ cfgs dats 0 (V0 m) tail c main_v220
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v220 (Pipeline.mem_restRefs_of main_v220 (by decide) (by decide)),
     ((h c).1 0).trans (((dats 0 c).arrAt_in 0 rfl _).trans ((hA c 0).trans (V_arr m c main_arg0))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 1).trans (((dats 0 c).arrAt_in 1 rfl _).trans ((hA c 1).trans (V_arr m c main_arg3))),
     ((h c).2 main_arg4 (Pipeline.mem_restRefs_of main_arg4 (by decide) (by decide))).trans (W_main_arg4 m dats c)⟩) h

/-- The frame claim's post: the five arguments end as launched. -/
theorem frame_post (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (post_of m ρ dats hA h)

end Cert.Kernel.Hand

end
-- ==== Proof.K.Main.lean ====
/-
  The frame run of the kernel program and what it gives.  @main is the pipelined region followed by
  the host tail; the launch theorem for that shape takes the body obligation and the tracking
  invariant (the accumulator carried between grid points) on one side, and on the other the facts
  that the tail's operations touch only unscoped TensorCore buffers, allocate nothing and never write
  an array the pipeline stages.  Its post names every staged array after the run and every other
  buffer after the tail's operations; read at the result buffer and at the five arguments, that is
  the statement the claims need.
-/
import proofs.«116515_j64166811402734_2_alg».proof.Proof.K.Frame
import proofs.«116515_j64166811402734_2_alg».proof.Proof.K.Tail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; every staged array ends at what the
    proof data computes and every other unscoped buffer as the tail's operations leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

/-- The run read at the result buffer (left as the tail's fold over the region's exit contents) and at the
    five arguments, which end as launched. -/
theorem run_post : θ_run defs (onTc (τ := τ) (main (F := F))) ⟨m, fun _ => 0, ρ⟩ (fun r => ∀ c : Dev nD,
      r.2.mem ((c.tc : Thread nD τ).loc main_v220) = Pipeline.afterTail₀ cfgs (dats m) 0 (V0 m) tail c main_v220
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  post_of m ρ (dats m) (A_eq m) (run_main m ρ)

/-- The frame: @main runs to the end, nothing faults, the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_post m ρ (dats m) (A_eq m) (run_main m ρ)

end Cert.Kernel.Hand

end
-- ==== Proof.KI.Base.lean ====
/-
  The kernel program's @main is its one pipelined region followed by nineteen stretches of host
  operations.  This module names that tail and the contents the region finds: no host operation
  runs before the region, so every TensorCore buffer is found as launched.
-/
import proofs.«116515_j64166811402734_2_alg».proof.Proof.Gen.KernelIdeal.Launch
import Idealize.ShloMosaic.Lib.Pipeline.FrameSuffix

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

/-- The host stretches that follow the region, in program order (a called function's operations
    are a stretch of their own). -/
abbrev tail : List (List (HloOp τ sig (Elt F))) :=
  [hostOps1, hostOps1_1, hostOps1_2, hostOps1_3, hostOps1_4, hostOps1_5, hostOps1_6, hostOps1_7, hostOps1_8, hostOps1_9,
   hostOps1_10, hostOps1_11, hostOps1_12, hostOps1_13, hostOps1_14, hostOps1_15, hostOps1_16, hostOps1_17, hostOps1_18]

/-- Core `c`'s TensorCore buffer contents when the region is entered: the launch contents, folded over
    the (empty) list of host operations before the region. -/
abbrev V0 (c : Dev nD) : Valuation τ sig (Elt F) :=
  StableHlo.after (List.flatten ([] : List (List (HloOp τ sig (Elt F))))) (fun b => m (c, b))

/-- The same read at a TensorCore reference. -/
abbrev V (c : Dev nD) (b : Ref sig .tc) : Buf (Elt F) ((c : Thread nD τ).loc b) := V0 m c (Proc.devRef .tc b)

/-- The fold over no operations is the launch memory. -/
theorem V_arr (c : Dev nD) (b : Ref sig .tc) : V m c b = m ((c : Thread nD τ).loc b) := rfl

end Cert.KernelIdeal.Hand

end
-- ==== Proof.KI.Runs.lean ====
/-
  What the three control cases of the kernel body share.  The body branches twice on the grid
  position: at the first point it zeroes the accumulator scratch, at the last point it copies the
  accumulator to the output block.  So the sixteen points fall into three cases: the first point
  (reset, no copy), the fourteen middle points (neither) and the last point (copy, no reset).
  Here: the two conditions in closed form over the grid, where the output window is idle and where
  it is written back, each window's block read off its array, and the region invariant spelled with
  the accumulator scratch as an owned memref.
-/
import proofs.«116515_j64166811402734_2_alg».proof.Proof.KI.Base
import proofs.«116515_j64166811402734_2_alg».proof.Proof.Gen.KernelIdeal.Skeleton
import proofs.«116515_j64166811402734_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose
    array is the region-entry contents and whose body leaves the block in place: window 0. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for window 1. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first grid point", as the body computes it from the grid coordinate. -/
abbrev cond0_0 (i : grid0.Coords) : Prop := (Scalar.cmpi .ne (Scalar.extui (Scalar.cmpi .eq (BitVec.ofNat 32 (i 0).val) 0#32)) 0#32) = 1#1
/-- It holds exactly at point 0. -/
theorem hcond0_0 : ∀ t : Fin cfg0.N, cond0_0 (grid0.coords t) ↔ t.val = 0 :=
  (by decide +kernel : ∀ t : Fin grid0.N, cond0_0 (grid0.coords t) ↔ t.val = 0)

/-- "This is the last grid point", as the body computes it. -/
abbrev cond0_1 (i : grid0.Coords) : Prop := k0_cond2 i = 1#1
/-- It holds exactly at point 15. -/
theorem hcond0_1 : ∀ t : Fin cfg0.N, cond0_1 (grid0.coords t) ↔ t.val = 15 :=
  (by decide +kernel : ∀ t : Fin grid0.N, cond0_1 (grid0.coords t) ↔ t.val = 15)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last point the body stores nothing into the output block, -/
theorem idleAt0_2 : ∀ t : Fin cfg0.N, ¬cond0_1 (grid0.coords t) → cfg0.idle 2 (grid0.coords t) = true := by decide +kernel
/-- and the pipeline does not write it back there. -/
theorem noFlush0_2 : ∀ t : Fin cfg0.N, ¬cond0_1 (grid0.coords t) → (cfg0.win 2).flush t = false := by decide +kernel
/-- At the last point the output block is live. -/
theorem liveAt0_2 : ∀ t : Fin cfg0.N, cond0_1 (grid0.coords t) → cfg0.idle 2 (grid0.coords t) = false := by decide +kernel

/-! ## The memrefs the body is called with -/

/-- One staging buffer of the output window, through which its contents are stated. -/
abbrev VO0_2 : View sig .tc .vmem S8x128 .f32 := (Memref.whole cc0_stg2_0 : Memref sig .tc .vmem S8x128 .f32).view
abbrev ms0_0 (t : Fin cfg0.N) : Memref sig .tc .vmem S1x1x512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The accumulator: a whole scoped buffer of the kernel's own, passed beside the windows. -/
abbrev scM0_0 : Memref sig .tc .vmem S8x128 .f32 := Memref.whole cc0_scratch0
abbrev VS0_0 : View sig .tc .vmem S8x128 .f32 := scM0_0.view

/-- The launch's invariant with the accumulator as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Hand

end
-- ==== Proof.KI.RunA.lean ====
/-
  The body's run at the FIRST grid point: the reset branch is taken (the accumulator is loaded once
  — a value nothing uses — and then stored whole with zeros), the two input tiles are loaded, the
  accumulator is loaded back and stored whole with itself plus this tile's four sums, and the copy
  branch is not taken, so the output block is handed back untouched.
-/
import proofs.«116515_j64166811402734_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the first-point run leaves in the accumulator (found by the run), with the triple: from
    whole memrefs — the inputs at `x0`, `x1`, the idle output at `xi2`, the accumulator at anything — the
    body runs to a continuation holding the inputs and the output as they were and the accumulator
    with those pieces written. -/
noncomputable def kernelRun0_A (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 : Vec F S1x1x512x512 .f32) (x1 : Vec F S1x1x512x512 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ (∃ d, owns (c : Thread nD τ) arg4 fullShare d)
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__text_loss_kernel i arg1 harg1 arg2 harg2 arg3 harg3 arg4 harg4) K } := by
  refine ⟨[], ?_, fun xi2 E K => ?run⟩
  case run =>
    simp only [cc0__text_loss_kernel_eq_skeleton]; unfold cc0__text_loss_kernel_skel
    simp only [k0_part1_eq_skeleton]
    unfold owns
    iintro ⟨⟨%f0, %hf0, H0⟩, ⟨%f1, %hf1, H1⟩, ⟨%f2, %hf2, H2⟩, ⟨%ds0, %fs0, -, HS0⟩, Hk⟩
    obtain rfl := harg1.eq_unread hf0; obtain rfl := harg2.eq_unread hf1; obtain rfl := harg3.eq_unread hf2
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.RunB.lean ====
/-
  The body's run at a MIDDLE grid point: neither branch is taken.  The two input tiles are loaded,
  the accumulator — which holds what the point before left — is loaded and stored whole with itself
  plus this tile's four sums; the output block is handed back untouched.
-/
import proofs.«116515_j64166811402734_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces a middle-point run leaves in the accumulator, with the triple: the accumulator is
    found at `xs0`, the contents the point before left. -/
noncomputable def kernelRun0_B (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 : Vec F S1x1x512x512 .f32) (x1 : Vec F S1x1x512x512 .f32) (xs0 : Vec F S8x128 .f32) :
    Σ' (L2 : List (View.Piece (Elt F) S8x128 .f32)), { LS0 : List (View.Piece (Elt F) S8x128 .f32) //
      ∀ (xi2 : Vec F S8x128 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xs0
            ∗ (iprop(owns (c : Thread nD τ) arg1 fullShare x0 ∗ owns (c : Thread nD τ) arg2 fullShare x1 ∗ owns (c : Thread nD τ) arg3 fullShare xi2 ∗ (∃ f, arg4.view.loc (c : Thread nD τ) ↦[arg4.view.set]{fullShare} arg4.view.writes (Elt F) f LS0)) -∗ K ⟨⟩))
          ⊢ wp frame (wpE (defs₀ (F := F)) Variants.none c none) E (cc0__text_loss_kernel i arg1 harg1 arg2 harg2 arg3 harg3 arg4 harg4) K } := by
  refine ⟨[], ?_, fun xi2 E K => ?run⟩
  case run =>
    simp only [cc0__text_loss_kernel_eq_skeleton]; unfold cc0__text_loss_kernel_skel
    simp only [k0_part1_eq_skeleton]
    unfold owns
    iintro ⟨⟨%f0, %hf0, H0⟩, ⟨%f1, %hf1, H1⟩, ⟨%f2, %hf2, H2⟩, ⟨%fs0, %hfs0, HS0⟩, Hk⟩
    obtain rfl := harg1.eq_unread hf0; obtain rfl := harg2.eq_unread hf1; obtain rfl := harg3.eq_unread hf2; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact HS0

end Cert.KernelIdeal.Hand

end
-- ==== Proof.KI.RunC.lean ====
/-
  The body's run at the LAST grid point: the reset branch is not taken, the copy branch is.  The
  input tiles are loaded, the accumulator is loaded and stored whole with itself plus this tile's
  four sums, then loaded once more and stored whole into the output block (which is loaded first —
  a value nothing uses).
-/
import proofs.«116515_j64166811402734_2_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the last-point run leaves in the output block and in the accumulator, with the
    triple: the accumulator is found at `xs0`, the output block at anything. -/
noncomputable def kernelRun0_C (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 : Vec F S1x1x512x512 .f32) (x1 : Vec F S1x1x512x512 .f32) (xs0 : Vec F S8x128 .f32) :
    Σ' (L2 : List (View.Piece (Elt F) S8x128 .f32)), { LS0 : List (View.Piece (Elt F) S8x128 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f LS0)) -∗ K ⟨⟩))
          ⊢ wp frame (wpE (defs₀ (F := F)) Variants.none c none) E (cc0__text_loss_kernel i arg1 harg1 arg2 harg2 arg3 harg3 arg4 harg4) K } := by
  refine ⟨?_, ?_, fun E K => ?run⟩
  case run =>
    simp only [cc0__text_loss_kernel_eq_skeleton]; unfold cc0__text_loss_kernel_skel
    simp only [k0_part1_eq_skeleton]
    unfold owns
    iintro ⟨⟨%f0, %hf0, H0⟩, ⟨%f1, %hf1, H1⟩, ⟨%d2, %f2, -, H2⟩, ⟨%fs0, %hfs0, HS0⟩, Hk⟩
    obtain rfl := harg1.eq_unread hf0; obtain rfl := harg2.eq_unread hf1; obtain rfl := harg4.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    iexists _; iexact HS0

end Cert.KernelIdeal.Hand

end
-- ==== Proof.KI.Frame.lean ====
/-
  The proof data of the kernel's one pipeline, and the body obligation.
  After the body at point `n` the accumulator scratch holds: at point 0 the zero block plus the four
  sums of tile 0 in rows 0–3 (every other row plus zero); at each later point what the point before
  left plus that tile's sums.  The output block is touched at the last point only, where it receives
  the accumulator.  `outsAt0` states this by recursion on the point through the pieces each case's
  run leaves; the region invariant carries the accumulator at `outsAt0`'s second component from one
  point to the next, and the body obligation is the three runs, selected by the closed forms of the
  two branch conditions.
-/
import proofs.«116515_j64166811402734_2_alg».proof.Proof.KI.RunA
import proofs.«116515_j64166811402734_2_alg».proof.Proof.KI.RunB
import proofs.«116515_j64166811402734_2_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point stores nothing into the output block: no pieces (a placeholder nothing consults). -/
def out0_A_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 x1 : Vec F S1x1x512x512 .f32) : Vec F S8x128 .f32 :=
  VO0_2.read (Elt F) (VO0_2.writes (Elt F) VO0_2.junk (kernelRun0_A c i arg1 harg1 arg2 harg2 arg3 harg3 arg4 harg4 hc0 hc1 x0 x1).1)

/-- The first point's pieces cover the accumulator (two whole stores). -/
theorem scover0_A_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 x1 : Vec F S1x1x512x512 .f32) (y : S8x128.Idx) :
    ∃ pc ∈ (kernelRun0_A c i arg1 harg1 arg2 harg2 arg3 harg3 arg4 harg4 hc0 hc1 x0 x1).2.1, y ∈ pc.1.set :=
  View.cover_of_tiledL (kernelRun0_A c i arg1 harg1 arg2 harg2 arg3 harg3 arg4 harg4 hc0 hc1 x0 x1).2.1 S8x128.size (by sl_kernel_rfl) y

/-- What the first point leaves in the accumulator. -/
def sout0_A_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 x1 : Vec F S1x1x512x512 .f32) : Vec F S8x128 .f32 :=
  VS0_0.read (Elt F) (VS0_0.writes (Elt F) VS0_0.junk (kernelRun0_A c i arg1 harg1 arg2 harg2 arg3 harg3 arg4 harg4 hc0 hc1 x0 x1).2.1)

/-- A middle point stores nothing into the output block. -/
def out0_B_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 x1 : Vec F S1x1x512x512 .f32) (xs0 : Vec F S8x128 .f32) : Vec F S8x128 .f32 :=
  VO0_2.read (Elt F) (VO0_2.writes (Elt F) VO0_2.junk (kernelRun0_B c i arg1 harg1 arg2 harg2 arg3 harg3 arg4 harg4 hc0 hc1 x0 x1 xs0).1)

theorem scover0_B_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 x1 : Vec F S1x1x512x512 .f32) (xs0 : Vec F S8x128 .f32) (y : S8x128.Idx) :
    ∃ pc ∈ (kernelRun0_B c i arg1 harg1 arg2 harg2 arg3 harg3 arg4 harg4 hc0 hc1 x0 x1 xs0).2.1, y ∈ pc.1.set :=
  View.cover_of_tiledL (kernelRun0_B c i arg1 harg1 arg2 harg2 arg3 harg3 arg4 harg4 hc0 hc1 x0 x1 xs0).2.1 S8x128.size (by sl_kernel_rfl) y

/-- What a middle point leaves in the accumulator. -/
def sout0_B_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 x1 : Vec F S1x1x512x512 .f32) (xs0 : Vec F S8x128 .f32) : Vec F S8x128 .f32 :=
  VS0_0.read (Elt F) (VS0_0.writes (Elt F) VS0_0.junk (kernelRun0_B c i arg1 harg1 arg2 harg2 arg3 harg3 arg4 harg4 hc0 hc1 x0 x1 xs0).2.1)

/-- The last point's one store covers the output block. -/
theorem cover0_C_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) (y : S8x128.Idx) :
    ∃ pc ∈ (kernelRun0_C c i arg1 harg1 arg2 harg2 arg3 harg3 arg4 harg4 hc0 hc1 x0 x1 xs0).1, y ∈ pc.1.set :=
  View.cover_of_tiledL (kernelRun0_C c i arg1 harg1 arg2 harg2 arg3 harg3 arg4 harg4 hc0 hc1 x0 x1 xs0).1 S8x128.size (by sl_kernel_rfl) y

/-- What the last point leaves in the output block. -/
def out0_C_2 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) : Vec F S8x128 .f32 :=
  VO0_2.read (Elt F) (VO0_2.writes (Elt F) VO0_2.junk (kernelRun0_C c i arg1 harg1 arg2 harg2 arg3 harg3 arg4 harg4 hc0 hc1 x0 x1 xs0).1)

theorem scover0_C_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) (y : S8x128.Idx) :
    ∃ pc ∈ (kernelRun0_C c i arg1 harg1 arg2 harg2 arg3 harg3 arg4 harg4 hc0 hc1 x0 x1 xs0).2.1, y ∈ pc.1.set :=
  View.cover_of_tiledL (kernelRun0_C c i arg1 harg1 arg2 harg2 arg3 harg3 arg4 harg4 hc0 hc1 x0 x1 xs0).2.1 S8x128.size (by sl_kernel_rfl) y

/-- What the last point leaves in the accumulator. -/
def sout0_C_0 (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) : Vec F S8x128 .f32 :=
  VS0_0.read (Elt F) (VS0_0.writes (Elt F) VS0_0.junk (kernelRun0_C c i arg1 harg1 arg2 harg2 arg3 harg3 arg4 harg4 hc0 hc1 x0 x1 xs0).2.1)

/-! ## The accumulation, point by point -/

/-- What the output block's buffer and the accumulator hold after the body at position `n`: the case the
    closed forms select there, run on the point's memrefs and input blocks, over what the point before
    left in the accumulator. -/
def outsAt0 (c : Dev nD) : (n : ℕ) → n < cfg0.N → Vec F S8x128 .f32 × Vec F S8x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬ (0 : ℕ) = 15 by decide)) (iblk m c 0 ⟨0, hn⟩) (iblk m c 1 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr rfl) (fun h => absurd ((hcond0_1 ⟨0, hn⟩).mp h) (show ¬ (0 : ℕ) = 15 by decide)) (iblk m c 0 ⟨0, hn⟩) (iblk m c 1 ⟨0, hn⟩))
  | n + 1, hn =>
    if h1 : n + 1 = 15 then
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) ((hcond0_1 ⟨n + 1, hn⟩).mpr h1) (iblk m c 0 ⟨n + 1, hn⟩) (iblk m c 1 ⟨n + 1, hn⟩) (outsAt0 c n (Nat.lt_of_succ_lt hn)).2)
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => absurd ((hcond0_0 ⟨n + 1, hn⟩).mp h) (Nat.succ_ne_zero n)) (fun h => h1 ((hcond0_1 ⟨n + 1, hn⟩).mp h)) (iblk m c 0 ⟨n + 1, hn⟩) (iblk m c 1 ⟨n + 1, hn⟩) (outsAt0 c n (Nat.lt_of_succ_lt hn)).2)

/-- `outsAt0` at the first point. -/
theorem outsAt0_A (c : Dev nD) (t : Fin cfg0.N) (h0 : t.val = 0) (h1 : ¬t.val = 15) :
    outsAt0 m c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t),
      sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : ¬t.val = 0) (h1 : ¬t.val = 15) :
    outsAt0 m c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : ¬t.val = 0) (h1 : t.val = 15) :
    outsAt0 m c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-! ## The region invariant: the accumulator carried from point to point -/

/-- Before the first point the launch's invariant (the accumulator at anything); before each later point the
    accumulator at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The pipeline's proof data -/

/-- The arrays as the region finds them; after the body at point `t` each input's buffer at its block and
    the output's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The body at any point: the inputs' memrefs hold their blocks; the closed forms say which case the
    point is in; the invariant hands the body the accumulator at what the point before left (at anything
    at the first point) and takes it back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  by_cases h0 : t.val = 0
  · have h1 : ¬t.val = 15 := by omega
    rw [Dat.leavesExact_idle (dats m 0 c) 2 t (idleAt0_2 t (fun h => h1 ((hcond0_1 t).mp h))) (noFlush0_2 t (fun h => h1 ((hcond0_1 t).mp h)))]
    rw [outsAt0_A m c t h0 h1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩⟩
    iapply ((kernelRun0_A c (grid0.coords t) _ _ _ _ _ _ _ _ ((hcond0_0 t).mpr h0) (fun h => h1 ((hcond0_1 t).mp h)) (iblk m c 0 t) (iblk m c 1 t)).2.2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _)
      iexact Hg
    isplitl [Ho]; · iexact Ho
    isplitl [H0]; · iexact H0
    isplitl [H1]; · iexact H1
    iexists _; iexact H2
  · by_cases h1 : t.val = 15
    · rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk m c 0 t) (iblk m c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk m c 0 t) (iblk m c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

end Cert.KernelIdeal.Hand

end
-- ==== Proof.KI.TailLib.lean ====
/-
  The buffers the host stretches after the region must leave alone — the five arguments and the
  region's result array — and the one step every per-operation fact goes through: an operation
  whose only written buffer is its own result writes none of them.
-/
import proofs.«116515_j64166811402734_2_alg».proof.Proof.KI.Base

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The buffers no host operation after the region may write: the five arguments and the region's result array. -/
abbrev prot : List (Ref sig .tc) := [main_arg0, main_arg1, main_arg2, main_arg3, main_arg4, main_v0]

/-- An operation that writes exactly its result buffer `y`, no protected buffer, writes none of them (distinct
    references are distinct device buffers). -/
theorem keep_of {op : HloOp τ sig (Elt F)} (y : Ref sig .tc) (h : op.writes = {Proc.devRef .tc y})
    (hy : ∀ b ∈ prot, b ≠ y) : ∀ b ∈ prot, Proc.devRef (τ := τ) .tc b ∉ op.writes := by
  intro b hb
  rw [h, Finset.mem_singleton]
  exact StableHlo.devRef_ne_of_ne (hy b hb)

end Cert.KernelIdeal.Hand

end
-- ==== Proof.KI.TailOpsA.lean ====
/-
  Per-operation facts of the host stretches hostOps1 … hostOps1_11 that follow the region: each operation
  writes only its own result buffer — never an argument nor the region's result array — and allocates nothing.
-/
import proofs.«116515_j64166811402734_2_alg».proof.Proof.KI.TailLib

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Every operation of `hostOps1` writes its own result buffer only, which is none of the protected ones. -/
theorem keeps_0 : (hostOps1 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_0 : (hostOps1 : List (HloOp τ sig (Elt F))).Forall fun op => op.fresh = ∅ := by
  simp only [List.Forall]; repeat' constructor

/-- Every operation of `hostOps1_1` writes its own result buffer only, which is none of the protected ones. -/
theorem keeps_1 : (hostOps1_1 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_1 : (hostOps1_1 : List (HloOp τ sig (Elt F))).Forall fun op => op.fresh = ∅ := by
  simp only [List.Forall]; repeat' constructor

/-- Every operation of `hostOps1_2` writes its own result buffer only, which is none of the protected ones. -/
theorem keeps_2 : (hostOps1_2 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_2 : (hostOps1_2 : List (HloOp τ sig (Elt F))).Forall fun op => op.fresh = ∅ := by
  simp only [List.Forall]; repeat' constructor

/-- Every operation of `hostOps1_3` writes its own result buffer only, which is none of the protected ones. -/
theorem keeps_3 : (hostOps1_3 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_3 : (hostOps1_3 : List (HloOp τ sig (Elt F))).Forall fun op => op.fresh = ∅ := by
  simp only [List.Forall]; repeat' constructor

/-- Every operation of `hostOps1_4` writes its own result buffer only, which is none of the protected ones. -/
theorem keeps_4 : (hostOps1_4 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_4 : (hostOps1_4 : List (HloOp τ sig (Elt F))).Forall fun op => op.fresh = ∅ := by
  simp only [List.Forall]; repeat' constructor

/-- Every operation of `hostOps1_5` writes its own result buffer only, which is none of the protected ones. -/
theorem keeps_5 : (hostOps1_5 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_5 : (hostOps1_5 : List (HloOp τ sig (Elt F))).Forall fun op => op.fresh = ∅ := by
  simp only [List.Forall]; repeat' constructor

/-- Every operation of `hostOps1_6` writes its own result buffer only, which is none of the protected ones. -/
theorem keeps_6 : (hostOps1_6 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_6 : (hostOps1_6 : List (HloOp τ sig (Elt F))).Forall fun op => op.fresh = ∅ := by
  simp only [List.Forall]; repeat' constructor

/-- Every operation of `hostOps1_7` writes its own result buffer only, which is none of the protected ones. -/
theorem keeps_7 : (hostOps1_7 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_7 : (hostOps1_7 : List (HloOp τ sig (Elt F))).Forall fun op => op.fresh = ∅ := by
  simp only [List.Forall]; repeat' constructor

/-- Every operation of `hostOps1_8` writes its own result buffer only, which is none of the protected ones. -/
theorem keeps_8 : (hostOps1_8 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_8 : (hostOps1_8 : List (HloOp τ sig (Elt F))).Forall fun op => op.fresh = ∅ := by
  simp only [List.Forall]; repeat' constructor

/-- Every operation of `hostOps1_9` writes its own result buffer only, which is none of the protected ones. -/
theorem keeps_9 : (hostOps1_9 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_9 : (hostOps1_9 : List (HloOp τ sig (Elt F))).Forall fun op => op.fresh = ∅ := by
  simp only [List.Forall]; repeat' constructor

/-- Every operation of `hostOps1_10` writes its own result buffer only, which is none of the protected ones. -/
theorem keeps_10 : (hostOps1_10 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_10 : (hostOps1_10 : List (HloOp τ sig (Elt F))).Forall fun op => op.fresh = ∅ := by
  simp only [List.Forall]; repeat' constructor

/-- Every operation of `hostOps1_11` writes its own result buffer only, which is none of the protected ones. -/
theorem keeps_11 : (hostOps1_11 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_11 : (hostOps1_11 : List (HloOp τ sig (Elt F))).Forall fun op => op.fresh = ∅ := by
  simp only [List.Forall]; repeat' constructor

end Cert.KernelIdeal.Hand

end
-- ==== Proof.KI.TailOpsB.lean ====
/-
  Per-operation facts of the host stretches hostOps1_12 … hostOps1_12 that follow the region: each operation
  writes only its own result buffer — never an argument nor the region's result array — and allocates nothing.
-/
import proofs.«116515_j64166811402734_2_alg».proof.Proof.KI.TailLib

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Every operation of `hostOps1_12` writes its own result buffer only, which is none of the protected ones. -/
theorem keeps_12 : (hostOps1_12 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_12 : (hostOps1_12 : List (HloOp τ sig (Elt F))).Forall fun op => op.fresh = ∅ := by
  simp only [List.Forall]; repeat' constructor

end Cert.KernelIdeal.Hand

end
-- ==== Proof.KI.TailOpsC.lean ====
/-
  Per-operation facts of the host stretches hostOps1_13 … hostOps1_18 that follow the region: each operation
  writes only its own result buffer — never an argument nor the region's result array — and allocates nothing.
-/
import proofs.«116515_j64166811402734_2_alg».proof.Proof.KI.TailLib

set_option maxRecDepth 16384
set_option maxHeartbeats 4000000

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Every operation of `hostOps1_13` writes its own result buffer only, which is none of the protected ones. -/
theorem keeps_13 : (hostOps1_13 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_13 : (hostOps1_13 : List (HloOp τ sig (Elt F))).Forall fun op => op.fresh = ∅ := by
  simp only [List.Forall]; repeat' constructor

/-- Every operation of `hostOps1_14` writes its own result buffer only, which is none of the protected ones. -/
theorem keeps_14 : (hostOps1_14 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_14 : (hostOps1_14 : List (HloOp τ sig (Elt F))).Forall fun op => op.fresh = ∅ := by
  simp only [List.Forall]; repeat' constructor

/-- Every operation of `hostOps1_15` writes its own result buffer only, which is none of the protected ones. -/
theorem keeps_15 : (hostOps1_15 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_15 : (hostOps1_15 : List (HloOp τ sig (Elt F))).Forall fun op => op.fresh = ∅ := by
  simp only [List.Forall]; repeat' constructor

/-- Every operation of `hostOps1_16` writes its own result buffer only, which is none of the protected ones. -/
theorem keeps_16 : (hostOps1_16 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_16 : (hostOps1_16 : List (HloOp τ sig (Elt F))).Forall fun op => op.fresh = ∅ := by
  simp only [List.Forall]; repeat' constructor

/-- Every operation of `hostOps1_17` writes its own result buffer only, which is none of the protected ones. -/
theorem keeps_17 : (hostOps1_17 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_17 : (hostOps1_17 : List (HloOp τ sig (Elt F))).Forall fun op => op.fresh = ∅ := by
  simp only [List.Forall]; repeat' constructor

/-- Every operation of `hostOps1_18` writes its own result buffer only, which is none of the protected ones. -/
theorem keeps_18 : (hostOps1_18 : List (HloOp τ sig (Elt F))).Forall fun op => ∀ b ∈ prot, Proc.devRef (τ := τ) .tc b ∉ op.writes := by
  simp only [List.Forall]
  repeat' apply And.intro
  all_goals exact keep_of _ rfl (by decide)
/-- And none allocates a buffer. -/
theorem fresh_18 : (hostOps1_18 : List (HloOp τ sig (Elt F))).Forall fun op => op.fresh = ∅ := by
  simp only [List.Forall]; repeat' constructor

end Cert.KernelIdeal.Hand

end
-- ==== Proof.KI.TailOps.lean ====
/-
  The per-operation facts of all nineteen host stretches, gathered.
-/
import proofs.«116515_j64166811402734_2_alg».proof.Proof.KI.TailOpsA
import proofs.«116515_j64166811402734_2_alg».proof.Proof.KI.TailOpsB
import proofs.«116515_j64166811402734_2_alg».proof.Proof.KI.TailOpsC
-- ==== Proof.KI.Tail.lean ====
/-
  The launch side of the kernel program's frame run: @main reduced to its region continued by the
  nineteen host stretches, the three side conditions on those stretches (they touch only the
  pipeline's arrays and the bypassing buffers, allocate nothing, and write no array of the pipeline),
  and the frame claim's post read off the frame run's post.
-/
import proofs.«116515_j64166811402734_2_alg».proof.Proof.KI.TailOps
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

variable (m : (ℓ : Loc nD τ sig) → Buf (Elt F) ℓ) (ρ : Dev nD → PrngReg)

/-- @main is its region followed by the nineteen stretches: it reduces to the region continued by them, entered at
    the launch contents (no host operation precedes the region). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [] tail (by simp only [List.Forall]) (by simp only [List.Forall]) main_chain

/-- Membership in the tail, stretch by stretch. -/
theorem tail_cases {P : List (HloOp τ sig (Elt F)) → Prop}
    (h0 : P hostOps1)
    (h1 : P hostOps1_1)
    (h2 : P hostOps1_2)
    (h3 : P hostOps1_3)
    (h4 : P hostOps1_4)
    (h5 : P hostOps1_5)
    (h6 : P hostOps1_6)
    (h7 : P hostOps1_7)
    (h8 : P hostOps1_8)
    (h9 : P hostOps1_9)
    (h10 : P hostOps1_10)
    (h11 : P hostOps1_11)
    (h12 : P hostOps1_12)
    (h13 : P hostOps1_13)
    (h14 : P hostOps1_14)
    (h15 : P hostOps1_15)
    (h16 : P hostOps1_16)
    (h17 : P hostOps1_17)
    (h18 : P hostOps1_18) :
    ∀ ops ∈ (tail : List (List (HloOp τ sig (Elt F)))), P ops := by
  intro ops hops
  simp only [List.mem_cons, List.mem_nil_iff, or_false] at hops
  rcases hops with rfl | rfl | rfl | rfl | rfl | rfl | rfl | rfl | rfl | rfl | rfl | rfl | rfl | rfl | rfl | rfl | rfl | rfl | rfl
  · exact h0
  · exact h1
  · exact h2
  · exact h3
  · exact h4
  · exact h5
  · exact h6
  · exact h7
  · exact h8
  · exact h9
  · exact h10
  · exact h11
  · exact h12
  · exact h13
  · exact h14
  · exact h15
  · exact h16
  · exact h17
  · exact h18

/-- The stretches touch the pipeline's arrays and the bypassing buffers only: each operation's buffers are unscoped
    TensorCore references, and with nothing prefetched every such reference is one or the other. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  exact tail_cases (P := fun ops => ∀ op ∈ ops, op.bufs ⊆ Pipeline.ucRefs τ sig)
    (fun op hop => Pipeline.sub_ucRefs op ((List.forall_iff_forall_mem.mp hostOps1_sub) op hop))
    (fun op hop => Pipeline.sub_ucRefs op ((List.forall_iff_forall_mem.mp hostOps1_1_sub) op hop))
    (fun op hop => Pipeline.sub_ucRefs op ((List.forall_iff_forall_mem.mp hostOps1_2_sub) op hop))
    (fun op hop => Pipeline.sub_ucRefs op ((List.forall_iff_forall_mem.mp hostOps1_3_sub) op hop))
    (fun op hop => Pipeline.sub_ucRefs op ((List.forall_iff_forall_mem.mp hostOps1_4_sub) op hop))
    (fun op hop => Pipeline.sub_ucRefs op ((List.forall_iff_forall_mem.mp hostOps1_5_sub) op hop))
    (fun op hop => Pipeline.sub_ucRefs op ((List.forall_iff_forall_mem.mp hostOps1_6_sub) op hop))
    (fun op hop => Pipeline.sub_ucRefs op ((List.forall_iff_forall_mem.mp hostOps1_7_sub) op hop))
    (fun op hop => Pipeline.sub_ucRefs op ((List.forall_iff_forall_mem.mp hostOps1_8_sub) op hop))
    (fun op hop => Pipeline.sub_ucRefs op ((List.forall_iff_forall_mem.mp hostOps1_9_sub) op hop))
    (fun op hop => Pipeline.sub_ucRefs op ((List.forall_iff_forall_mem.mp hostOps1_10_sub) op hop))
    (fun op hop => Pipeline.sub_ucRefs op ((List.forall_iff_forall_mem.mp hostOps1_11_sub) op hop))
    (fun op hop => Pipeline.sub_ucRefs op ((List.forall_iff_forall_mem.mp hostOps1_12_sub) op hop))
    (fun op hop => Pipeline.sub_ucRefs op ((List.forall_iff_forall_mem.mp hostOps1_13_sub) op hop))
    (fun op hop => Pipeline.sub_ucRefs op ((List.forall_iff_forall_mem.mp hostOps1_14_sub) op hop))
    (fun op hop => Pipeline.sub_ucRefs op ((List.forall_iff_forall_mem.mp hostOps1_15_sub) op hop))
    (fun op hop => Pipeline.sub_ucRefs op ((List.forall_iff_forall_mem.mp hostOps1_16_sub) op hop))
    (fun op hop => Pipeline.sub_ucRefs op ((List.forall_iff_forall_mem.mp hostOps1_17_sub) op hop))
    (fun op hop => Pipeline.sub_ucRefs op ((List.forall_iff_forall_mem.mp hostOps1_18_sub) op hop))

/-- They allocate nothing. -/
theorem sfx_fresh : ∀ ops ∈ (tail : List (List (HloOp τ sig (Elt F)))), ∀ op ∈ ops, op.fresh = ∅ :=
  tail_cases (P := fun ops => ∀ op ∈ ops, op.fresh = ∅)
    (List.forall_iff_forall_mem.mp fresh_0)
    (List.forall_iff_forall_mem.mp fresh_1)
    (List.forall_iff_forall_mem.mp fresh_2)
    (List.forall_iff_forall_mem.mp fresh_3)
    (List.forall_iff_forall_mem.mp fresh_4)
    (List.forall_iff_forall_mem.mp fresh_5)
    (List.forall_iff_forall_mem.mp fresh_6)
    (List.forall_iff_forall_mem.mp fresh_7)
    (List.forall_iff_forall_mem.mp fresh_8)
    (List.forall_iff_forall_mem.mp fresh_9)
    (List.forall_iff_forall_mem.mp fresh_10)
    (List.forall_iff_forall_mem.mp fresh_11)
    (List.forall_iff_forall_mem.mp fresh_12)
    (List.forall_iff_forall_mem.mp fresh_13)
    (List.forall_iff_forall_mem.mp fresh_14)
    (List.forall_iff_forall_mem.mp fresh_15)
    (List.forall_iff_forall_mem.mp fresh_16)
    (List.forall_iff_forall_mem.mp fresh_17)
    (List.forall_iff_forall_mem.mp fresh_18)

/-- No operation of the tail writes an argument or the region's result array: each writes its own result buffer only. -/
theorem tail_prot : ∀ ops ∈ (tail : List (List (HloOp τ sig (Elt F)))), ∀ op ∈ ops,
    ∀ b ∈ prot, Proc.devRef (τ := τ) .tc b ∉ op.writes :=
  tail_cases (P := fun ops => ∀ op ∈ ops, ∀ b ∈ prot, Proc.devRef (τ := τ) .tc b ∉ op.writes)
    (List.forall_iff_forall_mem.mp keeps_0)
    (List.forall_iff_forall_mem.mp keeps_1)
    (List.forall_iff_forall_mem.mp keeps_2)
    (List.forall_iff_forall_mem.mp keeps_3)
    (List.forall_iff_forall_mem.mp keeps_4)
    (List.forall_iff_forall_mem.mp keeps_5)
    (List.forall_iff_forall_mem.mp keeps_6)
    (List.forall_iff_forall_mem.mp keeps_7)
    (List.forall_iff_forall_mem.mp keeps_8)
    (List.forall_iff_forall_mem.mp keeps_9)
    (List.forall_iff_forall_mem.mp keeps_10)
    (List.forall_iff_forall_mem.mp keeps_11)
    (List.forall_iff_forall_mem.mp keeps_12)
    (List.forall_iff_forall_mem.mp keeps_13)
    (List.forall_iff_forall_mem.mp keeps_14)
    (List.forall_iff_forall_mem.mp keeps_15)
    (List.forall_iff_forall_mem.mp keeps_16)
    (List.forall_iff_forall_mem.mp keeps_17)
    (List.forall_iff_forall_mem.mp keeps_18)

/-- In particular they write no array of the pipeline. -/
theorem sfx_keeps : ∀ ops ∈ (tail : List (List (HloOp τ sig (Elt F)))), ∀ op ∈ ops,
    ∀ w, Proc.devRef .tc (Pipeline.arrRef spec0 w) ∉ op.writes := fun ops hops op hop w =>
  tail_prot ops hops op hop (Pipeline.arrRef spec0 w) ((by decide : ∀ w, Pipeline.arrRef spec0 w ∈ prot) w)

/-- A protected buffer that is no array of the pipeline ends the tail as launched: no operation of the tail writes it,
    the region leaves it, and nothing runs before the region. -/
theorem W_of_prot (dats : (p : Fin 1) → (c : Dev nD) → Dat τ (Elt F) Unit ℕ (UR sig nD τ) ℕ (cfgs p) c) (c : Dev nD)
    (b : Ref sig .tc) (hb : b ∈ prot) (hne : ∀ w, Pipeline.arrRef spec0 w ≠ b) :
    Pipeline.afterTail₀ cfgs dats 0 (V0 m) tail c b = m ((c : Thread nD τ).loc b) := by
  unfold Pipeline.afterTail₀
  rw [StableHlo.after_of_forall_not_mem (b := Proc.devRef .tc b) _ _ (fun op hop => by
      obtain ⟨ops, hops, hop'⟩ := List.mem_flatten.mp hop
      exact tail_prot ops hops op hop' b hb),
    Pipeline.withArrays_of_ne _ c (V0 m c) _ b hne]
  exact V_arr m c b

theorem W_main_arg1 (dats : (p : Fin 1) → (c : Dev nD) → Dat τ (Elt F) Unit ℕ (UR sig nD τ) ℕ (cfgs p) c) (c : Dev nD) :
    Pipeline.afterTail₀ cfgs dats 0 (V0 m) tail c main_arg1 = m ((c : Thread nD τ).loc main_arg1) :=
  W_of_prot m dats c main_arg1 (by decide) (by decide)
theorem W_main_arg2 (dats : (p : Fin 1) → (c : Dev nD) → Dat τ (Elt F) Unit ℕ (UR sig nD τ) ℕ (cfgs p) c) (c : Dev nD) :
    Pipeline.afterTail₀ cfgs dats 0 (V0 m) tail c main_arg2 = m ((c : Thread nD τ).loc main_arg2) :=
  W_of_prot m dats c main_arg2 (by decide) (by decide)
theorem W_main_arg4 (dats : (p : Fin 1) → (c : Dev nD) → Dat τ (Elt F) Unit ℕ (UR sig nD τ) ℕ (cfgs p) c) (c : Dev nD) :
    Pipeline.afterTail₀ cfgs dats 0 (V0 m) tail c main_arg4 = m ((c : Thread nD τ).loc main_arg4) :=
  W_of_prot m dats c main_arg4 (by decide) (by decide)

/-- The frame run's post read at the result buffer and at the five arguments: the result and the bypassing arguments
    by the post's second clause (then no operation of the tail writes an argument), the two staged inputs by its
    first clause (an input's array is never written back). -/
theorem post_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_v220) = Pipeline.afterTail₀ cfgs dats 0 (V0 m) tail c main_v220
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v220 (Pipeline.mem_restRefs_of main_v220 (by decide) (by decide)),
     ((h c).1 0).trans (((dats 0 c).arrAt_in 0 rfl _).trans ((hA c 0).trans (V_arr m c main_arg0))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).1 1).trans (((dats 0 c).arrAt_in 1 rfl _).trans ((hA c 1).trans (V_arr m c main_arg3))),
     ((h c).2 main_arg4 (Pipeline.mem_restRefs_of main_arg4 (by decide) (by decide))).trans (W_main_arg4 m dats c)⟩) h

/-- The frame claim's post: the five arguments end as launched. -/
theorem frame_post (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (post_of m ρ dats hA h)

end Cert.KernelIdeal.Hand

end
-- ==== Proof.KI.Main.lean ====
/-
  The frame run of the kernel program and what it gives.  @main is the pipelined region followed by
  the host tail; the launch theorem for that shape takes the body obligation and the tracking
  invariant (the accumulator carried between grid points) on one side, and on the other the facts
  that the tail's operations touch only unscoped TensorCore buffers, allocate nothing and never write
  an array the pipeline stages.  Its post names every staged array after the run and every other
  buffer after the tail's operations; read at the result buffer and at the five arguments, that is
  the statement the claims need.
-/
import proofs.«116515_j64166811402734_2_alg».proof.Proof.KI.Frame
import proofs.«116515_j64166811402734_2_alg».proof.Proof.KI.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; every staged array ends at what the
    proof data computes and every other unscoped buffer as the tail's operations leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

/-- The run read at the result buffer (left as the tail's fold over the region's exit contents) and at the
    five arguments, which end as launched. -/
theorem run_post : θ_run defs (onTc (τ := τ) (main (F := F))) ⟨m, fun _ => 0, ρ⟩ (fun r => ∀ c : Dev nD,
      r.2.mem ((c.tc : Thread nD τ).loc main_v220) = Pipeline.afterTail₀ cfgs (dats m) 0 (V0 m) tail c main_v220
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  post_of m ρ (dats m) (A_eq m) (run_main m ρ)

/-- The frame: @main runs to the end, nothing faults, the five argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_post m ρ (dats m) (A_eq m) (run_main m ρ)

end Cert.KernelIdeal.Hand

end
-- ==== Proof.Ref.Base.lean ====
/- The reference program's argument buffers, and the two general facts the run uses about them: an operation whose
   one written buffer is not an argument leaves every argument where it was, and so does a line of such operations. -/
import proofs.«116515_j64166811402734_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

/-- @main's five argument buffers. -/
abbrev argRefs : List (Ref sig .tc) := [main_arg0, main_arg1, main_arg2, main_arg3, main_arg4]

/-- An operation that writes exactly one buffer, not an argument, writes no argument. -/
theorem keeps {Val : EltTy → Type} {op : HloOp τ sig Val} {y : Ref sig .tc}
    (hw : op.writes = {Proc.devRef .tc y}) (hy : y ∉ argRefs) :
    ∀ r ∈ argRefs, Proc.devRef (τ := τ) .tc r ∉ op.writes := by
  intro r hr hmem
  rw [hw, Finset.mem_singleton] at hmem
  exact hy (Proc.devRef_injective _ hmem ▸ hr)

/-- A line of operations none of which writes an argument leaves each argument's contents. -/
theorem after_keep {Val : EltTy → Type} (l : List (HloOp τ sig Val))
    (h : l.Forall fun op => ∀ r ∈ argRefs, Proc.devRef (τ := τ) .tc r ∉ op.writes)
    (V : Valuation τ sig Val) {r : Ref sig .tc} (hr : r ∈ argRefs) :
    after l V (Proc.devRef .tc r) = V (Proc.devRef .tc r) :=
  after_of_forall_not_mem l V fun op hop => (List.forall_iff_forall_mem.mp h) op hop r hr

end Cert.ReferenceIdeal.RefRun

end
-- ==== Proof.Ref.Ops0.lean ====
/- The reference's @main, statements 1 … 60: the flattened maps' binary cross-entropy mean and dice ratio (the text-map loss, `main_v24`), the target's confidence and box slices, and the first two box coordinates scaled to pixels, floored and clipped to the map (`clip`'s six operations each, over `main_call0`, `main_call1`): its 70 host operations as a list, in execution order (a called
   function's operations in its call's place, over that call's buffer record), with the three facts the run needs of
   them: the printed window is that line, every operation touches TensorCore buffers only, and none writes an argument. -/
import proofs.«116515_j64166811402734_2_alg».proof.Proof.Ref.Base
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops0 : List (HloOp τ sig (Elt F)) :=
  [
    StableHlo.reshape main_arg0 main_v0 rfl shapeCasts_S16x1x512x512_S4194304,
    StableHlo.reshape main_arg3 main_v1 rfl shapeCasts_S16x1x512x512_S4194304,
    StableHlo.unary main_v0 main_v2 (Host.log : (⟨S4194304, .f32⟩ : BufTy).Contents (Elt F) → (⟨S4194304, .f32⟩ : BufTy).Contents (Elt F)),
    StableHlo.binary main_v1 main_v2 main_v3 (mulf : (⟨S4194304, .f32⟩ : BufTy).Contents (Elt F) → (⟨S4194304, .f32⟩ : BufTy).Contents (Elt F) → (⟨S4194304, .f32⟩ : BufTy).Contents (Elt F)),
    StableHlo.nullary main_cst (constant S_ .f32 0x3F800000#32),
    StableHlo.unary main_cst main_v4 (broadcastInDim S4194304 ![] bcast_S_S4194304 : (⟨S_, .f32⟩ : BufTy).Contents (Elt F) → (⟨S4194304, .f32⟩ : BufTy).Contents (Elt F)),
    StableHlo.binary main_v4 main_v1 main_v5 (subf : (⟨S4194304, .f32⟩ : BufTy).Contents (Elt F) → (⟨S4194304, .f32⟩ : BufTy).Contents (Elt F) → (⟨S4194304, .f32⟩ : BufTy).Contents (Elt F)),
    StableHlo.nullary main_cst_0 (constant S_ .f32 0x3F800000#32),
    StableHlo.unary main_cst_0 main_v6 (broadcastInDim S4194304 ![] bcast_S_S4194304 : (⟨S_, .f32⟩ : BufTy).Contents (Elt F) → (⟨S4194304, .f32⟩ : BufTy).Contents (Elt F)),
    StableHlo.binary main_v6 main_v0 main_v7 (subf : (⟨S4194304, .f32⟩ : BufTy).Contents (Elt F) → (⟨S4194304, .f32⟩ : BufTy).Contents (Elt F) → (⟨S4194304, .f32⟩ : BufTy).Contents (Elt F)),
    StableHlo.unary main_v7 main_v8 (Host.log : (⟨S4194304, .f32⟩ : BufTy).Contents (Elt F) → (⟨S4194304, .f32⟩ : BufTy).Contents (Elt F)),
    StableHlo.binary main_v5 main_v8 main_v9 (mulf : (⟨S4194304, .f32⟩ : BufTy).Contents (Elt F) → (⟨S4194304, .f32⟩ : BufTy).Contents (Elt F) → (⟨S4194304, .f32⟩ : BufTy).Contents (Elt F)),
    StableHlo.binary main_v3 main_v9 main_v10 (addf : (⟨S4194304, .f32⟩ : BufTy).Contents (Elt F) → (⟨S4194304, .f32⟩ : BufTy).Contents (Elt F) → (⟨S4194304, .f32⟩ : BufTy).Contents (Elt F)),
    StableHlo.nullary main_cst_1 (constant S_ .f32 0x00000000#32),
    StableHlo.binary main_v10 main_cst_1 main_v11 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_2 (constant S_ .f32 0x4A800000#32),
    StableHlo.binary main_v11 main_cst_2 main_v12 (Host.divf : (⟨S_, .f32⟩ : BufTy).Contents (Elt F) → (⟨S_, .f32⟩ : BufTy).Contents (Elt F) → (⟨S_, .f32⟩ : BufTy).Contents (Elt F)),
    StableHlo.unary main_v12 main_v13 (Host.negf : (⟨S_, .f32⟩ : BufTy).Contents (Elt F) → (⟨S_, .f32⟩ : BufTy).Contents (Elt F)),
    StableHlo.binary main_v0 main_v1 main_v14 (mulf : (⟨S4194304, .f32⟩ : BufTy).Contents (Elt F) → (⟨S4194304, .f32⟩ : BufTy).Contents (Elt F) → (⟨S4194304, .f32⟩ : BufTy).Contents (Elt F)),
    StableHlo.nullary main_cst_3 (constant S_ .f32 0x00000000#32),
    StableHlo.binary main_v14 main_cst_3 main_v15 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_4 (constant S_ .f32 0x40000000#32),
    StableHlo.binary main_cst_4 main_v15 main_v16 (mulf : (⟨S_, .f32⟩ : BufTy).Contents (Elt F) → (⟨S_, .f32⟩ : BufTy).Contents (Elt F) → (⟨S_, .f32⟩ : BufTy).Contents (Elt F)),
    StableHlo.nullary main_cst_5 (constant S_ .f32 0x3F800000#32),
    StableHlo.binary main_v16 main_cst_5 main_v17 (addf : (⟨S_, .f32⟩ : BufTy).Contents (Elt F) → (⟨S_, .f32⟩ : BufTy).Contents (Elt F) → (⟨S_, .f32⟩ : BufTy).Contents (Elt F)),
    StableHlo.nullary main_cst_6 (constant S_ .f32 0x00000000#32),
    StableHlo.binary main_v0 main_cst_6 main_v18 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.nullary main_cst_7 (constant S_ .f32 0x00000000#32),
    StableHlo.binary main_v1 main_cst_7 main_v19 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    StableHlo.binary main_v18 main_v19 main_v20 (addf : (⟨S_, .f32⟩ : BufTy).Contents (Elt F) → (⟨S_, .f32⟩ : BufTy).Contents (Elt F) → (⟨S_, .f32⟩ : BufTy).Contents (Elt F)),
    StableHlo.nullary main_cst_8 (constant S_ .f32 0x3F800000#32),
    StableHlo.binary main_v20 main_cst_8 main_v21 (addf : (⟨S_, .f32⟩ : BufTy).Contents (Elt F) → (⟨S_, .f32⟩ : BufTy).Contents (Elt F) → (⟨S_, .f32⟩ : BufTy).Contents (Elt F)),
    StableHlo.binary main_v17 main_v21 main_v22 (Host.divf : (⟨S_, .f32⟩ : BufTy).Contents (Elt F) → (⟨S_, .f32⟩ : BufTy).Contents (Elt F) → (⟨S_, .f32⟩ : BufTy).Contents (Elt F)),
    StableHlo.nullary main_cst_9 (constant S_ .f32 0x3F800000#32),
    StableHlo.binary main_cst_9 main_v22 main_v23 (subf : (⟨S_, .f32⟩ : BufTy).Contents (Elt F) → (⟨S_, .f32⟩ : BufTy).Contents (Elt F) → (⟨S_, .f32⟩ : BufTy).Contents (Elt F)),
    StableHlo.binary main_v13 main_v23 main_v24 (addf : (⟨S_, .f32⟩ : BufTy).Contents (Elt F) → (⟨S_, .f32⟩ : BufTy).Contents (Elt F) → (⟨S_, .f32⟩ : BufTy).Contents (Elt F)),
    StableHlo.unary main_arg4 main_v25 ((extractStridedSlice S16x64x1 ![0, 0, 0] · slices_S16x64x5_S16x64x1_0_0_0) : (⟨S16x64x5, .f32⟩ : BufTy).Contents (Elt F) → (⟨S16x64x1, .f32⟩ : BufTy).Contents (Elt F)),
    StableHlo.reshape main_v25 main_v26 rfl shapeCasts_S16x64x1_S16x64,
    StableHlo.unary main_arg4 main_v27 ((extractStridedSlice S16x64x4 ![0, 0, 1] · slices_S16x64x5_S16x64x4_0_0_1) : (⟨S16x64x5, .f32⟩ : BufTy).Contents (Elt F) → (⟨S16x64x4, .f32⟩ : BufTy).Contents (Elt F)),
    StableHlo.unary main_v27 main_v28 ((extractStridedSlice S16x64x1 ![0, 0, 0] · slices_S16x64x4_S16x64x1_0_0_0) : (⟨S16x64x4, .f32⟩ : BufTy).Contents (Elt F) → (⟨S16x64x1, .f32⟩ : BufTy).Contents (Elt F)),
    StableHlo.reshape main_v28 main_v29 rfl shapeCasts_S16x64x1_S16x64,
    StableHlo.nullary main_cst_10 (constant S_ .f32 0x44000000#32),
    StableHlo.unary main_cst_10 main_v30 (broadcastInDim S16x64 ![] bcast_S_S16x64 : (⟨S_, .f32⟩ : BufTy).Contents (Elt F) → (⟨S16x64, .f32⟩ : BufTy).Contents (Elt F)),
    StableHlo.binary main_v29 main_v30 main_v31 (mulf : (⟨S16x64, .f32⟩ : BufTy).Contents (Elt F) → (⟨S16x64, .f32⟩ : BufTy).Contents (Elt F) → (⟨S16x64, .f32⟩ : BufTy).Contents (Elt F)),
    StableHlo.unary main_v31 main_v32 (Host.floor : (⟨S16x64, .f32⟩ : BufTy).Contents (Elt F) → (⟨S16x64, .f32⟩ : BufTy).Contents (Elt F)),
    StableHlo.unary main_v32 main_v33 (fptosi 32 : (⟨S16x64, .f32⟩ : BufTy).Contents (Elt F) → (⟨S16x64, .i32⟩ : BufTy).Contents (Elt F)),
    StableHlo.nullary main_c (constantI S_ 32 0#32),
    StableHlo.nullary main_c_11 (constantI S_ 32 511#32),
    StableHlo.TRef.unary (.of main_c) main_call0.v0 id,
    StableHlo.TRef.unary main_call0.v0 main_call0.v1 (broadcastInDim S16x64 ![] bcast_S_S16x64),
    StableHlo.TRef.binary main_call0.v1 (.of main_v33) main_call0.v2 maxsi,
    StableHlo.TRef.unary (.of main_c_11) main_call0.v3 id,
    StableHlo.TRef.unary main_call0.v3 main_call0.v4 (broadcastInDim S16x64 ![] bcast_S_S16x64),
    StableHlo.TRef.binary main_call0.v4 main_call0.v2 main_call0.v5 minsi,
    StableHlo.unary main_v27 main_v35 ((extractStridedSlice S16x64x1 ![0, 0, 1] · slices_S16x64x4_S16x64x1_0_0_1) : (⟨S16x64x4, .f32⟩ : BufTy).Contents (Elt F) → (⟨S16x64x1, .f32⟩ : BufTy).Contents (Elt F)),
    StableHlo.reshape main_v35 main_v36 rfl shapeCasts_S16x64x1_S16x64,
    StableHlo.nullary main_cst_12 (constant S_ .f32 0x44000000#32),
    StableHlo.unary main_cst_12 main_v37 (broadcastInDim S16x64 ![] bcast_S_S16x64 : (⟨S_, .f32⟩ : BufTy).Contents (Elt F) → (⟨S16x64, .f32⟩ : BufTy).Contents (Elt F)),
    StableHlo.binary main_v36 main_v37 main_v38 (mulf : (⟨S16x64, .f32⟩ : BufTy).Contents (Elt F) → (⟨S16x64, .f32⟩ : BufTy).Contents (Elt F) → (⟨S16x64, .f32⟩ : BufTy).Contents (Elt F)),
    StableHlo.unary main_v38 main_v39 (Host.floor : (⟨S16x64, .f32⟩ : BufTy).Contents (Elt F) → (⟨S16x64, .f32⟩ : BufTy).Contents (Elt F)),
    StableHlo.unary main_v39 main_v40 (fptosi 32 : (⟨S16x64, .f32⟩ : BufTy).Contents (Elt F) → (⟨S16x64, .i32⟩ : BufTy).Contents (Elt F)),
    StableHlo.nullary main_c_13 (constantI S_ 32 0#32),
    StableHlo.nullary main_c_14 (constantI S_ 32 511#32),
    StableHlo.TRef.unary (.of main_c_13) main_call1.v0 id,
    StableHlo.TRef.unary main_call1.v0 main_call1.v1 (broadcastInDim S16x64 ![] bcast_S_S16x64),
    StableHlo.TRef.binary main_call1.v1 (.of main_v40) main_call1.v2 maxsi,
    StableHlo.TRef.unary (.of main_c_14) main_call1.v3 id,
    StableHlo.TRef.unary main_call1.v3 main_call1.v4 (broadcastInDim S16x64 ![] bcast_S_S16x64),
    StableHlo.TRef.binary main_call1.v4 main_call1.v2 main_call1.v5 minsi,
    StableHlo.unary main_v27 main_v42 ((extractStridedSlice S16x64x1 ![0, 0, 2] · slices_S16x64x4_S16x64x1_0_0_2) : (⟨S16x64x4, .f32⟩ : BufTy).Contents (Elt F) → (⟨S16x64x1, .f32⟩ : BufTy).Contents (Elt F)) ]

set_option maxRecDepth 16384 in
set_option maxHeartbeats 4000000 in
/-- The printed window is that straight line: the called functions' bodies unfold at their calls. -/
theorem main_part0_eq (c : Dev nD) : main_part0 (F := F) c = seq ops0 := rfl

set_option maxRecDepth 16384 in
theorem ops0_sub : (ops0 : List (HloOp τ sig (Elt F))).Forall fun op => op.bufs ⊆ tcRefs τ sig :=
  ⟨
    reshape_bufs_sub .., reshape_bufs_sub .., unary_bufs_sub .., binary_bufs_sub .., nullary_bufs_sub .., unary_bufs_sub ..,
    binary_bufs_sub .., nullary_bufs_sub .., unary_bufs_sub .., binary_bufs_sub .., unary_bufs_sub .., binary_bufs_sub ..,
    binary_bufs_sub .., nullary_bufs_sub .., binary_bufs_sub .., nullary_bufs_sub .., binary_bufs_sub .., unary_bufs_sub ..,
    binary_bufs_sub .., nullary_bufs_sub .., binary_bufs_sub .., nullary_bufs_sub .., binary_bufs_sub .., nullary_bufs_sub ..,
    binary_bufs_sub .., nullary_bufs_sub .., binary_bufs_sub .., nullary_bufs_sub .., binary_bufs_sub .., binary_bufs_sub ..,
    nullary_bufs_sub .., binary_bufs_sub .., binary_bufs_sub .., nullary_bufs_sub .., binary_bufs_sub .., binary_bufs_sub ..,
    unary_bufs_sub .., reshape_bufs_sub .., unary_bufs_sub .., unary_bufs_sub .., reshape_bufs_sub .., nullary_bufs_sub ..,
    unary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    unary_bufs_sub .., reshape_bufs_sub .., nullary_bufs_sub .., unary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., unary_bufs_sub ..⟩

set_option maxRecDepth 16384 in
set_option maxHeartbeats 4000000 in
/-- Each operation writes its one result buffer, which is no argument. -/
theorem ops0_keep : (ops0 : List (HloOp τ sig (Elt F))).Forall fun op =>
    ∀ r ∈ argRefs, Proc.devRef (τ := τ) .tc r ∉ op.writes :=
  ⟨
    keeps (y := main_v0) rfl (by decide), keeps (y := main_v1) rfl (by decide), keeps (y := main_v2) rfl (by decide),
    keeps (y := main_v3) rfl (by decide), keeps (y := main_cst) rfl (by decide), keeps (y := main_v4) rfl (by decide),
    keeps (y := main_v5) rfl (by decide), keeps (y := main_cst_0) rfl (by decide), keeps (y := main_v6) rfl (by decide),
    keeps (y := main_v7) rfl (by decide), keeps (y := main_v8) rfl (by decide), keeps (y := main_v9) rfl (by decide),
    keeps (y := main_v10) rfl (by decide), keeps (y := main_cst_1) rfl (by decide), keeps (y := main_v11) rfl (by decide),
    keeps (y := main_cst_2) rfl (by decide), keeps (y := main_v12) rfl (by decide), keeps (y := main_v13) rfl (by decide),
    keeps (y := main_v14) rfl (by decide), keeps (y := main_cst_3) rfl (by decide), keeps (y := main_v15) rfl (by decide),
    keeps (y := main_cst_4) rfl (by decide), keeps (y := main_v16) rfl (by decide), keeps (y := main_cst_5) rfl (by decide),
    keeps (y := main_v17) rfl (by decide), keeps (y := main_cst_6) rfl (by decide), keeps (y := main_v18) rfl (by decide),
    keeps (y := main_cst_7) rfl (by decide), keeps (y := main_v19) rfl (by decide), keeps (y := main_v20) rfl (by decide),
    keeps (y := main_cst_8) rfl (by decide), keeps (y := main_v21) rfl (by decide), keeps (y := main_v22) rfl (by decide),
    keeps (y := main_cst_9) rfl (by decide), keeps (y := main_v23) rfl (by decide), keeps (y := main_v24) rfl (by decide),
    keeps (y := main_v25) rfl (by decide), keeps (y := main_v26) rfl (by decide), keeps (y := main_v27) rfl (by decide),
    keeps (y := main_v28) rfl (by decide), keeps (y := main_v29) rfl (by decide), keeps (y := main_cst_10) rfl (by decide),
    keeps (y := main_v30) rfl (by decide), keeps (y := main_v31) rfl (by decide), keeps (y := main_v32) rfl (by decide),
    keeps (y := main_v33) rfl (by decide), keeps (y := main_c) rfl (by decide), keeps (y := main_c_11) rfl (by decide),
    keeps (y := main_call0.v0.ref) rfl (by decide), keeps (y := main_call0.v1.ref) rfl (by decide), keeps (y := main_call0.v2.ref) rfl (by decide),
    keeps (y := main_call0.v3.ref) rfl (by decide), keeps (y := main_call0.v4.ref) rfl (by decide), keeps (y := main_call0.v5.ref) rfl (by decide),
    keeps (y := main_v35) rfl (by decide), keeps (y := main_v36) rfl (by decide), keeps (y := main_cst_12) rfl (by decide),
    keeps (y := main_v37) rfl (by decide), keeps (y := main_v38) rfl (by decide), keeps (y := main_v39) rfl (by decide),
    keeps (y := main_v40) rfl (by decide), keeps (y := main_c_13) rfl (by decide), keeps (y := main_c_14) rfl (by decide),
    keeps (y := main_call1.v0.ref) rfl (by decide), keeps (y := main_call1.v1.ref) rfl (by decide), keeps (y := main_call1.v2.ref) rfl (by decide),
    keeps (y := main_call1.v3.ref) rfl (by decide), keeps (y := main_call1.v4.ref) rfl (by decide), keeps (y := main_call1.v5.ref) rfl (by decide),
    keeps (y := main_v42) rfl (by decide)⟩

set_option maxRecDepth 16384 in
/-- Every operation determines its results: none allocates a buffer of contents not chosen. -/
theorem ops0_fresh : (ops0 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

end Cert.ReferenceIdeal.RefRun

end
-- ==== Proof.Ref.Ops1.lean ====
/- The reference's @main, statements 61 … 120: the other two clipped coordinates (`main_call2`, `main_call3`), the two centre coordinates by floor division (`floor_divide`'s sixteen operations and its `_where`'s select, over `main_call4`, `main_call5`), the five sample points per box, and the index wrap-arounds of the first gather: its 102 host operations as a list, in execution order (a called
   function's operations in its call's place, over that call's buffer record), with the three facts the run needs of
   them: the printed window is that line, every operation touches TensorCore buffers only, and none writes an argument. -/
import proofs.«116515_j64166811402734_2_alg».proof.Proof.Ref.Base
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops1 : List (HloOp τ sig (Elt F)) :=
  [
    StableHlo.reshape main_v42 main_v43 rfl shapeCasts_S16x64x1_S16x64,
    StableHlo.nullary main_cst_15 (constant S_ .f32 0x44000000#32),
    StableHlo.unary main_cst_15 main_v44 (broadcastInDim S16x64 ![] bcast_S_S16x64 : (⟨S_, .f32⟩ : BufTy).Contents (Elt F) → (⟨S16x64, .f32⟩ : BufTy).Contents (Elt F)),
    StableHlo.binary main_v43 main_v44 main_v45 (mulf : (⟨S16x64, .f32⟩ : BufTy).Contents (Elt F) → (⟨S16x64, .f32⟩ : BufTy).Contents (Elt F) → (⟨S16x64, .f32⟩ : BufTy).Contents (Elt F)),
    StableHlo.unary main_v45 main_v46 (Host.floor : (⟨S16x64, .f32⟩ : BufTy).Contents (Elt F) → (⟨S16x64, .f32⟩ : BufTy).Contents (Elt F)),
    StableHlo.unary main_v46 main_v47 (fptosi 32 : (⟨S16x64, .f32⟩ : BufTy).Contents (Elt F) → (⟨S16x64, .i32⟩ : BufTy).Contents (Elt F)),
    StableHlo.nullary main_c_16 (constantI S_ 32 0#32),
    StableHlo.nullary main_c_17 (constantI S_ 32 511#32),
    StableHlo.TRef.unary (.of main_c_16) main_call2.v0 id,
    StableHlo.TRef.unary main_call2.v0 main_call2.v1 (broadcastInDim S16x64 ![] bcast_S_S16x64),
    StableHlo.TRef.binary main_call2.v1 (.of main_v47) main_call2.v2 maxsi,
    StableHlo.TRef.unary (.of main_c_17) main_call2.v3 id,
    StableHlo.TRef.unary main_call2.v3 main_call2.v4 (broadcastInDim S16x64 ![] bcast_S_S16x64),
    StableHlo.TRef.binary main_call2.v4 main_call2.v2 main_call2.v5 minsi,
    StableHlo.unary main_v27 main_v49 ((extractStridedSlice S16x64x1 ![0, 0, 3] · slices_S16x64x4_S16x64x1_0_0_3) : (⟨S16x64x4, .f32⟩ : BufTy).Contents (Elt F) → (⟨S16x64x1, .f32⟩ : BufTy).Contents (Elt F)),
    StableHlo.reshape main_v49 main_v50 rfl shapeCasts_S16x64x1_S16x64,
    StableHlo.nullary main_cst_18 (constant S_ .f32 0x44000000#32),
    StableHlo.unary main_cst_18 main_v51 (broadcastInDim S16x64 ![] bcast_S_S16x64 : (⟨S_, .f32⟩ : BufTy).Contents (Elt F) → (⟨S16x64, .f32⟩ : BufTy).Contents (Elt F)),
    StableHlo.binary main_v50 main_v51 main_v52 (mulf : (⟨S16x64, .f32⟩ : BufTy).Contents (Elt F) → (⟨S16x64, .f32⟩ : BufTy).Contents (Elt F) → (⟨S16x64, .f32⟩ : BufTy).Contents (Elt F)),
    StableHlo.unary main_v52 main_v53 (Host.floor : (⟨S16x64, .f32⟩ : BufTy).Contents (Elt F) → (⟨S16x64, .f32⟩ : BufTy).Contents (Elt F)),
    StableHlo.unary main_v53 main_v54 (fptosi 32 : (⟨S16x64, .f32⟩ : BufTy).Contents (Elt F) → (⟨S16x64, .i32⟩ : BufTy).Contents (Elt F)),
    StableHlo.nullary main_c_19 (constantI S_ 32 0#32),
    StableHlo.nullary main_c_20 (constantI S_ 32 511#32),
    StableHlo.TRef.unary (.of main_c_19) main_call3.v0 id,
    StableHlo.TRef.unary main_call3.v0 main_call3.v1 (broadcastInDim S16x64 ![] bcast_S_S16x64),
    StableHlo.TRef.binary main_call3.v1 (.of main_v54) main_call3.v2 maxsi,
    StableHlo.TRef.unary (.of main_c_20) main_call3.v3 id,
    StableHlo.TRef.unary main_call3.v3 main_call3.v4 (broadcastInDim S16x64 ![] bcast_S_S16x64),
    StableHlo.TRef.binary main_call3.v4 main_call3.v2 main_call3.v5 minsi,
    StableHlo.binary main_v41 main_v55 main_v56 (addi : (⟨S16x64, .i32⟩ : BufTy).Contents (Elt F) → (⟨S16x64, .i32⟩ : BufTy).Contents (Elt F) → (⟨S16x64, .i32⟩ : BufTy).Contents (Elt F)),
    StableHlo.nullary main_c_21 (constantI S_ 32 2#32),
    StableHlo.TRef.unary (.of main_c_21) main_call4.v0 id,
    StableHlo.TRef.unary main_call4.v0 main_call4.v1 (broadcastInDim S16x64 ![] bcast_S_S16x64),
    StableHlo.TRef.binary (.of main_v56) main_call4.v1 main_call4.v2 Host.divsi,
    StableHlo.TRef.unary (.of main_v56) main_call4.v3 signi,
    StableHlo.TRef.unary main_call4.v0 main_call4.v4 signi,
    StableHlo.TRef.unary main_call4.v4 main_call4.v5 (broadcastInDim S16x64 ![] bcast_S_S16x64),
    StableHlo.TRef.binary main_call4.v3 main_call4.v5 main_call4.v6 (cmpi .ne),
    StableHlo.TRef.unary main_call4.v0 main_call4.v7 (broadcastInDim S16x64 ![] bcast_S_S16x64),
    StableHlo.TRef.binary (.of main_v56) main_call4.v7 main_call4.v8 Host.remsi,
    StableHlo.TRef.nullary main_call4.c (constantI S_ 32 0#32),
    StableHlo.TRef.unary main_call4.c main_call4.v9 (broadcastInDim S16x64 ![] bcast_S_S16x64),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S16x64 ![] bcast_S_S16x64),
    StableHlo.TRef.binary main_call4.v2 main_call4.v12 main_call4.v13 subi,
    StableHlo.TRef.ternary main_call4.v11 main_call4.v13 main_call4.v2 main_call4.call0.v0 select,
    StableHlo.unary main_v57 main_v58 (broadcastInDim S16x64x1 ![0, 1] bcast_S16x64_S16x64x1_0_1 : (⟨S16x64, .i32⟩ : BufTy).Contents (Elt F) → (⟨S16x64x1, .i32⟩ : BufTy).Contents (Elt F)),
    StableHlo.unary main_v41 main_v59 (broadcastInDim S16x64x1 ![0, 1] bcast_S16x64_S16x64x1_0_1 : (⟨S16x64, .i32⟩ : BufTy).Contents (Elt F) → (⟨S16x64x1, .i32⟩ : BufTy).Contents (Elt F)),
    StableHlo.unary main_v41 main_v60 (broadcastInDim S16x64x1 ![0, 1] bcast_S16x64_S16x64x1_0_1 : (⟨S16x64, .i32⟩ : BufTy).Contents (Elt F) → (⟨S16x64x1, .i32⟩ : BufTy).Contents (Elt F)),
    StableHlo.unary main_v55 main_v61 (broadcastInDim S16x64x1 ![0, 1] bcast_S16x64_S16x64x1_0_1 : (⟨S16x64, .i32⟩ : BufTy).Contents (Elt F) → (⟨S16x64x1, .i32⟩ : BufTy).Contents (Elt F)),
    StableHlo.unary main_v55 main_v62 (broadcastInDim S16x64x1 ![0, 1] bcast_S16x64_S16x64x1_0_1 : (⟨S16x64, .i32⟩ : BufTy).Contents (Elt F) → (⟨S16x64x1, .i32⟩ : BufTy).Contents (Elt F)),
    StableHlo.nary ![main_v58, main_v59, main_v60, main_v61, main_v62] main_v63 (fun u => concatenate S16x64x5 2 [⟨S16x64x1, u 0⟩, ⟨S16x64x1, u 1⟩, ⟨S16x64x1, u 2⟩, ⟨S16x64x1, u 3⟩, ⟨S16x64x1, u 4⟩] concatenates_S16x64x1_S16x64x1_S16x64x1_S16x64x1_S16x64x1_S16x64x5_d2),
    StableHlo.binary main_v34 main_v48 main_v64 (addi : (⟨S16x64, .i32⟩ : BufTy).Contents (Elt F) → (⟨S16x64, .i32⟩ : BufTy).Contents (Elt F) → (⟨S16x64, .i32⟩ : BufTy).Contents (Elt F)),
    StableHlo.nullary main_c_22 (constantI S_ 32 2#32),
    StableHlo.TRef.unary (.of main_c_22) main_call5.v0 id,
    StableHlo.TRef.unary main_call5.v0 main_call5.v1 (broadcastInDim S16x64 ![] bcast_S_S16x64),
    StableHlo.TRef.binary (.of main_v64) main_call5.v1 main_call5.v2 Host.divsi,
    StableHlo.TRef.unary (.of main_v64) main_call5.v3 signi,
    StableHlo.TRef.unary main_call5.v0 main_call5.v4 signi,
    StableHlo.TRef.unary main_call5.v4 main_call5.v5 (broadcastInDim S16x64 ![] bcast_S_S16x64),
    StableHlo.TRef.binary main_call5.v3 main_call5.v5 main_call5.v6 (cmpi .ne),
    StableHlo.TRef.unary main_call5.v0 main_call5.v7 (broadcastInDim S16x64 ![] bcast_S_S16x64),
    StableHlo.TRef.binary (.of main_v64) main_call5.v7 main_call5.v8 Host.remsi,
    StableHlo.TRef.nullary main_call5.c (constantI S_ 32 0#32),
    StableHlo.TRef.unary main_call5.c main_call5.v9 (broadcastInDim S16x64 ![] bcast_S_S16x64),
    StableHlo.TRef.binary main_call5.v8 main_call5.v9 main_call5.v10 (cmpi .ne),
    StableHlo.TRef.binary main_call5.v6 main_call5.v10 main_call5.v11 andi,
    StableHlo.TRef.nullary main_call5.c_0 (constantI S_ 32 1#32),
    StableHlo.TRef.unary main_call5.c_0 main_call5.v12 (broadcastInDim S16x64 ![] bcast_S_S16x64),
    StableHlo.TRef.binary main_call5.v2 main_call5.v12 main_call5.v13 subi,
    StableHlo.TRef.ternary main_call5.v11 main_call5.v13 main_call5.v2 main_call5.call0.v0 select,
    StableHlo.unary main_v65 main_v66 (broadcastInDim S16x64x1 ![0, 1] bcast_S16x64_S16x64x1_0_1 : (⟨S16x64, .i32⟩ : BufTy).Contents (Elt F) → (⟨S16x64x1, .i32⟩ : BufTy).Contents (Elt F)),
    StableHlo.unary main_v34 main_v67 (broadcastInDim S16x64x1 ![0, 1] bcast_S16x64_S16x64x1_0_1 : (⟨S16x64, .i32⟩ : BufTy).Contents (Elt F) → (⟨S16x64x1, .i32⟩ : BufTy).Contents (Elt F)),
    StableHlo.unary main_v48 main_v68 (broadcastInDim S16x64x1 ![0, 1] bcast_S16x64_S16x64x1_0_1 : (⟨S16x64, .i32⟩ : BufTy).Contents (Elt F) → (⟨S16x64x1, .i32⟩ : BufTy).Contents (Elt F)),
    StableHlo.unary main_v34 main_v69 (broadcastInDim S16x64x1 ![0, 1] bcast_S16x64_S16x64x1_0_1 : (⟨S16x64, .i32⟩ : BufTy).Contents (Elt F) → (⟨S16x64x1, .i32⟩ : BufTy).Contents (Elt F)),
    StableHlo.unary main_v48 main_v70 (broadcastInDim S16x64x1 ![0, 1] bcast_S16x64_S16x64x1_0_1 : (⟨S16x64, .i32⟩ : BufTy).Contents (Elt F) → (⟨S16x64x1, .i32⟩ : BufTy).Contents (Elt F)),
    StableHlo.nary ![main_v66, main_v67, main_v68, main_v69, main_v70] main_v71 (fun u => concatenate S16x64x5 2 [⟨S16x64x1, u 0⟩, ⟨S16x64x1, u 1⟩, ⟨S16x64x1, u 2⟩, ⟨S16x64x1, u 3⟩, ⟨S16x64x1, u 4⟩] concatenates_S16x64x1_S16x64x1_S16x64x1_S16x64x1_S16x64x1_S16x64x5_d2),
    StableHlo.nullary main_v72 (iotaInDim S16 32 0),
    StableHlo.unary main_v72 main_v73 (broadcastInDim S16x1x1 ![0] bcast_S16_S16x1x1_0 : (⟨S16, .i32⟩ : BufTy).Contents (Elt F) → (⟨S16x1x1, .i32⟩ : BufTy).Contents (Elt F)),
    StableHlo.unary main_arg2 main_v74 ((transpose S16x512x512x4 [0, 2, 3, 1] · transposes_S16x4x512x512_S16x512x512x4_0_2_3_1) : (⟨S16x4x512x512, .f32⟩ : BufTy).Contents (Elt F) → (⟨S16x512x512x4, .f32⟩ : BufTy).Contents (Elt F)),
    StableHlo.nullary main_c_23 (constantI S_ 32 0#32),
    StableHlo.unary main_c_23 main_v75 (broadcastInDim S16x1x1 ![] bcast_S_S16x1x1 : (⟨S_, .i32⟩ : BufTy).Contents (Elt F) → (⟨S16x1x1, .i32⟩ : BufTy).Contents (Elt F)),
    StableHlo.binary main_v73 main_v75 main_v76 (cmpi .slt : (⟨S16x1x1, .i32⟩ : BufTy).Contents (Elt F) → (⟨S16x1x1, .i32⟩ : BufTy).Contents (Elt F) → (⟨S16x1x1, .i1⟩ : BufTy).Contents (Elt F)),
    StableHlo.nullary main_c_24 (constantI S_ 32 16#32),
    StableHlo.unary main_c_24 main_v77 (broadcastInDim S16x1x1 ![] bcast_S_S16x1x1 : (⟨S_, .i32⟩ : BufTy).Contents (Elt F) → (⟨S16x1x1, .i32⟩ : BufTy).Contents (Elt F)),
    StableHlo.binary main_v73 main_v77 main_v78 (addi : (⟨S16x1x1, .i32⟩ : BufTy).Contents (Elt F) → (⟨S16x1x1, .i32⟩ : BufTy).Contents (Elt F) → (⟨S16x1x1, .i32⟩ : BufTy).Contents (Elt F)),
    StableHlo.ternary main_v76 main_v78 main_v73 main_v79 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_c_25 (constantI S_ 32 0#32),
    StableHlo.unary main_c_25 main_v80 (broadcastInDim S16x64x5 ![] bcast_S_S16x64x5 : (⟨S_, .i32⟩ : BufTy).Contents (Elt F) → (⟨S16x64x5, .i32⟩ : BufTy).Contents (Elt F)),
    StableHlo.binary main_v63 main_v80 main_v81 (cmpi .slt : (⟨S16x64x5, .i32⟩ : BufTy).Contents (Elt F) → (⟨S16x64x5, .i32⟩ : BufTy).Contents (Elt F) → (⟨S16x64x5, .i1⟩ : BufTy).Contents (Elt F)),
    StableHlo.nullary main_c_26 (constantI S_ 32 512#32),
    StableHlo.unary main_c_26 main_v82 (broadcastInDim S16x64x5 ![] bcast_S_S16x64x5 : (⟨S_, .i32⟩ : BufTy).Contents (Elt F) → (⟨S16x64x5, .i32⟩ : BufTy).Contents (Elt F)),
    StableHlo.binary main_v63 main_v82 main_v83 (addi : (⟨S16x64x5, .i32⟩ : BufTy).Contents (Elt F) → (⟨S16x64x5, .i32⟩ : BufTy).Contents (Elt F) → (⟨S16x64x5, .i32⟩ : BufTy).Contents (Elt F)),
    StableHlo.ternary main_v81 main_v83 main_v63 main_v84 (select : (⟨S16x64x5, .i1⟩ : BufTy).Contents (Elt F) → (⟨S16x64x5, .i32⟩ : BufTy).Contents (Elt F) → (⟨S16x64x5, .i32⟩ : BufTy).Contents (Elt F) → (⟨S16x64x5, .i32⟩ : BufTy).Contents (Elt F)),
    StableHlo.nullary main_c_27 (constantI S_ 32 0#32),
    StableHlo.unary main_c_27 main_v85 (broadcastInDim S16x64x5 ![] bcast_S_S16x64x5 : (⟨S_, .i32⟩ : BufTy).Contents (Elt F) → (⟨S16x64x5, .i32⟩ : BufTy).Contents (Elt F)),
    StableHlo.binary main_v71 main_v85 main_v86 (cmpi .slt : (⟨S16x64x5, .i32⟩ : BufTy).Contents (Elt F) → (⟨S16x64x5, .i32⟩ : BufTy).Contents (Elt F) → (⟨S16x64x5, .i1⟩ : BufTy).Contents (Elt F)),
    StableHlo.nullary main_c_28 (constantI S_ 32 512#32),
    StableHlo.unary main_c_28 main_v87 (broadcastInDim S16x64x5 ![] bcast_S_S16x64x5 : (⟨S_, .i32⟩ : BufTy).Contents (Elt F) → (⟨S16x64x5, .i32⟩ : BufTy).Contents (Elt F)),
    StableHlo.binary main_v71 main_v87 main_v88 (addi : (⟨S16x64x5, .i32⟩ : BufTy).Contents (Elt F) → (⟨S16x64x5, .i32⟩ : BufTy).Contents (Elt F) → (⟨S16x64x5, .i32⟩ : BufTy).Contents (Elt F)) ]

set_option maxRecDepth 16384 in
set_option maxHeartbeats 4000000 in
/-- The printed window is that straight line: the called functions' bodies unfold at their calls. -/
theorem main_part1_eq (c : Dev nD) : main_part1 (F := F) c = seq ops1 := rfl

set_option maxRecDepth 16384 in
theorem ops1_sub : (ops1 : List (HloOp τ sig (Elt F))).Forall fun op => op.bufs ⊆ tcRefs τ sig :=
  ⟨
    reshape_bufs_sub .., nullary_bufs_sub .., unary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., unary_bufs_sub .., reshape_bufs_sub .., nullary_bufs_sub .., unary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., binary_bufs_sub ..,
    nullary_bufs_sub .., unary_bufs_sub .., unary_bufs_sub .., binary_bufs_sub .., unary_bufs_sub .., unary_bufs_sub ..,
    unary_bufs_sub .., binary_bufs_sub .., unary_bufs_sub .., binary_bufs_sub .., nullary_bufs_sub .., unary_bufs_sub ..,
    binary_bufs_sub .., binary_bufs_sub .., nullary_bufs_sub .., unary_bufs_sub .., binary_bufs_sub .., ternary_bufs_sub ..,
    unary_bufs_sub .., unary_bufs_sub .., unary_bufs_sub .., unary_bufs_sub .., unary_bufs_sub .., nary_bufs_sub ..,
    binary_bufs_sub .., nullary_bufs_sub .., unary_bufs_sub .., unary_bufs_sub .., binary_bufs_sub .., unary_bufs_sub ..,
    unary_bufs_sub .., unary_bufs_sub .., binary_bufs_sub .., unary_bufs_sub .., binary_bufs_sub .., nullary_bufs_sub ..,
    unary_bufs_sub .., binary_bufs_sub .., binary_bufs_sub .., nullary_bufs_sub .., unary_bufs_sub .., binary_bufs_sub ..,
    ternary_bufs_sub .., unary_bufs_sub .., unary_bufs_sub .., unary_bufs_sub .., unary_bufs_sub .., unary_bufs_sub ..,
    nary_bufs_sub .., nullary_bufs_sub .., unary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    nullary_bufs_sub .., unary_bufs_sub .., binary_bufs_sub .., nullary_bufs_sub .., unary_bufs_sub .., binary_bufs_sub ..⟩

set_option maxRecDepth 16384 in
set_option maxHeartbeats 4000000 in
/-- Each operation writes its one result buffer, which is no argument. -/
theorem ops1_keep : (ops1 : List (HloOp τ sig (Elt F))).Forall fun op =>
    ∀ r ∈ argRefs, Proc.devRef (τ := τ) .tc r ∉ op.writes :=
  ⟨
    keeps (y := main_v43) rfl (by decide), keeps (y := main_cst_15) rfl (by decide), keeps (y := main_v44) rfl (by decide),
    keeps (y := main_v45) rfl (by decide), keeps (y := main_v46) rfl (by decide), keeps (y := main_v47) rfl (by decide),
    keeps (y := main_c_16) rfl (by decide), keeps (y := main_c_17) rfl (by decide), keeps (y := main_call2.v0.ref) rfl (by decide),
    keeps (y := main_call2.v1.ref) rfl (by decide), keeps (y := main_call2.v2.ref) rfl (by decide), keeps (y := main_call2.v3.ref) rfl (by decide),
    keeps (y := main_call2.v4.ref) rfl (by decide), keeps (y := main_call2.v5.ref) rfl (by decide), keeps (y := main_v49) rfl (by decide),
    keeps (y := main_v50) rfl (by decide), keeps (y := main_cst_18) rfl (by decide), keeps (y := main_v51) rfl (by decide),
    keeps (y := main_v52) rfl (by decide), keeps (y := main_v53) rfl (by decide), keeps (y := main_v54) rfl (by decide),
    keeps (y := main_c_19) rfl (by decide), keeps (y := main_c_20) rfl (by decide), keeps (y := main_call3.v0.ref) rfl (by decide),
    keeps (y := main_call3.v1.ref) rfl (by decide), keeps (y := main_call3.v2.ref) rfl (by decide), keeps (y := main_call3.v3.ref) rfl (by decide),
    keeps (y := main_call3.v4.ref) rfl (by decide), keeps (y := main_call3.v5.ref) rfl (by decide), keeps (y := main_v56) rfl (by decide),
    keeps (y := main_c_21) rfl (by decide), keeps (y := main_call4.v0.ref) rfl (by decide), keeps (y := main_call4.v1.ref) rfl (by decide),
    keeps (y := main_call4.v2.ref) rfl (by decide), keeps (y := main_call4.v3.ref) rfl (by decide), keeps (y := main_call4.v4.ref) rfl (by decide),
    keeps (y := main_call4.v5.ref) rfl (by decide), keeps (y := main_call4.v6.ref) rfl (by decide), keeps (y := main_call4.v7.ref) rfl (by decide),
    keeps (y := main_call4.v8.ref) rfl (by decide), keeps (y := main_call4.c.ref) rfl (by decide), keeps (y := main_call4.v9.ref) rfl (by decide),
    keeps (y := main_call4.v10.ref) rfl (by decide), keeps (y := main_call4.v11.ref) rfl (by decide), keeps (y := main_call4.c_0.ref) rfl (by decide),
    keeps (y := main_call4.v12.ref) rfl (by decide), keeps (y := main_call4.v13.ref) rfl (by decide), keeps (y := main_call4.call0.v0.ref) rfl (by decide),
    keeps (y := main_v58) rfl (by decide), keeps (y := main_v59) rfl (by decide), keeps (y := main_v60) rfl (by decide),
    keeps (y := main_v61) rfl (by decide), keeps (y := main_v62) rfl (by decide), keeps (y := main_v63) rfl (by decide),
    keeps (y := main_v64) rfl (by decide), keeps (y := main_c_22) rfl (by decide), keeps (y := main_call5.v0.ref) rfl (by decide),
    keeps (y := main_call5.v1.ref) rfl (by decide), keeps (y := main_call5.v2.ref) rfl (by decide), keeps (y := main_call5.v3.ref) rfl (by decide),
    keeps (y := main_call5.v4.ref) rfl (by decide), keeps (y := main_call5.v5.ref) rfl (by decide), keeps (y := main_call5.v6.ref) rfl (by decide),
    keeps (y := main_call5.v7.ref) rfl (by decide), keeps (y := main_call5.v8.ref) rfl (by decide), keeps (y := main_call5.c.ref) rfl (by decide),
    keeps (y := main_call5.v9.ref) rfl (by decide), keeps (y := main_call5.v10.ref) rfl (by decide), keeps (y := main_call5.v11.ref) rfl (by decide),
    keeps (y := main_call5.c_0.ref) rfl (by decide), keeps (y := main_call5.v12.ref) rfl (by decide), keeps (y := main_call5.v13.ref) rfl (by decide),
    keeps (y := main_call5.call0.v0.ref) rfl (by decide), keeps (y := main_v66) rfl (by decide), keeps (y := main_v67) rfl (by decide),
    keeps (y := main_v68) rfl (by decide), keeps (y := main_v69) rfl (by decide), keeps (y := main_v70) rfl (by decide),
    keeps (y := main_v71) rfl (by decide), keeps (y := main_v72) rfl (by decide), keeps (y := main_v73) rfl (by decide),
    keeps (y := main_v74) rfl (by decide), keeps (y := main_c_23) rfl (by decide), keeps (y := main_v75) rfl (by decide),
    keeps (y := main_v76) rfl (by decide), keeps (y := main_c_24) rfl (by decide), keeps (y := main_v77) rfl (by decide),
    keeps (y := main_v78) rfl (by decide), keeps (y := main_v79) rfl (by decide), keeps (y := main_c_25) rfl (by decide),
    keeps (y := main_v80) rfl (by decide), keeps (y := main_v81) rfl (by decide), keeps (y := main_c_26) rfl (by decide),
    keeps (y := main_v82) rfl (by decide), keeps (y := main_v83) rfl (by decide), keeps (y := main_v84) rfl (by decide),
    keeps (y := main_c_27) rfl (by decide), keeps (y := main_v85) rfl (by decide), keeps (y := main_v86) rfl (by decide),
    keeps (y := main_c_28) rfl (by decide), keeps (y := main_v87) rfl (by decide), keeps (y := main_v88) rfl (by decide)⟩

set_option maxRecDepth 16384 in
/-- Every operation determines its results: none allocates a buffer of contents not chosen. -/
theorem ops1_fresh : (ops1 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

end Cert.ReferenceIdeal.RefRun

end
-- ==== Proof.Ref.Ops2.lean ====
/- The reference's @main, statements 121 … 180: the gather of the predicted boxes at the sample points, the same index chain and the gather of the predicted confidences, the target boxes broadcast to the samples, and the corner slices of both box sets: its 60 host operations as a list, in execution order (a called
   function's operations in its call's place, over that call's buffer record), with the three facts the run needs of
   them: the printed window is that line, every operation touches TensorCore buffers only, and none writes an argument. -/
import proofs.«116515_j64166811402734_2_alg».proof.Proof.Ref.Base
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops2 : List (HloOp τ sig (Elt F)) :=
  [
    StableHlo.ternary main_v86 main_v88 main_v71 main_v89 (select : (⟨S16x64x5, .i1⟩ : BufTy).Contents (Elt F) → (⟨S16x64x5, .i32⟩ : BufTy).Contents (Elt F) → (⟨S16x64x5, .i32⟩ : BufTy).Contents (Elt F) → (⟨S16x64x5, .i32⟩ : BufTy).Contents (Elt F)),
    StableHlo.unary main_v79 main_v90 (broadcastInDim S16x64x5 ![0, 1, 2] bcast_S16x1x1_S16x64x5_0_1_2 : (⟨S16x1x1, .i32⟩ : BufTy).Contents (Elt F) → (⟨S16x64x5, .i32⟩ : BufTy).Contents (Elt F)),
    StableHlo.unary main_v90 main_v91 (broadcastInDim S16x64x5x1 ![0, 1, 2] bcast_S16x64x5_S16x64x5x1_0_1_2 : (⟨S16x64x5, .i32⟩ : BufTy).Contents (Elt F) → (⟨S16x64x5x1, .i32⟩ : BufTy).Contents (Elt F)),
    StableHlo.unary main_v84 main_v92 (broadcastInDim S16x64x5x1 ![0, 1, 2] bcast_S16x64x5_S16x64x5x1_0_1_2 : (⟨S16x64x5, .i32⟩ : BufTy).Contents (Elt F) → (⟨S16x64x5x1, .i32⟩ : BufTy).Contents (Elt F)),
    StableHlo.unary main_v89 main_v93 (broadcastInDim S16x64x5x1 ![0, 1, 2] bcast_S16x64x5_S16x64x5x1_0_1_2 : (⟨S16x64x5, .i32⟩ : BufTy).Contents (Elt F) → (⟨S16x64x5x1, .i32⟩ : BufTy).Contents (Elt F)),
    StableHlo.nary ![main_v91, main_v92, main_v93] main_v94 (fun u => concatenate S16x64x5x3 3 [⟨S16x64x5x1, u 0⟩, ⟨S16x64x5x1, u 1⟩, ⟨S16x64x5x1, u 2⟩] concatenates_S16x64x5x1_S16x64x5x1_S16x64x5x1_S16x64x5x3_d3),
    StableHlo.binary main_v74 main_v94 main_v95 ((fun x i => Host.gather gather_S16x512x512x4_S16x64x5x3_S16x64x5x4_3_012_n_n_012_3_1114 x i) : (⟨S16x512x512x4, .f32⟩ : BufTy).Contents (Elt F) → (⟨S16x64x5x3, .i32⟩ : BufTy).Contents (Elt F) → (⟨S16x64x5x4, .f32⟩ : BufTy).Contents (Elt F)),
    StableHlo.reshape main_arg1 main_v96 rfl shapeCasts_S16x1x512x512_S16x512x512,
    StableHlo.nullary main_c_29 (constantI S_ 32 0#32),
    StableHlo.unary main_c_29 main_v97 (broadcastInDim S16x1x1 ![] bcast_S_S16x1x1 : (⟨S_, .i32⟩ : BufTy).Contents (Elt F) → (⟨S16x1x1, .i32⟩ : BufTy).Contents (Elt F)),
    StableHlo.binary main_v73 main_v97 main_v98 (cmpi .slt : (⟨S16x1x1, .i32⟩ : BufTy).Contents (Elt F) → (⟨S16x1x1, .i32⟩ : BufTy).Contents (Elt F) → (⟨S16x1x1, .i1⟩ : BufTy).Contents (Elt F)),
    StableHlo.nullary main_c_30 (constantI S_ 32 16#32),
    StableHlo.unary main_c_30 main_v99 (broadcastInDim S16x1x1 ![] bcast_S_S16x1x1 : (⟨S_, .i32⟩ : BufTy).Contents (Elt F) → (⟨S16x1x1, .i32⟩ : BufTy).Contents (Elt F)),
    StableHlo.binary main_v73 main_v99 main_v100 (addi : (⟨S16x1x1, .i32⟩ : BufTy).Contents (Elt F) → (⟨S16x1x1, .i32⟩ : BufTy).Contents (Elt F) → (⟨S16x1x1, .i32⟩ : BufTy).Contents (Elt F)),
    StableHlo.ternary main_v98 main_v100 main_v73 main_v101 (select : (⟨S16x1x1, .i1⟩ : BufTy).Contents (Elt F) → (⟨S16x1x1, .i32⟩ : BufTy).Contents (Elt F) → (⟨S16x1x1, .i32⟩ : BufTy).Contents (Elt F) → (⟨S16x1x1, .i32⟩ : BufTy).Contents (Elt F)),
    StableHlo.nullary main_c_31 (constantI S_ 32 0#32),
    StableHlo.unary main_c_31 main_v102 (broadcastInDim S16x64x5 ![] bcast_S_S16x64x5 : (⟨S_, .i32⟩ : BufTy).Contents (Elt F) → (⟨S16x64x5, .i32⟩ : BufTy).Contents (Elt F)),
    StableHlo.binary main_v63 main_v102 main_v103 (cmpi .slt : (⟨S16x64x5, .i32⟩ : BufTy).Contents (Elt F) → (⟨S16x64x5, .i32⟩ : BufTy).Contents (Elt F) → (⟨S16x64x5, .i1⟩ : BufTy).Contents (Elt F)),
    StableHlo.nullary main_c_32 (constantI S_ 32 512#32),
    StableHlo.unary main_c_32 main_v104 (broadcastInDim S16x64x5 ![] bcast_S_S16x64x5 : (⟨S_, .i32⟩ : BufTy).Contents (Elt F) → (⟨S16x64x5, .i32⟩ : BufTy).Contents (Elt F)),
    StableHlo.binary main_v63 main_v104 main_v105 (addi : (⟨S16x64x5, .i32⟩ : BufTy).Contents (Elt F) → (⟨S16x64x5, .i32⟩ : BufTy).Contents (Elt F) → (⟨S16x64x5, .i32⟩ : BufTy).Contents (Elt F)),
    StableHlo.ternary main_v103 main_v105 main_v63 main_v106 (select : (⟨S16x64x5, .i1⟩ : BufTy).Contents (Elt F) → (⟨S16x64x5, .i32⟩ : BufTy).Contents (Elt F) → (⟨S16x64x5, .i32⟩ : BufTy).Contents (Elt F) → (⟨S16x64x5, .i32⟩ : BufTy).Contents (Elt F)),
    StableHlo.nullary main_c_33 (constantI S_ 32 0#32),
    StableHlo.unary main_c_33 main_v107 (broadcastInDim S16x64x5 ![] bcast_S_S16x64x5 : (⟨S_, .i32⟩ : BufTy).Contents (Elt F) → (⟨S16x64x5, .i32⟩ : BufTy).Contents (Elt F)),
    StableHlo.binary main_v71 main_v107 main_v108 (cmpi .slt : (⟨S16x64x5, .i32⟩ : BufTy).Contents (Elt F) → (⟨S16x64x5, .i32⟩ : BufTy).Contents (Elt F) → (⟨S16x64x5, .i1⟩ : BufTy).Contents (Elt F)),
    StableHlo.nullary main_c_34 (constantI S_ 32 512#32),
    StableHlo.unary main_c_34 main_v109 (broadcastInDim S16x64x5 ![] bcast_S_S16x64x5 : (⟨S_, .i32⟩ : BufTy).Contents (Elt F) → (⟨S16x64x5, .i32⟩ : BufTy).Contents (Elt F)),
    StableHlo.binary main_v71 main_v109 main_v110 (addi : (⟨S16x64x5, .i32⟩ : BufTy).Contents (Elt F) → (⟨S16x64x5, .i32⟩ : BufTy).Contents (Elt F) → (⟨S16x64x5, .i32⟩ : BufTy).Contents (Elt F)),
    StableHlo.ternary main_v108 main_v110 main_v71 main_v111 (select : (⟨S16x64x5, .i1⟩ : BufTy).Contents (Elt F) → (⟨S16x64x5, .i32⟩ : BufTy).Contents (Elt F) → (⟨S16x64x5, .i32⟩ : BufTy).Contents (Elt F) → (⟨S16x64x5, .i32⟩ : BufTy).Contents (Elt F)),
    StableHlo.unary main_v101 main_v112 (broadcastInDim S16x64x5 ![0, 1, 2] bcast_S16x1x1_S16x64x5_0_1_2 : (⟨S16x1x1, .i32⟩ : BufTy).Contents (Elt F) → (⟨S16x64x5, .i32⟩ : BufTy).Contents (Elt F)),
    StableHlo.unary main_v112 main_v113 (broadcastInDim S16x64x5x1 ![0, 1, 2] bcast_S16x64x5_S16x64x5x1_0_1_2 : (⟨S16x64x5, .i32⟩ : BufTy).Contents (Elt F) → (⟨S16x64x5x1, .i32⟩ : BufTy).Contents (Elt F)),
    StableHlo.unary main_v106 main_v114 (broadcastInDim S16x64x5x1 ![0, 1, 2] bcast_S16x64x5_S16x64x5x1_0_1_2 : (⟨S16x64x5, .i32⟩ : BufTy).Contents (Elt F) → (⟨S16x64x5x1, .i32⟩ : BufTy).Contents (Elt F)),
    StableHlo.unary main_v111 main_v115 (broadcastInDim S16x64x5x1 ![0, 1, 2] bcast_S16x64x5_S16x64x5x1_0_1_2 : (⟨S16x64x5, .i32⟩ : BufTy).Contents (Elt F) → (⟨S16x64x5x1, .i32⟩ : BufTy).Contents (Elt F)),
    StableHlo.nary ![main_v113, main_v114, main_v115] main_v116 (fun u => concatenate S16x64x5x3 3 [⟨S16x64x5x1, u 0⟩, ⟨S16x64x5x1, u 1⟩, ⟨S16x64x5x1, u 2⟩] concatenates_S16x64x5x1_S16x64x5x1_S16x64x5x1_S16x64x5x3_d3),
    StableHlo.binary main_v96 main_v116 main_v117 ((fun x i => Host.gather gather_S16x512x512_S16x64x5x3_S16x64x5_n_012_n_n_012_3_111 x i) : (⟨S16x512x512, .f32⟩ : BufTy).Contents (Elt F) → (⟨S16x64x5x3, .i32⟩ : BufTy).Contents (Elt F) → (⟨S16x64x5, .f32⟩ : BufTy).Contents (Elt F)),
    StableHlo.unary main_v27 main_v118 (broadcastInDim S16x64x1x4 ![0, 1, 3] bcast_S16x64x4_S16x64x1x4_0_1_3 : (⟨S16x64x4, .f32⟩ : BufTy).Contents (Elt F) → (⟨S16x64x1x4, .f32⟩ : BufTy).Contents (Elt F)),
    StableHlo.unary main_v118 main_v119 (broadcastInDim S16x64x5x4 ![0, 1, 2, 3] bcast_S16x64x1x4_S16x64x5x4_0_1_2_3 : (⟨S16x64x1x4, .f32⟩ : BufTy).Contents (Elt F) → (⟨S16x64x5x4, .f32⟩ : BufTy).Contents (Elt F)),
    StableHlo.unary main_v26 main_v120 (broadcastInDim S16x64x1 ![0, 1] bcast_S16x64_S16x64x1_0_1 : (⟨S16x64, .f32⟩ : BufTy).Contents (Elt F) → (⟨S16x64x1, .f32⟩ : BufTy).Contents (Elt F)),
    StableHlo.unary main_v120 main_v121 (broadcastInDim S16x64x5 ![0, 1, 2] bcast_S16x64x1_S16x64x5_0_1_2 : (⟨S16x64x1, .f32⟩ : BufTy).Contents (Elt F) → (⟨S16x64x5, .f32⟩ : BufTy).Contents (Elt F)),
    StableHlo.reshape main_v95 main_v122 rfl shapeCasts_S16x64x5x4_S16x320x4,
    StableHlo.reshape main_v119 main_v123 rfl shapeCasts_S16x64x5x4_S16x320x4,
    StableHlo.unary main_v122 main_v124 ((extractStridedSlice S16x320x1 ![0, 0, 2] · slices_S16x320x4_S16x320x1_0_0_2) : (⟨S16x320x4, .f32⟩ : BufTy).Contents (Elt F) → (⟨S16x320x1, .f32⟩ : BufTy).Contents (Elt F)),
    StableHlo.reshape main_v124 main_v125 rfl shapeCasts_S16x320x1_S16x320,
    StableHlo.unary main_v122 main_v126 ((extractStridedSlice S16x320x1 ![0, 0, 0] · slices_S16x320x4_S16x320x1_0_0_0) : (⟨S16x320x4, .f32⟩ : BufTy).Contents (Elt F) → (⟨S16x320x1, .f32⟩ : BufTy).Contents (Elt F)),
    StableHlo.reshape main_v126 main_v127 rfl shapeCasts_S16x320x1_S16x320,
    StableHlo.binary main_v125 main_v127 main_v128 (subf : (⟨S16x320, .f32⟩ : BufTy).Contents (Elt F) → (⟨S16x320, .f32⟩ : BufTy).Contents (Elt F) → (⟨S16x320, .f32⟩ : BufTy).Contents (Elt F)),
    StableHlo.unary main_v122 main_v129 ((extractStridedSlice S16x320x1 ![0, 0, 3] · slices_S16x320x4_S16x320x1_0_0_3) : (⟨S16x320x4, .f32⟩ : BufTy).Contents (Elt F) → (⟨S16x320x1, .f32⟩ : BufTy).Contents (Elt F)),
    StableHlo.reshape main_v129 main_v130 rfl shapeCasts_S16x320x1_S16x320,
    StableHlo.unary main_v122 main_v131 ((extractStridedSlice S16x320x1 ![0, 0, 1] · slices_S16x320x4_S16x320x1_0_0_1) : (⟨S16x320x4, .f32⟩ : BufTy).Contents (Elt F) → (⟨S16x320x1, .f32⟩ : BufTy).Contents (Elt F)),
    StableHlo.reshape main_v131 main_v132 rfl shapeCasts_S16x320x1_S16x320,
    StableHlo.binary main_v130 main_v132 main_v133 (subf : (⟨S16x320, .f32⟩ : BufTy).Contents (Elt F) → (⟨S16x320, .f32⟩ : BufTy).Contents (Elt F) → (⟨S16x320, .f32⟩ : BufTy).Contents (Elt F)),
    StableHlo.binary main_v128 main_v133 main_v134 (mulf : (⟨S16x320, .f32⟩ : BufTy).Contents (Elt F) → (⟨S16x320, .f32⟩ : BufTy).Contents (Elt F) → (⟨S16x320, .f32⟩ : BufTy).Contents (Elt F)),
    StableHlo.unary main_v123 main_v135 ((extractStridedSlice S16x320x1 ![0, 0, 2] · slices_S16x320x4_S16x320x1_0_0_2) : (⟨S16x320x4, .f32⟩ : BufTy).Contents (Elt F) → (⟨S16x320x1, .f32⟩ : BufTy).Contents (Elt F)),
    StableHlo.reshape main_v135 main_v136 rfl shapeCasts_S16x320x1_S16x320,
    StableHlo.unary main_v123 main_v137 ((extractStridedSlice S16x320x1 ![0, 0, 0] · slices_S16x320x4_S16x320x1_0_0_0) : (⟨S16x320x4, .f32⟩ : BufTy).Contents (Elt F) → (⟨S16x320x1, .f32⟩ : BufTy).Contents (Elt F)),
    StableHlo.reshape main_v137 main_v138 rfl shapeCasts_S16x320x1_S16x320,
    StableHlo.binary main_v136 main_v138 main_v139 (subf : (⟨S16x320, .f32⟩ : BufTy).Contents (Elt F) → (⟨S16x320, .f32⟩ : BufTy).Contents (Elt F) → (⟨S16x320, .f32⟩ : BufTy).Contents (Elt F)),
    StableHlo.unary main_v123 main_v140 ((extractStridedSlice S16x320x1 ![0, 0, 3] · slices_S16x320x4_S16x320x1_0_0_3) : (⟨S16x320x4, .f32⟩ : BufTy).Contents (Elt F) → (⟨S16x320x1, .f32⟩ : BufTy).Contents (Elt F)),
    StableHlo.reshape main_v140 main_v141 rfl shapeCasts_S16x320x1_S16x320,
    StableHlo.unary main_v123 main_v142 ((extractStridedSlice S16x320x1 ![0, 0, 1] · slices_S16x320x4_S16x320x1_0_0_1) : (⟨S16x320x4, .f32⟩ : BufTy).Contents (Elt F) → (⟨S16x320x1, .f32⟩ : BufTy).Contents (Elt F)) ]

set_option maxRecDepth 16384 in
set_option maxHeartbeats 4000000 in
/-- The printed window is that straight line: the called functions' bodies unfold at their calls. -/
theorem main_part2_eq (c : Dev nD) : main_part2 (F := F) c = seq ops2 := rfl

set_option maxRecDepth 16384 in
theorem ops2_sub : (ops2 : List (HloOp τ sig (Elt F))).Forall fun op => op.bufs ⊆ tcRefs τ sig :=
  ⟨
    ternary_bufs_sub .., unary_bufs_sub .., unary_bufs_sub .., unary_bufs_sub .., unary_bufs_sub .., nary_bufs_sub ..,
    binary_bufs_sub .., reshape_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., unary_bufs_sub .., unary_bufs_sub .., nary_bufs_sub .., binary_bufs_sub .., unary_bufs_sub ..,
    unary_bufs_sub .., unary_bufs_sub .., unary_bufs_sub .., reshape_bufs_sub .., reshape_bufs_sub .., unary_bufs_sub ..,
    reshape_bufs_sub .., unary_bufs_sub .., reshape_bufs_sub .., binary_bufs_sub .., unary_bufs_sub .., reshape_bufs_sub ..,
    unary_bufs_sub .., reshape_bufs_sub .., binary_bufs_sub .., binary_bufs_sub .., unary_bufs_sub .., reshape_bufs_sub ..,
    unary_bufs_sub .., reshape_bufs_sub .., binary_bufs_sub .., unary_bufs_sub .., reshape_bufs_sub .., unary_bufs_sub ..⟩

set_option maxRecDepth 16384 in
set_option maxHeartbeats 4000000 in
/-- Each operation writes its one result buffer, which is no argument. -/
theorem ops2_keep : (ops2 : List (HloOp τ sig (Elt F))).Forall fun op =>
    ∀ r ∈ argRefs, Proc.devRef (τ := τ) .tc r ∉ op.writes :=
  ⟨
    keeps (y := main_v89) rfl (by decide), keeps (y := main_v90) rfl (by decide), keeps (y := main_v91) rfl (by decide),
    keeps (y := main_v92) rfl (by decide), keeps (y := main_v93) rfl (by decide), keeps (y := main_v94) rfl (by decide),
    keeps (y := main_v95) rfl (by decide), keeps (y := main_v96) rfl (by decide), keeps (y := main_c_29) rfl (by decide),
    keeps (y := main_v97) rfl (by decide), keeps (y := main_v98) rfl (by decide), keeps (y := main_c_30) rfl (by decide),
    keeps (y := main_v99) rfl (by decide), keeps (y := main_v100) rfl (by decide), keeps (y := main_v101) rfl (by decide),
    keeps (y := main_c_31) rfl (by decide), keeps (y := main_v102) rfl (by decide), keeps (y := main_v103) rfl (by decide),
    keeps (y := main_c_32) rfl (by decide), keeps (y := main_v104) rfl (by decide), keeps (y := main_v105) rfl (by decide),
    keeps (y := main_v106) rfl (by decide), keeps (y := main_c_33) rfl (by decide), keeps (y := main_v107) rfl (by decide),
    keeps (y := main_v108) rfl (by decide), keeps (y := main_c_34) rfl (by decide), keeps (y := main_v109) rfl (by decide),
    keeps (y := main_v110) rfl (by decide), keeps (y := main_v111) rfl (by decide), keeps (y := main_v112) rfl (by decide),
    keeps (y := main_v113) rfl (by decide), keeps (y := main_v114) rfl (by decide), keeps (y := main_v115) rfl (by decide),
    keeps (y := main_v116) rfl (by decide), keeps (y := main_v117) rfl (by decide), keeps (y := main_v118) rfl (by decide),
    keeps (y := main_v119) rfl (by decide), keeps (y := main_v120) rfl (by decide), keeps (y := main_v121) rfl (by decide),
    keeps (y := main_v122) rfl (by decide), keeps (y := main_v123) rfl (by decide), keeps (y := main_v124) rfl (by decide),
    keeps (y := main_v125) rfl (by decide), keeps (y := main_v126) rfl (by decide), keeps (y := main_v127) rfl (by decide),
    keeps (y := main_v128) rfl (by decide), keeps (y := main_v129) rfl (by decide), keeps (y := main_v130) rfl (by decide),
    keeps (y := main_v131) rfl (by decide), keeps (y := main_v132) rfl (by decide), keeps (y := main_v133) rfl (by decide),
    keeps (y := main_v134) rfl (by decide), keeps (y := main_v135) rfl (by decide), keeps (y := main_v136) rfl (by decide),
    keeps (y := main_v137) rfl (by decide), keeps (y := main_v138) rfl (by decide), keeps (y := main_v139) rfl (by decide),
    keeps (y := main_v140) rfl (by decide), keeps (y := main_v141) rfl (by decide), keeps (y := main_v142) rfl (by decide)⟩

set_option maxRecDepth 16384 in
/-- Every operation determines its results: none allocates a buffer of contents not chosen. -/
theorem ops2_fresh : (ops2 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

end Cert.ReferenceIdeal.RefRun

end
-- ==== Proof.Ref.Ops3.lean ====
/- The reference's @main, statements 181 … 240: intersection and union areas (`clip_0`'s three operations twice, over `main_call6`, `main_call7`), the log-IoU term's row means, and the smooth-L1 branches with their select (`_where_1`, over `main_call8`): its 64 host operations as a list, in execution order (a called
   function's operations in its call's place, over that call's buffer record), with the three facts the run needs of
   them: the printed window is that line, every operation touches TensorCore buffers only, and none writes an argument. -/
import proofs.«116515_j64166811402734_2_alg».proof.Proof.Ref.Base
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops3 : List (HloOp τ sig (Elt F)) :=
  [
    StableHlo.reshape main_v142 main_v143 rfl shapeCasts_S16x320x1_S16x320,
    StableHlo.binary main_v141 main_v143 main_v144 (subf : (⟨S16x320, .f32⟩ : BufTy).Contents (Elt F) → (⟨S16x320, .f32⟩ : BufTy).Contents (Elt F) → (⟨S16x320, .f32⟩ : BufTy).Contents (Elt F)),
    StableHlo.binary main_v139 main_v144 main_v145 (mulf : (⟨S16x320, .f32⟩ : BufTy).Contents (Elt F) → (⟨S16x320, .f32⟩ : BufTy).Contents (Elt F) → (⟨S16x320, .f32⟩ : BufTy).Contents (Elt F)),
    StableHlo.unary main_v122 main_v146 ((extractStridedSlice S16x320x1 ![0, 0, 0] · slices_S16x320x4_S16x320x1_0_0_0) : (⟨S16x320x4, .f32⟩ : BufTy).Contents (Elt F) → (⟨S16x320x1, .f32⟩ : BufTy).Contents (Elt F)),
    StableHlo.reshape main_v146 main_v147 rfl shapeCasts_S16x320x1_S16x320,
    StableHlo.unary main_v123 main_v148 ((extractStridedSlice S16x320x1 ![0, 0, 0] · slices_S16x320x4_S16x320x1_0_0_0) : (⟨S16x320x4, .f32⟩ : BufTy).Contents (Elt F) → (⟨S16x320x1, .f32⟩ : BufTy).Contents (Elt F)),
    StableHlo.reshape main_v148 main_v149 rfl shapeCasts_S16x320x1_S16x320,
    StableHlo.binary main_v147 main_v149 main_v150 (maximumf : (⟨S16x320, .f32⟩ : BufTy).Contents (Elt F) → (⟨S16x320, .f32⟩ : BufTy).Contents (Elt F) → (⟨S16x320, .f32⟩ : BufTy).Contents (Elt F)),
    StableHlo.unary main_v122 main_v151 ((extractStridedSlice S16x320x1 ![0, 0, 1] · slices_S16x320x4_S16x320x1_0_0_1) : (⟨S16x320x4, .f32⟩ : BufTy).Contents (Elt F) → (⟨S16x320x1, .f32⟩ : BufTy).Contents (Elt F)),
    StableHlo.reshape main_v151 main_v152 rfl shapeCasts_S16x320x1_S16x320,
    StableHlo.unary main_v123 main_v153 ((extractStridedSlice S16x320x1 ![0, 0, 1] · slices_S16x320x4_S16x320x1_0_0_1) : (⟨S16x320x4, .f32⟩ : BufTy).Contents (Elt F) → (⟨S16x320x1, .f32⟩ : BufTy).Contents (Elt F)),
    StableHlo.reshape main_v153 main_v154 rfl shapeCasts_S16x320x1_S16x320,
    StableHlo.binary main_v152 main_v154 main_v155 (maximumf : (⟨S16x320, .f32⟩ : BufTy).Contents (Elt F) → (⟨S16x320, .f32⟩ : BufTy).Contents (Elt F) → (⟨S16x320, .f32⟩ : BufTy).Contents (Elt F)),
    StableHlo.unary main_v122 main_v156 ((extractStridedSlice S16x320x1 ![0, 0, 2] · slices_S16x320x4_S16x320x1_0_0_2) : (⟨S16x320x4, .f32⟩ : BufTy).Contents (Elt F) → (⟨S16x320x1, .f32⟩ : BufTy).Contents (Elt F)),
    StableHlo.reshape main_v156 main_v157 rfl shapeCasts_S16x320x1_S16x320,
    StableHlo.unary main_v123 main_v158 ((extractStridedSlice S16x320x1 ![0, 0, 2] · slices_S16x320x4_S16x320x1_0_0_2) : (⟨S16x320x4, .f32⟩ : BufTy).Contents (Elt F) → (⟨S16x320x1, .f32⟩ : BufTy).Contents (Elt F)),
    StableHlo.reshape main_v158 main_v159 rfl shapeCasts_S16x320x1_S16x320,
    StableHlo.binary main_v157 main_v159 main_v160 (minimumf : (⟨S16x320, .f32⟩ : BufTy).Contents (Elt F) → (⟨S16x320, .f32⟩ : BufTy).Contents (Elt F) → (⟨S16x320, .f32⟩ : BufTy).Contents (Elt F)),
    StableHlo.unary main_v122 main_v161 ((extractStridedSlice S16x320x1 ![0, 0, 3] · slices_S16x320x4_S16x320x1_0_0_3) : (⟨S16x320x4, .f32⟩ : BufTy).Contents (Elt F) → (⟨S16x320x1, .f32⟩ : BufTy).Contents (Elt F)),
    StableHlo.reshape main_v161 main_v162 rfl shapeCasts_S16x320x1_S16x320,
    StableHlo.unary main_v123 main_v163 ((extractStridedSlice S16x320x1 ![0, 0, 3] · slices_S16x320x4_S16x320x1_0_0_3) : (⟨S16x320x4, .f32⟩ : BufTy).Contents (Elt F) → (⟨S16x320x1, .f32⟩ : BufTy).Contents (Elt F)),
    StableHlo.reshape main_v163 main_v164 rfl shapeCasts_S16x320x1_S16x320,
    StableHlo.binary main_v162 main_v164 main_v165 (minimumf : (⟨S16x320, .f32⟩ : BufTy).Contents (Elt F) → (⟨S16x320, .f32⟩ : BufTy).Contents (Elt F) → (⟨S16x320, .f32⟩ : BufTy).Contents (Elt F)),
    StableHlo.binary main_v160 main_v150 main_v166 (subf : (⟨S16x320, .f32⟩ : BufTy).Contents (Elt F) → (⟨S16x320, .f32⟩ : BufTy).Contents (Elt F) → (⟨S16x320, .f32⟩ : BufTy).Contents (Elt F)),
    StableHlo.nullary main_cst_35 (constant S_ .f32 0x00000000#32),
    StableHlo.TRef.unary (.of main_cst_35) main_call6.v0 id,
    StableHlo.TRef.unary main_call6.v0 main_call6.v1 (broadcastInDim S16x320 ![] bcast_S_S16x320),
    StableHlo.TRef.binary main_call6.v1 (.of main_v166) main_call6.v2 maximumf,
    StableHlo.binary main_v165 main_v155 main_v168 (subf : (⟨S16x320, .f32⟩ : BufTy).Contents (Elt F) → (⟨S16x320, .f32⟩ : BufTy).Contents (Elt F) → (⟨S16x320, .f32⟩ : BufTy).Contents (Elt F)),
    StableHlo.nullary main_cst_36 (constant S_ .f32 0x00000000#32),
    StableHlo.TRef.unary (.of main_cst_36) main_call7.v0 id,
    StableHlo.TRef.unary main_call7.v0 main_call7.v1 (broadcastInDim S16x320 ![] bcast_S_S16x320),
    StableHlo.TRef.binary main_call7.v1 (.of main_v168) main_call7.v2 maximumf,
    StableHlo.binary main_v167 main_v169 main_v170 (mulf : (⟨S16x320, .f32⟩ : BufTy).Contents (Elt F) → (⟨S16x320, .f32⟩ : BufTy).Contents (Elt F) → (⟨S16x320, .f32⟩ : BufTy).Contents (Elt F)),
    StableHlo.binary main_v134 main_v145 main_v171 (addf : (⟨S16x320, .f32⟩ : BufTy).Contents (Elt F) → (⟨S16x320, .f32⟩ : BufTy).Contents (Elt F) → (⟨S16x320, .f32⟩ : BufTy).Contents (Elt F)),
    StableHlo.binary main_v171 main_v170 main_v172 (subf : (⟨S16x320, .f32⟩ : BufTy).Contents (Elt F) → (⟨S16x320, .f32⟩ : BufTy).Contents (Elt F) → (⟨S16x320, .f32⟩ : BufTy).Contents (Elt F)),
    StableHlo.nullary main_cst_37 (constant S_ .f32 0x358637BD#32),
    StableHlo.unary main_cst_37 main_v173 (broadcastInDim S16x320 ![] bcast_S_S16x320 : (⟨S_, .f32⟩ : BufTy).Contents (Elt F) → (⟨S16x320, .f32⟩ : BufTy).Contents (Elt F)),
    StableHlo.binary main_v172 main_v173 main_v174 (addf : (⟨S16x320, .f32⟩ : BufTy).Contents (Elt F) → (⟨S16x320, .f32⟩ : BufTy).Contents (Elt F) → (⟨S16x320, .f32⟩ : BufTy).Contents (Elt F)),
    StableHlo.binary main_v170 main_v174 main_v175 (Host.divf : (⟨S16x320, .f32⟩ : BufTy).Contents (Elt F) → (⟨S16x320, .f32⟩ : BufTy).Contents (Elt F) → (⟨S16x320, .f32⟩ : BufTy).Contents (Elt F)),
    StableHlo.nullary main_cst_38 (constant S_ .f32 0x358637BD#32),
    StableHlo.unary main_cst_38 main_v176 (broadcastInDim S16x320 ![] bcast_S_S16x320 : (⟨S_, .f32⟩ : BufTy).Contents (Elt F) → (⟨S16x320, .f32⟩ : BufTy).Contents (Elt F)),
    StableHlo.binary main_v175 main_v176 main_v177 (addf : (⟨S16x320, .f32⟩ : BufTy).Contents (Elt F) → (⟨S16x320, .f32⟩ : BufTy).Contents (Elt F) → (⟨S16x320, .f32⟩ : BufTy).Contents (Elt F)),
    StableHlo.unary main_v177 main_v178 (Host.log : (⟨S16x320, .f32⟩ : BufTy).Contents (Elt F) → (⟨S16x320, .f32⟩ : BufTy).Contents (Elt F)),
    StableHlo.nullary main_cst_39 (constant S_ .f32 0x00000000#32),
    StableHlo.binary main_v178 main_cst_39 main_v179 ((fun x v => Host.reduceAdd x v reducesTo_S16x320_S16_d1 h_S_) : (⟨S16x320, .f32⟩ : BufTy).Contents (Elt F) → (⟨S_, .f32⟩ : BufTy).Contents (Elt F) → (⟨S16, .f32⟩ : BufTy).Contents (Elt F)),
    StableHlo.nullary main_cst_40 (constant S_ .f32 0x43A00000#32),
    StableHlo.unary main_cst_40 main_v180 (broadcastInDim S16 ![] bcast_S_S16 : (⟨S_, .f32⟩ : BufTy).Contents (Elt F) → (⟨S16, .f32⟩ : BufTy).Contents (Elt F)),
    StableHlo.binary main_v179 main_v180 main_v181 (Host.divf : (⟨S16, .f32⟩ : BufTy).Contents (Elt F) → (⟨S16, .f32⟩ : BufTy).Contents (Elt F) → (⟨S16, .f32⟩ : BufTy).Contents (Elt F)),
    StableHlo.unary main_v181 main_v182 (Host.negf : (⟨S16, .f32⟩ : BufTy).Contents (Elt F) → (⟨S16, .f32⟩ : BufTy).Contents (Elt F)),
    StableHlo.binary main_v122 main_v123 main_v183 (subf : (⟨S16x320x4, .f32⟩ : BufTy).Contents (Elt F) → (⟨S16x320x4, .f32⟩ : BufTy).Contents (Elt F) → (⟨S16x320x4, .f32⟩ : BufTy).Contents (Elt F)),
    StableHlo.unary main_v183 main_v184 (Host.absf : (⟨S16x320x4, .f32⟩ : BufTy).Contents (Elt F) → (⟨S16x320x4, .f32⟩ : BufTy).Contents (Elt F)),
    StableHlo.nullary main_cst_41 (constant S_ .f32 0x3F800000#32),
    StableHlo.unary main_cst_41 main_v185 (broadcastInDim S16x320x4 ![] bcast_S_S16x320x4 : (⟨S_, .f32⟩ : BufTy).Contents (Elt F) → (⟨S16x320x4, .f32⟩ : BufTy).Contents (Elt F)),
    StableHlo.binary main_v184 main_v185 main_v186 (cmpf .olt : (⟨S16x320x4, .f32⟩ : BufTy).Contents (Elt F) → (⟨S16x320x4, .f32⟩ : BufTy).Contents (Elt F) → (⟨S16x320x4, .i1⟩ : BufTy).Contents (Elt F)),
    StableHlo.nullary main_cst_42 (constant S_ .f32 0x3F000000#32),
    StableHlo.unary main_cst_42 main_v187 (broadcastInDim S16x320x4 ![] bcast_S_S16x320x4 : (⟨S_, .f32⟩ : BufTy).Contents (Elt F) → (⟨S16x320x4, .f32⟩ : BufTy).Contents (Elt F)),
    StableHlo.binary main_v187 main_v184 main_v188 (mulf : (⟨S16x320x4, .f32⟩ : BufTy).Contents (Elt F) → (⟨S16x320x4, .f32⟩ : BufTy).Contents (Elt F) → (⟨S16x320x4, .f32⟩ : BufTy).Contents (Elt F)),
    StableHlo.binary main_v188 main_v184 main_v189 (mulf : (⟨S16x320x4, .f32⟩ : BufTy).Contents (Elt F) → (⟨S16x320x4, .f32⟩ : BufTy).Contents (Elt F) → (⟨S16x320x4, .f32⟩ : BufTy).Contents (Elt F)),
    StableHlo.nullary main_cst_43 (constant S_ .f32 0x3F000000#32),
    StableHlo.unary main_cst_43 main_v190 (broadcastInDim S16x320x4 ![] bcast_S_S16x320x4 : (⟨S_, .f32⟩ : BufTy).Contents (Elt F) → (⟨S16x320x4, .f32⟩ : BufTy).Contents (Elt F)),
    StableHlo.binary main_v184 main_v190 main_v191 (subf : (⟨S16x320x4, .f32⟩ : BufTy).Contents (Elt F) → (⟨S16x320x4, .f32⟩ : BufTy).Contents (Elt F) → (⟨S16x320x4, .f32⟩ : BufTy).Contents (Elt F)),
    StableHlo.TRef.ternary (.of main_v186) (.of main_v189) (.of main_v191) main_call8.v0 select,
    StableHlo.nullary main_cst_44 (constant S_ .f32 0x00000000#32) ]

set_option maxRecDepth 16384 in
set_option maxHeartbeats 4000000 in
/-- The printed window is that straight line: the called functions' bodies unfold at their calls. -/
theorem main_part3_eq (c : Dev nD) : main_part3 (F := F) c = seq ops3 := rfl

set_option maxRecDepth 16384 in
theorem ops3_sub : (ops3 : List (HloOp τ sig (Elt F))).Forall fun op => op.bufs ⊆ tcRefs τ sig :=
  ⟨
    reshape_bufs_sub .., binary_bufs_sub .., binary_bufs_sub .., unary_bufs_sub .., reshape_bufs_sub .., unary_bufs_sub ..,
    reshape_bufs_sub .., binary_bufs_sub .., unary_bufs_sub .., reshape_bufs_sub .., unary_bufs_sub .., reshape_bufs_sub ..,
    binary_bufs_sub .., unary_bufs_sub .., reshape_bufs_sub .., unary_bufs_sub .., reshape_bufs_sub .., binary_bufs_sub ..,
    unary_bufs_sub .., reshape_bufs_sub .., unary_bufs_sub .., reshape_bufs_sub .., binary_bufs_sub .., binary_bufs_sub ..,
    nullary_bufs_sub .., unary_bufs_sub .., unary_bufs_sub .., binary_bufs_sub .., binary_bufs_sub .., nullary_bufs_sub ..,
    unary_bufs_sub .., unary_bufs_sub .., binary_bufs_sub .., binary_bufs_sub .., binary_bufs_sub .., binary_bufs_sub ..,
    nullary_bufs_sub .., unary_bufs_sub .., binary_bufs_sub .., binary_bufs_sub .., nullary_bufs_sub .., unary_bufs_sub ..,
    binary_bufs_sub .., unary_bufs_sub .., nullary_bufs_sub .., binary_bufs_sub .., nullary_bufs_sub .., unary_bufs_sub ..,
    binary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., nullary_bufs_sub ..,
    unary_bufs_sub .., binary_bufs_sub .., ternary_bufs_sub .., nullary_bufs_sub ..⟩

set_option maxRecDepth 16384 in
set_option maxHeartbeats 4000000 in
/-- Each operation writes its one result buffer, which is no argument. -/
theorem ops3_keep : (ops3 : List (HloOp τ sig (Elt F))).Forall fun op =>
    ∀ r ∈ argRefs, Proc.devRef (τ := τ) .tc r ∉ op.writes :=
  ⟨
    keeps (y := main_v143) rfl (by decide), keeps (y := main_v144) rfl (by decide), keeps (y := main_v145) rfl (by decide),
    keeps (y := main_v146) rfl (by decide), keeps (y := main_v147) rfl (by decide), keeps (y := main_v148) rfl (by decide),
    keeps (y := main_v149) rfl (by decide), keeps (y := main_v150) rfl (by decide), keeps (y := main_v151) rfl (by decide),
    keeps (y := main_v152) rfl (by decide), keeps (y := main_v153) rfl (by decide), keeps (y := main_v154) rfl (by decide),
    keeps (y := main_v155) rfl (by decide), keeps (y := main_v156) rfl (by decide), keeps (y := main_v157) rfl (by decide),
    keeps (y := main_v158) rfl (by decide), keeps (y := main_v159) rfl (by decide), keeps (y := main_v160) rfl (by decide),
    keeps (y := main_v161) rfl (by decide), keeps (y := main_v162) rfl (by decide), keeps (y := main_v163) rfl (by decide),
    keeps (y := main_v164) rfl (by decide), keeps (y := main_v165) rfl (by decide), keeps (y := main_v166) rfl (by decide),
    keeps (y := main_cst_35) rfl (by decide), keeps (y := main_call6.v0.ref) rfl (by decide), keeps (y := main_call6.v1.ref) rfl (by decide),
    keeps (y := main_call6.v2.ref) rfl (by decide), keeps (y := main_v168) rfl (by decide), keeps (y := main_cst_36) rfl (by decide),
    keeps (y := main_call7.v0.ref) rfl (by decide), keeps (y := main_call7.v1.ref) rfl (by decide), keeps (y := main_call7.v2.ref) rfl (by decide),
    keeps (y := main_v170) rfl (by decide), keeps (y := main_v171) rfl (by decide), keeps (y := main_v172) rfl (by decide),
    keeps (y := main_cst_37) rfl (by decide), keeps (y := main_v173) rfl (by decide), keeps (y := main_v174) rfl (by decide),
    keeps (y := main_v175) rfl (by decide), keeps (y := main_cst_38) rfl (by decide), keeps (y := main_v176) rfl (by decide),
    keeps (y := main_v177) rfl (by decide), keeps (y := main_v178) rfl (by decide), keeps (y := main_cst_39) rfl (by decide),
    keeps (y := main_v179) rfl (by decide), keeps (y := main_cst_40) rfl (by decide), keeps (y := main_v180) rfl (by decide),
    keeps (y := main_v181) rfl (by decide), keeps (y := main_v182) rfl (by decide), keeps (y := main_v183) rfl (by decide),
    keeps (y := main_v184) rfl (by decide), keeps (y := main_cst_41) rfl (by decide), keeps (y := main_v185) rfl (by decide),
    keeps (y := main_v186) rfl (by decide), keeps (y := main_cst_42) rfl (by decide), keeps (y := main_v187) rfl (by decide),
    keeps (y := main_v188) rfl (by decide), keeps (y := main_v189) rfl (by decide), keeps (y := main_cst_43) rfl (by decide),
    keeps (y := main_v190) rfl (by decide), keeps (y := main_v191) rfl (by decide), keeps (y := main_call8.v0.ref) rfl (by decide),
    keeps (y := main_cst_44) rfl (by decide)⟩

set_option maxRecDepth 16384 in
/-- Every operation determines its results: none allocates a buffer of contents not chosen. -/
theorem ops3_fresh : (ops3 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

end Cert.ReferenceIdeal.RefRun

end
-- ==== Proof.Ref.Ops4.lean ====
/- The reference's @main, statements 241 … 289: the smooth-L1 means and the box loss, the confidence cross-entropy and its mean, the weighted total, and the four-scalar result `main_v227`: its 48 host operations as a list, in execution order (a called
   function's operations in its call's place, over that call's buffer record), with the three facts the run needs of
   them: the printed window is that line, every operation touches TensorCore buffers only, and none writes an argument. -/
import proofs.«116515_j64166811402734_2_alg».proof.Proof.Ref.Base
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's operations, in order. -/
abbrev ops4 : List (HloOp τ sig (Elt F)) :=
  [
    StableHlo.binary main_v192 main_cst_44 main_v193 ((fun x v => Host.reduceAdd x v reducesTo_S16x320x4_S16_d1_2 h_S_) : (⟨S16x320x4, .f32⟩ : BufTy).Contents (Elt F) → (⟨S_, .f32⟩ : BufTy).Contents (Elt F) → (⟨S16, .f32⟩ : BufTy).Contents (Elt F)),
    StableHlo.nullary main_cst_45 (constant S_ .f32 0x44A00000#32),
    StableHlo.unary main_cst_45 main_v194 (broadcastInDim S16 ![] bcast_S_S16 : (⟨S_, .f32⟩ : BufTy).Contents (Elt F) → (⟨S16, .f32⟩ : BufTy).Contents (Elt F)),
    StableHlo.binary main_v193 main_v194 main_v195 (Host.divf : (⟨S16, .f32⟩ : BufTy).Contents (Elt F) → (⟨S16, .f32⟩ : BufTy).Contents (Elt F) → (⟨S16, .f32⟩ : BufTy).Contents (Elt F)),
    StableHlo.nullary main_cst_46 (constant S_ .f32 0x3F000000#32),
    StableHlo.unary main_cst_46 main_v196 (broadcastInDim S16 ![] bcast_S_S16 : (⟨S_, .f32⟩ : BufTy).Contents (Elt F) → (⟨S16, .f32⟩ : BufTy).Contents (Elt F)),
    StableHlo.binary main_v196 main_v195 main_v197 (mulf : (⟨S16, .f32⟩ : BufTy).Contents (Elt F) → (⟨S16, .f32⟩ : BufTy).Contents (Elt F) → (⟨S16, .f32⟩ : BufTy).Contents (Elt F)),
    StableHlo.binary main_v182 main_v197 main_v198 (addf : (⟨S16, .f32⟩ : BufTy).Contents (Elt F) → (⟨S16, .f32⟩ : BufTy).Contents (Elt F) → (⟨S16, .f32⟩ : BufTy).Contents (Elt F)),
    StableHlo.nullary main_cst_47 (constant S_ .f32 0x00000000#32),
    StableHlo.binary main_v198 main_cst_47 main_v199 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_48 (constant S_ .f32 0x41800000#32),
    StableHlo.binary main_v199 main_cst_48 main_v200 (Host.divf : (⟨S_, .f32⟩ : BufTy).Contents (Elt F) → (⟨S_, .f32⟩ : BufTy).Contents (Elt F) → (⟨S_, .f32⟩ : BufTy).Contents (Elt F)),
    StableHlo.reshape main_v117 main_v201 rfl shapeCasts_S16x64x5_S16x320,
    StableHlo.reshape main_v121 main_v202 rfl shapeCasts_S16x64x5_S16x320,
    StableHlo.unary main_v201 main_v203 (Host.log : (⟨S16x320, .f32⟩ : BufTy).Contents (Elt F) → (⟨S16x320, .f32⟩ : BufTy).Contents (Elt F)),
    StableHlo.binary main_v202 main_v203 main_v204 (mulf : (⟨S16x320, .f32⟩ : BufTy).Contents (Elt F) → (⟨S16x320, .f32⟩ : BufTy).Contents (Elt F) → (⟨S16x320, .f32⟩ : BufTy).Contents (Elt F)),
    StableHlo.nullary main_cst_49 (constant S_ .f32 0x3F800000#32),
    StableHlo.unary main_cst_49 main_v205 (broadcastInDim S16x320 ![] bcast_S_S16x320 : (⟨S_, .f32⟩ : BufTy).Contents (Elt F) → (⟨S16x320, .f32⟩ : BufTy).Contents (Elt F)),
    StableHlo.binary main_v205 main_v202 main_v206 (subf : (⟨S16x320, .f32⟩ : BufTy).Contents (Elt F) → (⟨S16x320, .f32⟩ : BufTy).Contents (Elt F) → (⟨S16x320, .f32⟩ : BufTy).Contents (Elt F)),
    StableHlo.nullary main_cst_50 (constant S_ .f32 0x3F800000#32),
    StableHlo.unary main_cst_50 main_v207 (broadcastInDim S16x320 ![] bcast_S_S16x320 : (⟨S_, .f32⟩ : BufTy).Contents (Elt F) → (⟨S16x320, .f32⟩ : BufTy).Contents (Elt F)),
    StableHlo.binary main_v207 main_v201 main_v208 (subf : (⟨S16x320, .f32⟩ : BufTy).Contents (Elt F) → (⟨S16x320, .f32⟩ : BufTy).Contents (Elt F) → (⟨S16x320, .f32⟩ : BufTy).Contents (Elt F)),
    StableHlo.unary main_v208 main_v209 (Host.log : (⟨S16x320, .f32⟩ : BufTy).Contents (Elt F) → (⟨S16x320, .f32⟩ : BufTy).Contents (Elt F)),
    StableHlo.binary main_v206 main_v209 main_v210 (mulf : (⟨S16x320, .f32⟩ : BufTy).Contents (Elt F) → (⟨S16x320, .f32⟩ : BufTy).Contents (Elt F) → (⟨S16x320, .f32⟩ : BufTy).Contents (Elt F)),
    StableHlo.binary main_v204 main_v210 main_v211 (addf : (⟨S16x320, .f32⟩ : BufTy).Contents (Elt F) → (⟨S16x320, .f32⟩ : BufTy).Contents (Elt F) → (⟨S16x320, .f32⟩ : BufTy).Contents (Elt F)),
    StableHlo.nullary main_cst_51 (constant S_ .f32 0x00000000#32),
    StableHlo.binary main_v211 main_cst_51 main_v212 ((fun x v => Host.reduceAdd x v reducesTo_S16x320_S16_d1 h_S_) : (⟨S16x320, .f32⟩ : BufTy).Contents (Elt F) → (⟨S_, .f32⟩ : BufTy).Contents (Elt F) → (⟨S16, .f32⟩ : BufTy).Contents (Elt F)),
    StableHlo.nullary main_cst_52 (constant S_ .f32 0x43A00000#32),
    StableHlo.unary main_cst_52 main_v213 (broadcastInDim S16 ![] bcast_S_S16 : (⟨S_, .f32⟩ : BufTy).Contents (Elt F) → (⟨S16, .f32⟩ : BufTy).Contents (Elt F)),
    StableHlo.binary main_v212 main_v213 main_v214 (Host.divf : (⟨S16, .f32⟩ : BufTy).Contents (Elt F) → (⟨S16, .f32⟩ : BufTy).Contents (Elt F) → (⟨S16, .f32⟩ : BufTy).Contents (Elt F)),
    StableHlo.unary main_v214 main_v215 (Host.negf : (⟨S16, .f32⟩ : BufTy).Contents (Elt F) → (⟨S16, .f32⟩ : BufTy).Contents (Elt F)),
    StableHlo.nullary main_cst_53 (constant S_ .f32 0x00000000#32),
    StableHlo.binary main_v215 main_cst_53 main_v216 ((fun x v => Host.reduceAdd x v reducesTo_S16_S_d0 h_S_) : (⟨S16, .f32⟩ : BufTy).Contents (Elt F) → (⟨S_, .f32⟩ : BufTy).Contents (Elt F) → (⟨S_, .f32⟩ : BufTy).Contents (Elt F)),
    StableHlo.nullary main_cst_54 (constant S_ .f32 0x41800000#32),
    StableHlo.binary main_v216 main_cst_54 main_v217 (Host.divf : (⟨S_, .f32⟩ : BufTy).Contents (Elt F) → (⟨S_, .f32⟩ : BufTy).Contents (Elt F) → (⟨S_, .f32⟩ : BufTy).Contents (Elt F)),
    StableHlo.nullary main_cst_55 (constant S_ .f32 0x3F800000#32),
    StableHlo.binary main_cst_55 main_v24 main_v218 (mulf : (⟨S_, .f32⟩ : BufTy).Contents (Elt F) → (⟨S_, .f32⟩ : BufTy).Contents (Elt F) → (⟨S_, .f32⟩ : BufTy).Contents (Elt F)),
    StableHlo.nullary main_cst_56 (constant S_ .f32 0x40A00000#32),
    StableHlo.binary main_cst_56 main_v200 main_v219 (mulf : (⟨S_, .f32⟩ : BufTy).Contents (Elt F) → (⟨S_, .f32⟩ : BufTy).Contents (Elt F) → (⟨S_, .f32⟩ : BufTy).Contents (Elt F)),
    StableHlo.binary main_v218 main_v219 main_v220 (addf : (⟨S_, .f32⟩ : BufTy).Contents (Elt F) → (⟨S_, .f32⟩ : BufTy).Contents (Elt F) → (⟨S_, .f32⟩ : BufTy).Contents (Elt F)),
    StableHlo.nullary main_cst_57 (constant S_ .f32 0x3F000000#32),
    StableHlo.binary main_cst_57 main_v217 main_v221 (mulf : (⟨S_, .f32⟩ : BufTy).Contents (Elt F) → (⟨S_, .f32⟩ : BufTy).Contents (Elt F) → (⟨S_, .f32⟩ : BufTy).Contents (Elt F)),
    StableHlo.binary main_v220 main_v221 main_v222 (addf : (⟨S_, .f32⟩ : BufTy).Contents (Elt F) → (⟨S_, .f32⟩ : BufTy).Contents (Elt F) → (⟨S_, .f32⟩ : BufTy).Contents (Elt F)),
    StableHlo.unary main_v222 main_v223 (broadcastInDim S1 ![] bcast_S_S1 : (⟨S_, .f32⟩ : BufTy).Contents (Elt F) → (⟨S1, .f32⟩ : BufTy).Contents (Elt F)),
    StableHlo.unary main_v24 main_v224 (broadcastInDim S1 ![] bcast_S_S1 : (⟨S_, .f32⟩ : BufTy).Contents (Elt F) → (⟨S1, .f32⟩ : BufTy).Contents (Elt F)),
    StableHlo.unary main_v200 main_v225 (broadcastInDim S1 ![] bcast_S_S1 : (⟨S_, .f32⟩ : BufTy).Contents (Elt F) → (⟨S1, .f32⟩ : BufTy).Contents (Elt F)),
    StableHlo.unary main_v217 main_v226 (broadcastInDim S1 ![] bcast_S_S1 : (⟨S_, .f32⟩ : BufTy).Contents (Elt F) → (⟨S1, .f32⟩ : BufTy).Contents (Elt F)),
    StableHlo.nary ![main_v223, main_v224, main_v225, main_v226] main_v227 (fun u => concatenate S4 0 [⟨S1, u 0⟩, ⟨S1, u 1⟩, ⟨S1, u 2⟩, ⟨S1, u 3⟩] concatenates_S1_S1_S1_S1_S4_d0) ]

set_option maxRecDepth 16384 in
set_option maxHeartbeats 4000000 in
/-- The printed window is that straight line: the called functions' bodies unfold at their calls. -/
theorem main_part4_eq (c : Dev nD) : main_part4 (F := F) c = seq ops4 := rfl

set_option maxRecDepth 16384 in
theorem ops4_sub : (ops4 : List (HloOp τ sig (Elt F))).Forall fun op => op.bufs ⊆ tcRefs τ sig :=
  ⟨
    binary_bufs_sub .., nullary_bufs_sub .., unary_bufs_sub .., binary_bufs_sub .., nullary_bufs_sub .., unary_bufs_sub ..,
    binary_bufs_sub .., binary_bufs_sub .., nullary_bufs_sub .., binary_bufs_sub .., nullary_bufs_sub .., binary_bufs_sub ..,
    reshape_bufs_sub .., reshape_bufs_sub .., unary_bufs_sub .., binary_bufs_sub .., nullary_bufs_sub .., unary_bufs_sub ..,
    binary_bufs_sub .., nullary_bufs_sub .., unary_bufs_sub .., binary_bufs_sub .., unary_bufs_sub .., binary_bufs_sub ..,
    binary_bufs_sub .., nullary_bufs_sub .., binary_bufs_sub .., nullary_bufs_sub .., unary_bufs_sub .., binary_bufs_sub ..,
    unary_bufs_sub .., nullary_bufs_sub .., binary_bufs_sub .., nullary_bufs_sub .., binary_bufs_sub .., nullary_bufs_sub ..,
    binary_bufs_sub .., nullary_bufs_sub .., binary_bufs_sub .., binary_bufs_sub .., nullary_bufs_sub .., binary_bufs_sub ..,
    binary_bufs_sub .., unary_bufs_sub .., unary_bufs_sub .., unary_bufs_sub .., unary_bufs_sub .., nary_bufs_sub ..⟩

set_option maxRecDepth 16384 in
set_option maxHeartbeats 4000000 in
/-- Each operation writes its one result buffer, which is no argument. -/
theorem ops4_keep : (ops4 : List (HloOp τ sig (Elt F))).Forall fun op =>
    ∀ r ∈ argRefs, Proc.devRef (τ := τ) .tc r ∉ op.writes :=
  ⟨
    keeps (y := main_v193) rfl (by decide), keeps (y := main_cst_45) rfl (by decide), keeps (y := main_v194) rfl (by decide),
    keeps (y := main_v195) rfl (by decide), keeps (y := main_cst_46) rfl (by decide), keeps (y := main_v196) rfl (by decide),
    keeps (y := main_v197) rfl (by decide), keeps (y := main_v198) rfl (by decide), keeps (y := main_cst_47) rfl (by decide),
    keeps (y := main_v199) rfl (by decide), keeps (y := main_cst_48) rfl (by decide), keeps (y := main_v200) rfl (by decide),
    keeps (y := main_v201) rfl (by decide), keeps (y := main_v202) rfl (by decide), keeps (y := main_v203) rfl (by decide),
    keeps (y := main_v204) rfl (by decide), keeps (y := main_cst_49) rfl (by decide), keeps (y := main_v205) rfl (by decide),
    keeps (y := main_v206) rfl (by decide), keeps (y := main_cst_50) rfl (by decide), keeps (y := main_v207) rfl (by decide),
    keeps (y := main_v208) rfl (by decide), keeps (y := main_v209) rfl (by decide), keeps (y := main_v210) rfl (by decide),
    keeps (y := main_v211) rfl (by decide), keeps (y := main_cst_51) rfl (by decide), keeps (y := main_v212) rfl (by decide),
    keeps (y := main_cst_52) rfl (by decide), keeps (y := main_v213) rfl (by decide), keeps (y := main_v214) rfl (by decide),
    keeps (y := main_v215) rfl (by decide), keeps (y := main_cst_53) rfl (by decide), keeps (y := main_v216) rfl (by decide),
    keeps (y := main_cst_54) rfl (by decide), keeps (y := main_v217) rfl (by decide), keeps (y := main_cst_55) rfl (by decide),
    keeps (y := main_v218) rfl (by decide), keeps (y := main_cst_56) rfl (by decide), keeps (y := main_v219) rfl (by decide),
    keeps (y := main_v220) rfl (by decide), keeps (y := main_cst_57) rfl (by decide), keeps (y := main_v221) rfl (by decide),
    keeps (y := main_v222) rfl (by decide), keeps (y := main_v223) rfl (by decide), keeps (y := main_v224) rfl (by decide),
    keeps (y := main_v225) rfl (by decide), keeps (y := main_v226) rfl (by decide), keeps (y := main_v227) rfl (by decide)⟩

set_option maxRecDepth 16384 in
/-- Every operation determines its results: none allocates a buffer of contents not chosen. -/
theorem ops4_fresh : (ops4 : List (HloOp τ sig (Elt F))).Forall fun op => op.fresh = ∅ :=
  ⟨
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl⟩

end Cert.ReferenceIdeal.RefRun

end
-- ==== Proof.Ref.Ops.lean ====
/- The reference's @main as ONE line of host operations: the five printed windows' lines, in order. The program is that
   line (each window is its own, and two lines run one after the other are their concatenation run as one), every
   operation touches TensorCore buffers only, and none writes an argument. -/
import proofs.«116515_j64166811402734_2_alg».proof.Proof.Ref.Ops0
import proofs.«116515_j64166811402734_2_alg».proof.Proof.Ref.Ops1
import proofs.«116515_j64166811402734_2_alg».proof.Proof.Ref.Ops2
import proofs.«116515_j64166811402734_2_alg».proof.Proof.Ref.Ops3
import proofs.«116515_j64166811402734_2_alg».proof.Proof.Ref.Ops4
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 344 host operations in execution order, the called functions' operations at their call sites. -/
abbrev ops : List (HloOp τ sig (Elt F)) :=
  ops0 ++ (ops1 ++ (ops2 ++ (ops3 ++ ops4)))

/-- @main runs its five windows in order, each its own line: it is the whole line. -/
theorem main_eq (c : Dev nD) : main (F := F) c = seq ops := by
  simp only [ops, seq_append, ← main_part0_eq c, ← main_part1_eq c, ← main_part2_eq c, ← main_part3_eq c, ← main_part4_eq c]
  rfl

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h,
      List.forall_iff_forall_mem.mp ops2_sub op h, List.forall_iff_forall_mem.mp ops3_sub op h,
      List.forall_iff_forall_mem.mp ops4_sub op h]

/-- No operation of the line writes an argument buffer. -/
theorem ops_keep : (ops : List (HloOp τ sig (Elt F))).Forall fun op =>
    ∀ r ∈ argRefs, Proc.devRef (τ := τ) .tc r ∉ op.writes :=
  List.forall_iff_forall_mem.mpr fun op h => by
    simp only [ops, List.mem_append] at h
    rcases h with h | h | h | h | h
    exacts [List.forall_iff_forall_mem.mp ops0_keep op h, List.forall_iff_forall_mem.mp ops1_keep op h,
      List.forall_iff_forall_mem.mp ops2_keep op h, List.forall_iff_forall_mem.mp ops3_keep op h,
      List.forall_iff_forall_mem.mp ops4_keep op h]

/-- Every operation of the line determines its results. -/
theorem ops_fresh : ∀ op ∈ (ops : List (HloOp τ sig (Elt F))), op.fresh = ∅ := fun op h => by
  simp only [ops, List.mem_append] at h
  rcases h with h | h | h | h | h
  exacts [List.forall_iff_forall_mem.mp ops0_fresh op h, List.forall_iff_forall_mem.mp ops1_fresh op h,
    List.forall_iff_forall_mem.mp ops2_fresh op h, List.forall_iff_forall_mem.mp ops3_fresh op h,
    List.forall_iff_forall_mem.mp ops4_fresh op h]

end Cert.ReferenceIdeal.RefRun

end
-- ==== Proof.Ref.Run.lean ====
/- The run of the reference's @main: a signature that scopes no buffer and no semaphore, a program that is one line of
   host operations over TensorCore buffers. From any memory with zero counters every weakly fair execution terminates; the
   result buffer ends at the line's fold over the launch contents (left folded: the value certificate reads it window by
   window), and each argument, which no operation writes, where it was. -/
import proofs.«116515_j64166811402734_2_alg».proof.Proof.Ref.Ops
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates with the result buffer at the operations' fold over the launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v227) = StableHlo.after ops (fun b => m (c, b)) (Proc.devRef .tc main_v227)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨h c main_v227,
      (h c main_arg0).trans (after_keep ops ops_keep (fun b => m (c, b)) (r := main_arg0) (by decide)),
      (h c main_arg1).trans (after_keep ops ops_keep (fun b => m (c, b)) (r := main_arg1) (by decide)),
      (h c main_arg2).trans (after_keep ops ops_keep (fun b => m (c, b)) (r := main_arg2) (by decide)),
      (h c main_arg3).trans (after_keep ops ops_keep (fun b => m (c, b)) (r := main_arg3) (by decide)),
      (h c main_arg4).trans (after_keep ops ops_keep (fun b => m (c, b)) (r := main_arg4) (by decide))⟩)
    (run_seq scopedRefs_eq scopedSems_eq defs main (fun _ => ops) main_eq (fun _ => ops_sub) m ρ
      (fun _ op hop => ops_fresh op hop))

end Cert.ReferenceIdeal.RefRun

end
-- ==== Proof.Ref.Frame.lean ====
/- The reference's frame claim: its @main runs, and its argument arrays end unchanged — the run's conjuncts past the result's. -/
import proofs.«116515_j64166811402734_2_alg».proof.Defs
import proofs.«116515_j64166811402734_2_alg».proof.Proof.Gen.Pre_finite_inputs
import proofs.«116515_j64166811402734_2_alg».proof.Proof.Ref.Run

noncomputable section

open Idealize.ShloMosaic Idealize.ShloMosaic.TcCoe Idealize.SL.Sem

namespace Cert.Proof.RefClaims

theorem frame : Cert.frame_ReferenceIdeal := fun m ρ _ =>
  (θ_run Cert.ReferenceIdeal.defs _ _).mono (fun _ h c => (h c).2) (Cert.ReferenceIdeal.RefRun.run (F := Ideal) m ρ)

end Cert.Proof.RefClaims

end
-- ==== Proof.KI.Value.lean ====
/-
  What the kernel's result array holds, read off the frame run.
  One grid point's update of the accumulator: the accumulator as found plus a block whose rows 0–3 carry
  the four sums of the point's two input tiles (the same value along each row) and whose other rows are
  zero.  At the first point the accumulator found is the zero block the reset has just stored; at every
  later point it is what the point before left.  The output block receives the accumulator at the last
  point, and that one write-back covers the whole [8, 128] result array.
-/
import proofs.«116515_j64166811402734_2_alg».proof.Proof.KI.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- One point's update of the accumulator `s` from the point's two input tiles. -/
def step (x0 x1 : Vec F S1x1x512x512 .f32) (s : Vec F S8x128 .f32) : Vec F S8x128 .f32 :=
  k0_pay1 (k0_pay5 x0) (k0_pay6 x1) (k0_pay7 x0 x1) (k0_pay8 x0 x1) (iota .tc S8x128 32 [0] iota_S8x128_d0_w32) k0_pay9 1#32 s

/-- A middle point leaves the accumulator at its update. -/
theorem sout_B (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : ¬cond0_1 i)
    (x0 x1 : Vec F S1x1x512x512 .f32) (xs0 : Vec F S8x128 .f32) :
    sout0_B_0 c i arg1 harg1 arg2 harg2 arg3 harg3 arg4 harg4 hc0 hc1 x0 x1 xs0 = step x0 x1 xs0 := by
  unfold sout0_B_0
  rw [View.read_writes_eq_canon _ _ _ (scover0_B_0 c i arg1 harg1 arg2 harg2 arg3 harg3 arg4 harg4 hc0 hc1 x0 x1 xs0)]
  unfold kernelRun0_B
  dsimp only
  sl_unfold_words
  rw [View.canon_unit_zero hz2]
  unfold step
  simp only [View.readAt_eq_ld, harg1.read_unread, harg2.read_unread, harg4.read_unread, View.ld_unit_zero (S := S8x128) hz2, View.ld_unit_zero (S := S1x1x512x512) hz4]

/-- The last point leaves the accumulator at its update, -/
theorem sout_C (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) :
    sout0_C_0 c i arg1 harg1 arg2 harg2 arg3 harg3 arg4 harg4 hc0 hc1 x0 x1 xs0 = step x0 x1 xs0 := by
  unfold sout0_C_0
  rw [View.read_writes_eq_canon _ _ _ (scover0_C_0 c i arg1 harg1 arg2 harg2 arg3 harg3 arg4 harg4 hc0 hc1 x0 x1 xs0)]
  unfold kernelRun0_C
  dsimp only
  sl_unfold_words
  rw [View.canon_unit_zero hz2]
  unfold step
  simp only [View.readAt_eq_ld, harg1.read_unread, harg2.read_unread, harg4.read_unread, View.ld_unit_zero (S := S8x128) hz2, View.ld_unit_zero (S := S1x1x512x512) hz4]

/-- and copies it into the output block. -/
theorem out_C (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : ¬cond0_0 i) (hc1 : cond0_1 i)
    (x0 x1 : Vec F S1x1x512x512 .f32) (xs0 : Vec F S8x128 .f32) :
    out0_C_2 c i arg1 harg1 arg2 harg2 arg3 harg3 arg4 harg4 hc0 hc1 x0 x1 xs0 = step x0 x1 xs0 := by
  unfold out0_C_2
  rw [View.read_writes_eq_canon _ _ _ (cover0_C_2 c i arg1 harg1 arg2 harg2 arg3 harg3 arg4 harg4 hc0 hc1 x0 x1 xs0)]
  unfold kernelRun0_C
  dsimp only
  sl_unfold_words
  rw [View.canon_unit_zero hz2, View.readCov_unit_zero (S := S8x128) _ hz2]
  unfold step
  simp only [View.readAt_eq_ld, harg1.read_unread, harg2.read_unread, harg4.read_unread, View.ld_unit_zero (S := S8x128) hz2, View.ld_unit_zero (S := S1x1x512x512) hz4]

/-- The first point leaves the update of the zero block the reset stored. -/
theorem sout_A (c : Dev nD) (i : grid0.Coords) (arg1 : Memref sig .tc .vmem S1x1x512x512 .f32) (harg1 : arg1.IsWhole) (arg2 : Memref sig .tc .vmem S1x1x512x512 .f32) (harg2 : arg2.IsWhole) (arg3 : Memref sig .tc .vmem S8x128 .f32) (harg3 : arg3.IsWhole) (arg4 : Memref sig .tc .vmem S8x128 .f32) (harg4 : arg4.IsWhole) (hc0 : cond0_0 i) (hc1 : ¬cond0_1 i)
    (x0 x1 : Vec F S1x1x512x512 .f32) :
    sout0_A_0 c i arg1 harg1 arg2 harg2 arg3 harg3 arg4 harg4 hc0 hc1 x0 x1 = step x0 x1 k0_pay2 := by
  unfold sout0_A_0
  rw [View.read_writes_eq_canon _ _ _ (scover0_A_0 c i arg1 harg1 arg2 harg2 arg3 harg3 arg4 harg4 hc0 hc1 x0 x1)]
  unfold kernelRun0_A
  dsimp only
  sl_unfold_words
  rw [View.canon_cons_unit_zero (S := S8x128) hz2, View.readCov_unit_zero (S := S8x128) _ hz2]
  unfold step
  simp only [View.readAt_eq_ld, harg1.read_unread, harg2.read_unread, View.ld_unit_zero (S := S8x128) hz2, View.ld_unit_zero (S := S1x1x512x512) hz4]

/-! ## The accumulation in closed form -/

/-- The accumulator after point `n`: the update of the zero block at point 0, then the update of what the
    point before left. -/
def acc (c : Dev nD) : (n : ℕ) → n < cfg0.N → Vec F S8x128 .f32
  | 0, h => step (iblk m c 0 ⟨0, h⟩) (iblk m c 1 ⟨0, h⟩) k0_pay2
  | n + 1, h => step (iblk m c 0 ⟨n + 1, h⟩) (iblk m c 1 ⟨n + 1, h⟩) (acc c n (Nat.lt_of_succ_lt h))

/-- What the frame's proof data says the accumulator holds after point `n` is that closed form: by induction on
    the point. -/
theorem outsAt_snd (c : Dev nD) : ∀ (n : ℕ) (h : n < cfg0.N), (outsAt0 m c n h).2 = acc m c n h
  | 0, h => by
    rw [outsAt0_A m c ⟨0, h⟩ rfl (show ¬ (0 : ℕ) = 15 by decide)]
    dsimp only
    rw [sout_A]
    rfl
  | n + 1, h => by
    by_cases h1 : n + 1 = 15
    · rw [outsAt0_C m c ⟨n + 1, h⟩ (Nat.succ_ne_zero n) h1]
      dsimp only
      rw [sout_C]
      show step _ _ (outsAt0 m c n _).2 = step _ _ (acc m c n _)
      rw [outsAt_snd c n]
    · rw [outsAt0_B m c ⟨n + 1, h⟩ (Nat.succ_ne_zero n) h1]
      dsimp only
      rw [sout_B]
      show step _ _ (outsAt0 m c n _).2 = step _ _ (acc m c n _)
      rw [outsAt_snd c n]

/-- The result array's contents: the accumulator after the last point. -/
abbrev result (c : Dev nD) : Buf (Elt F) ((c : Thread nD τ).loc main_v0) :=
  acc m c 15 (by rw [show cfg0.N = 16 from N_0]; decide)

/-- At the last point the output block receives it. -/
theorem outsAt_fst (c : Dev nD) (t : Fin cfg0.N) (ht : t.val = 15) : (outsAt0 m c t.val t.isLt).1 = result m c := by
  obtain ⟨n, hn⟩ := t
  dsimp only at ht
  subst ht
  rw [outsAt0_C m c ⟨15, hn⟩ (show ¬ (15 : ℕ) = 0 by decide) rfl]
  dsimp only
  rw [out_C]
  show step _ _ (outsAt0 m c 14 _).2 = step _ _ (acc m c 14 _)
  rw [outsAt_snd m c 14]

/-- The one write-back, at point 15, writes it: block (0, 0) of the [8, 128] array read through zero offsets is the array. -/
theorem flushed_eq (c : Dev nD) (t : Fin cfg0.N) (hf : (cfg0.win 2).flush t = true) :
    (dats m 0 c).flushed 2 t = ((cfg0.win 2).blk t).view.read (Elt F) (result m c) := by
  have hN : cfg0.N = 16 := N_0
  have h15 : t.val = 15 := by have := (flush0_2 t).mp hf; have := t.isLt; omega
  obtain rfl : t = t0_15 := Fin.ext h15
  show (cfg0.win 2).cut (grid0.coords t0_15) ((dats m 0 c).after 2 t0_15) = _
  rw [after0_2, outsAt_fst m c t0_15 rfl]
  have hz' : (fun a => win0_2.index t0_15 a * main_v0.ty.shape.size a) = fun _ => 0 := funext fun a => by fin_cases a <;> decide
  exact (Memref.read_access_unit_zero (Elt F) main_v0 hz' (fun a => by rw [congrFun hz' a]; simp) (result m c)).symm

/-- So the result array ends holding the accumulator after the last point. -/
theorem final_o (c : Dev nD) : (dats m 0 c).arrAt 2 cfg0.N = result m c :=
  (dats m 0 c).arrAt_eq_of_cover 2 (result m c) (flushed_eq m c) fun i =>
    ⟨t0_15, (flush0_2 t0_15).mpr rfl, by
      show i ∈ ((View.whole main_v0).slice (win0_2.rect t0_15)).set
      rw [View.set_slice_whole, Rect.mem_set_unit]
      intro a
      have h0 : (i 0 : Nat) < 8 := (i 0).isLt
      have h1 : (i 1 : Nat) < 128 := (i 1).isLt
      match a with
      | ⟨0, _⟩ => show win0_2.index t0_15 0 * win0_2.size 0 ≤ (i 0 : Nat) ∧ (i 0 : Nat) < win0_2.index t0_15 0 * win0_2.size 0 + win0_2.xsize (grid0.coords t0_15) 0
                  rw [show win0_2.index t0_15 0 * win0_2.size 0 = 0 from by decide +kernel, show win0_2.xsize (grid0.coords t0_15) 0 = 8 from by decide +kernel]; omega
      | ⟨1, _⟩ => show win0_2.index t0_15 1 * win0_2.size 1 ≤ (i 1 : Nat) ∧ (i 1 : Nat) < win0_2.index t0_15 1 * win0_2.size 1 + win0_2.xsize (grid0.coords t0_15) 1
                  rw [show win0_2.index t0_15 1 * win0_2.size 1 = 0 from by decide +kernel, show win0_2.xsize (grid0.coords t0_15) 1 = 128 from by decide +kernel]; omega⟩

end Cert.KernelIdeal.Hand

end
-- ==== Proof.LossMath.lean ====
/-
  The arithmetic behind the text-map loss, over the extended reals.

  The kernel walks the sixteen images of a [16, 1, 512, 512] array one 512 × 512 tile at a time.  For
  each tile it sums a per-element quantity first along rows and then along the column of row sums, and
  adds the result to a running total that starts from zero.  The reference flattens the whole array and
  sums the same per-element quantity once.  Addition of extended reals is commutative and associative
  (with +∞ + −∞ = −∞ it is still a commutative monoid), so the two totals agree without any finiteness
  assumption: the ordered chain of tile sums is the sum over images of the double sum over a tile, and
  that triple sum is the sum over all indices of the array.  The one remaining difference between the
  two programs is where the sign sits around the division by the element count 2²²: dividing by a
  nonzero real is multiplying by its reciprocal, and a sign moves through a product.
-/
import Idealize.ShloMosaic.PureOps.Ideal
import Idealize.ShloMosaic.PureOps.Ideal.Laws
import Idealize.ShloMosaic.Lib.ValueIdx
import Mathlib.Algebra.BigOperators.Fin
import Mathlib.Data.Fintype.BigOperators

noncomputable section

namespace LossMath

open Idealize.ShloMosaic Idealize.ShloMosaic.ValueIdx

/-! ## The per-element cross-entropy term -/

/-- The f32 literal 1.0 as both programs spell it (the same word on both sides: never evaluated). -/
abbrev one : EReal := Ideal.ofBits .f32 0x3F800000#32

/-- The binary cross-entropy term of a prediction `p` and a target `t`: t · log p + (1 − t) · log (1 − p). -/
def bceTerm (p t : EReal) : EReal := t * Ideal.log p + (one - t) * Ideal.log (one - p)

/-! ## The whole-array sum, image by image -/

/-- An index of the [16, 1, 512, 512] array is an image number and a position in its tile. -/
def idxEquiv : (Fin 16 × Fin 512 × Fin 512) ≃ (⟨4, ![16, 1, 512, 512]⟩ : Shape).Idx where
  toFun p := ix4 p.1 (0 : Fin 1) p.2.1 p.2.2
  invFun j := (j 0, j 2, j 3)
  left_inv p := rfl
  right_inv j := by
    funext d
    match d with
    | ⟨0, _⟩ => rfl
    | ⟨1, _⟩ => exact Fin.ext (by have h : (j 1).val < 1 := (j 1).isLt; show 0 = (j 1).val; omega)
    | ⟨2, _⟩ => rfl
    | ⟨3, _⟩ => rfl

/-- The sum over every index of the array is the sum over the images of the double sum over a tile. -/
theorem sum_array {M : Type*} [AddCommMonoid M] (g : (⟨4, ![16, 1, 512, 512]⟩ : Shape).Idx → M) :
    ∑ j, g j = ∑ t : Fin 16, ∑ a : Fin 512, ∑ b : Fin 512, g (ix4 t (0 : Fin 1) a b) := by
  rw [← Equiv.sum_comp idxEquiv g, Fintype.sum_prod_type]
  refine Finset.sum_congr rfl fun t _ => ?_
  rw [Fintype.sum_prod_type]
  rfl

/-- The same with the images counted by naturals below sixteen. -/
theorem sum_array_range {M : Type*} [AddCommMonoid M] (g : (⟨4, ![16, 1, 512, 512]⟩ : Shape).Idx → M)
    (G : ℕ → M) (hG : ∀ t : Fin 16, G t.val = ∑ a : Fin 512, ∑ b : Fin 512, g (ix4 t (0 : Fin 1) a b)) :
    ∑ j, g j = ∑ t ∈ Finset.range 16, G t := by
  rw [sum_array, ← Fin.sum_univ_eq_sum_range G 16]
  exact Finset.sum_congr rfl fun t _ => (hG t).symm

/-! ## The element count, and the sign around the division -/

/-- The literal both programs divide by denotes the real 4194304 = 2²². -/
theorem ofBits_count : Ideal.ofBits .f32 0x4A800000#32 = ((4194304 : ℝ) : EReal) := by
  simp [Ideal.ofBits, Ideal.ieee, -EReal.coe_mul]; norm_num

/-- Negating before dividing by the element count is negating after. -/
theorem div_neg_count (x : EReal) :
    Ideal.div (-x) (Ideal.ofBits .f32 0x4A800000#32) = -(Ideal.div x (Ideal.ofBits .f32 0x4A800000#32)) := by
  rw [ofBits_count, Ideal.div_coe (by norm_num : (4194304 : ℝ) ≠ 0), Ideal.div_coe (by norm_num : (4194304 : ℝ) ≠ 0), EReal.neg_mul]

/-! ## The flattened array's sum is the array's sum -/

/-- Summing a function of two arrays' entries over the flattened index is summing it over the array's own
    index: the flattening is a bijection of index sets, the same one for both arrays. -/
theorem flat_sum {M : Type*} [AddCommMonoid M] {α : Type} (h : (⟨4, ![16, 1, 512, 512]⟩ : Shape).ShapeCasts ⟨1, ![4194304]⟩)
    (f : α → α → M) (P T : (⟨4, ![16, 1, 512, 512]⟩ : Shape).Idx → α) :
    ∑ i, f (shapeCast ⟨1, ![4194304]⟩ P h i) (shapeCast ⟨1, ![4194304]⟩ T h i) = ∑ j, f (P j) (T j) :=
  Equiv.sum_comp (Shape.reshapeEquiv h) (fun k => f (P k) (T k))

/-! ## The text-map loss from the four sums -/

abbrev count : EReal := Ideal.ofBits .f32 0x4A800000#32
abbrev two : EReal := Ideal.ofBits .f32 0x40000000#32

/-- The reference's arrangement: each sum taken from an initial zero, the mean negated after the division. -/
def tmlRef (sE sPT sP sT : EReal) : EReal :=
  -(Ideal.div (Ideal.ofBits .f32 0x00000000#32 + sE) count)
    + (one - Ideal.div (two * (Ideal.ofBits .f32 0x00000000#32 + sPT) + one) (((Ideal.ofBits .f32 0x00000000#32 + sP) + (Ideal.ofBits .f32 0x00000000#32 + sT)) + one))

/-- The kernel program's arrangement: the sum negated before the division. -/
def tmlKer (sE sPT sP sT : EReal) : EReal :=
  Ideal.div (-sE) count + (one - Ideal.div (two * sPT + one) ((sP + sT) + one))

theorem tml_eq (sE sPT sP sT : EReal) : tmlKer sE sPT sP sT = tmlRef sE sPT sP sT := by
  unfold tmlKer tmlRef
  rw [Ideal.ofBits_zero_f32, zero_add, zero_add, zero_add, zero_add, div_neg_count]

end LossMath

end
-- ==== Proof.LibKeepdims.lean ====
/-
  A sum along one axis of a matrix that keeps the reduced axis as a unit axis, read at an index.

  A row sum with the axis kept is printed as a reduction of the [A, B] matrix over axis 1 into a vector of length
  A, followed by a cast of that vector into the [A, 1] column. At exact arithmetic the reduction at row r is the
  sum over k of the entry (r, k); the cast reads the vector at r, because (r, 0) and r have the same row-major
  position. The same for a column sum over axis 0.
-/
import Idealize.ShloMosaic.Lib.ValueIdx
import Idealize.ShloMosaic.Lib.Pipeline.Value
import Idealize.ShloMosaic.PureOps.Ideal.Laws

noncomputable section

namespace LibKeepdims

open Idealize.ShloMosaic Idealize.ShloMosaic.ValueIdx

variable {φ : FTy}

/-- The exact sum over axis 1 of an [A, B] matrix, at row r: the sum over k of the entry (r, k). -/
theorem sum_axis1_apply {A B : ℕ} (src : FVec Ideal ⟨2, ![A, B]⟩ φ) (acc : BitVec φ.bits)
    (h : Shape.Reduces ⟨2, ![A, B]⟩ [1] ⟨1, ![A]⟩) (hφ : FKind.Formats φ) (hacc : acc = FKind.add.neutral φ hφ) (r : Fin A) :
    multiReduction .add [1] ⟨1, ![A]⟩ src acc h hφ hacc (ix1 r) = ∑ k : Fin B, src (ix2 r k) := by
  refine (Ideal.multiReduction_add_single src acc h hφ hacc (ix1 r)).trans ?_
  show ∑ k : Fin B, src (h.lift (ix1 r) k) = _
  refine Finset.sum_congr rfl fun k _ => congrArg src ?_
  funext d
  match d with
  | ⟨0, _⟩ => exact Fin.ext rfl
  | ⟨1, _⟩ => exact Fin.ext rfl

/-- The exact sum over axis 0 of an [A, B] matrix, at column c: the sum over k of the entry (k, c). -/
theorem sum_axis0_apply {A B : ℕ} (src : FVec Ideal ⟨2, ![A, B]⟩ φ) (acc : BitVec φ.bits)
    (h : Shape.Reduces ⟨2, ![A, B]⟩ [0] ⟨1, ![B]⟩) (hφ : FKind.Formats φ) (hacc : acc = FKind.add.neutral φ hφ) (c : Fin B) :
    multiReduction .add [0] ⟨1, ![B]⟩ src acc h hφ hacc (ix1 c) = ∑ k : Fin A, src (ix2 k c) := by
  refine (Ideal.multiReduction_add_single src acc h hφ hacc (ix1 c)).trans ?_
  show ∑ k : Fin A, src (h.lift (ix1 c) k) = _
  refine Finset.sum_congr rfl fun k _ => congrArg src ?_
  funext d
  match d with
  | ⟨0, _⟩ => exact Fin.ext rfl
  | ⟨1, _⟩ => exact Fin.ext rfl

/-- A vector of length a cast into the [a, 1] column, read at (r, 0): the vector at r. -/
theorem shapeCast_col_apply {α : Type} {a : ℕ} (x : (⟨1, ![a]⟩ : Shape).Idx → α)
    (h : (⟨1, ![a]⟩ : Shape).ShapeCasts ⟨2, ![a, 1]⟩) (r : Fin a) (z : Fin 1) :
    shapeCast ⟨2, ![a, 1]⟩ x h (ix2 r z) = x (ix1 r) := by
  refine shapeCast_apply x h _ _ ?_
  rw [Shape.rowMajor_val_one, Shape.rowMajor_val_two]
  show r.val = r.val * 1 + z.val
  omega

end LibKeepdims

end
-- ==== Proof.KI.ValueIdeal.lean ====
/-
  The accumulator read at the ideal instance.  One update adds, along each of rows 0–3, one number:
  row 0 the sum of the prediction tile, row 1 the sum of the target tile, row 2 the sum of their
  elementwise product, row 3 the sum of the cross-entropy terms; each a sum over the tile's rows of the
  sums along each row.  So after the last grid point row r of the result array holds, at every lane,
  the sum over the sixteen images of image t's r-th tile sum.
-/
import proofs.«116515_j64166811402734_2_alg».proof.Proof.KI.Value
import proofs.«116515_j64166811402734_2_alg».proof.Proof.LossMath
import proofs.«116515_j64166811402734_2_alg».proof.Proof.LibKeepdims
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-! ## The pieces of one update, read at an index -/

/-- The kernel's keep-dims double reduction of a [512, 512] tile, at its one index: the double sum. -/
theorem rsum_apply (v : FVec Ideal S512x512 .f32) (j : S1x1.Idx) :
    shapeCast S1x1 (multiReduction .add [0] S1 (shapeCast S512x1 (multiReduction .add [1] S512 v 0x00000000#32 reduces_S512x512_S512 (.inl rfl) rfl) shapeCasts_S512_S512x1) 0x00000000#32 reduces_S512x1_S1 (.inl rfl) rfl) shapeCasts_S1_S1x1 j
      = ∑ a : Fin 512, ∑ b : Fin 512, v (ix2 a b) := by
  obtain ⟨p, q, rfl⟩ : ∃ (p : Fin 1) (q : Fin 1), j = ix2 p q := ⟨j 0, j 1, eq_ix2 j⟩
  refine (LibKeepdims.shapeCast_col_apply _ shapeCasts_S1_S1x1 p q).trans ?_
  refine (LibKeepdims.sum_axis0_apply _ _ reduces_S512x1_S1 _ rfl p).trans ?_
  refine Finset.sum_congr rfl fun a _ => ?_
  refine (LibKeepdims.shapeCast_col_apply _ shapeCasts_S512_S512x1 a p).trans ?_
  exact LibKeepdims.sum_axis1_apply v _ reduces_S512x512_S512 _ rfl a

/-- A [1, 1, 512, 512] tile viewed as a matrix reads (a, b) at (0, 0, a, b). -/
theorem tile_apply (x : Vec Ideal S1x1x512x512 .f32) (a b : Fin 512) :
    shapeCast S512x512 x shapeCasts_S1x1x512x512_S512x512 (ix2 a b) = x (ix4 (0 : Fin 1) (0 : Fin 1) a b) := by
  refine shapeCast_apply x _ _ _ ?_
  rw [Shape.rowMajor_val_four, Shape.rowMajor_val_two]
  show ((0 * 1 + 0) * 512 + a.val) * 512 + b.val = a.val * 512 + b.val
  omega

/-- The four tile sums. -/
def tileP (x0 : Vec Ideal S1x1x512x512 .f32) : EReal := ∑ a : Fin 512, ∑ b : Fin 512, x0 (ix4 (0 : Fin 1) (0 : Fin 1) a b)
def tilePT (x0 x1 : Vec Ideal S1x1x512x512 .f32) : EReal :=
  ∑ a : Fin 512, ∑ b : Fin 512, x0 (ix4 (0 : Fin 1) (0 : Fin 1) a b) * x1 (ix4 (0 : Fin 1) (0 : Fin 1) a b)
def tileE (x0 x1 : Vec Ideal S1x1x512x512 .f32) : EReal :=
  ∑ a : Fin 512, ∑ b : Fin 512, LossMath.bceTerm (x0 (ix4 (0 : Fin 1) (0 : Fin 1) a b)) (x1 (ix4 (0 : Fin 1) (0 : Fin 1) a b))

theorem pay5_apply (x0 : Vec Ideal S1x1x512x512 .f32) (j : S1x1.Idx) : k0_pay5 x0 j = tileP x0 := by
  unfold k0_pay5 k0_pay3 tileP
  refine (rsum_apply _ j).trans ?_
  exact Finset.sum_congr rfl fun a _ => Finset.sum_congr rfl fun b _ => tile_apply x0 a b

theorem pay6_apply (x1 : Vec Ideal S1x1x512x512 .f32) (j : S1x1.Idx) : k0_pay6 x1 j = tileP x1 := by
  unfold k0_pay6 k0_pay4 tileP
  refine (rsum_apply _ j).trans ?_
  exact Finset.sum_congr rfl fun a _ => Finset.sum_congr rfl fun b _ => tile_apply x1 a b

theorem pay7_apply (x0 x1 : Vec Ideal S1x1x512x512 .f32) (j : S1x1.Idx) : k0_pay7 x0 x1 j = tilePT x0 x1 := by
  unfold k0_pay7 k0_pay3 k0_pay4 tilePT
  refine (rsum_apply _ j).trans ?_
  refine Finset.sum_congr rfl fun a _ => Finset.sum_congr rfl fun b _ => ?_
  show shapeCast S512x512 x0 shapeCasts_S1x1x512x512_S512x512 (ix2 a b) * shapeCast S512x512 x1 shapeCasts_S1x1x512x512_S512x512 (ix2 a b) = _
  rw [tile_apply, tile_apply]

theorem pay8_apply (x0 x1 : Vec Ideal S1x1x512x512 .f32) (j : S1x1.Idx) : k0_pay8 x0 x1 j = tileE x0 x1 := by
  unfold k0_pay8 k0_pay3 k0_pay4 tileE
  refine (rsum_apply _ j).trans ?_
  refine Finset.sum_congr rfl fun a _ => Finset.sum_congr rfl fun b _ => ?_
  show shapeCast S512x512 x1 shapeCasts_S1x1x512x512_S512x512 (ix2 a b) * Ideal.log (shapeCast S512x512 x0 shapeCasts_S1x1x512x512_S512x512 (ix2 a b))
      + (Ideal.ofBits .f32 0x3F800000#32 - shapeCast S512x512 x1 shapeCasts_S1x1x512x512_S512x512 (ix2 a b))
        * Ideal.log (Ideal.ofBits .f32 0x3F800000#32 - shapeCast S512x512 x0 shapeCasts_S1x1x512x512_S512x512 (ix2 a b)) = _
  rw [tile_apply, tile_apply]
  rfl

/-- A [1, 1] value spread over the [8, 128] block reads its one entry everywhere. -/
theorem bcast11_apply (v : FVec Ideal S1x1 .f32) (r : Fin 8) (l : Fin 128) :
    broadcastTo S8x128 (shapeCast S1x1 v shapeCasts_S1x1_S1x1) broadcasts_S1x1_S8x128 (ix2 r l) = v (ix2 (0 : Fin 1) (0 : Fin 1)) := by
  rw [shapeCast_self]
  refine broadcastTo_apply v _ _ (ix2 (0 : Fin 1) (0 : Fin 1)) (fun a => ?_)
  fin_cases a <;> rfl

/-- The row selector: the row number compared with a constant. -/
theorem rowsel_apply (k : BitVec 32) (r : Fin 8) (l : Fin 128) :
    cmpi .eq (iota .tc S8x128 32 [0] iota_S8x128_d0_w32) (broadcast S8x128 k) (ix2 r l) = IntOp.cmpi .eq (BitVec.ofNat 32 r.val) k := by
  show IntOp.cmpi .eq (iota .tc S8x128 32 [0] iota_S8x128_d0_w32 (ix2 r l)) k = _
  rw [iota_single_apply]

/-! ## One update, row by row -/

theorem step_row0 (x0 x1 : Vec Ideal S1x1x512x512 .f32) (s : Vec Ideal S8x128 .f32) (l : Fin 128) :
    step x0 x1 s (ix2 (0 : Fin 8) l) = s (ix2 0 l) + tileP x0 := by
  unfold step k0_pay1 k0_pay9
  dsimp only
  rw [shapeCast_self]
  simp only [addf_apply, select_apply, rowsel_apply, bcast11_apply, pay5_apply]
  rfl

theorem step_row1 (x0 x1 : Vec Ideal S1x1x512x512 .f32) (s : Vec Ideal S8x128 .f32) (l : Fin 128) :
    step x0 x1 s (ix2 (1 : Fin 8) l) = s (ix2 1 l) + tileP x1 := by
  unfold step k0_pay1 k0_pay9
  dsimp only
  rw [shapeCast_self]
  simp only [addf_apply, select_apply, rowsel_apply, bcast11_apply, pay6_apply]
  rfl

theorem step_row2 (x0 x1 : Vec Ideal S1x1x512x512 .f32) (s : Vec Ideal S8x128 .f32) (l : Fin 128) :
    step x0 x1 s (ix2 (2 : Fin 8) l) = s (ix2 2 l) + tilePT x0 x1 := by
  unfold step k0_pay1 k0_pay9
  dsimp only
  rw [shapeCast_self]
  simp only [addf_apply, select_apply, rowsel_apply, bcast11_apply, pay7_apply]
  rfl

theorem step_row3 (x0 x1 : Vec Ideal S1x1x512x512 .f32) (s : Vec Ideal S8x128 .f32) (l : Fin 128) :
    step x0 x1 s (ix2 (3 : Fin 8) l) = s (ix2 3 l) + tileE x0 x1 := by
  unfold step k0_pay1 k0_pay9
  dsimp only
  rw [shapeCast_self]
  simp only [addf_apply, select_apply, rowsel_apply, bcast11_apply, pay8_apply]
  rfl

/-! ## The rows of the result array as sums over the grid, then over the whole array -/

/-- The zero block the reset stores is zero everywhere. -/
theorem pay2_apply (j : S8x128.Idx) : k0_pay2 (F := Ideal) j = 0 := by
  unfold k0_pay2
  rw [shapeCast_self]
  exact Ideal.ofBits_zero_f32

/-- A row of the accumulator that each update increases by `D` of the point's two tiles holds, after point `n`,
    the sum of `D` over the points up to `n`. -/
theorem acc_row (r : Fin 8) (D : Vec Ideal S1x1x512x512 .f32 → Vec Ideal S1x1x512x512 .f32 → EReal)
    (hstep : ∀ (x0 x1 : Vec Ideal S1x1x512x512 .f32) (s : Vec Ideal S8x128 .f32) (l : Fin 128), step x0 x1 s (ix2 r l) = s (ix2 r l) + D x0 x1)
    (c : Dev nD) (l : Fin 128) :
    ∀ (n : ℕ) (h : n < cfg0.N), acc m c n h (ix2 r l)
      = ∑ t ∈ Finset.range (n + 1), (if ht : t < cfg0.N then D (iblk m c 0 ⟨t, ht⟩) (iblk m c 1 ⟨t, ht⟩) else 0)
  | 0, h => by
    show step _ _ k0_pay2 (ix2 r l) = _
    rw [hstep, Finset.sum_range_one, dif_pos h, pay2_apply, zero_add]
  | n + 1, h => by
    show step _ _ (acc m c n _) (ix2 r l) = _
    rw [hstep, acc_row r D hstep c l n, Finset.sum_range_succ _ (n + 1), dif_pos h]

/-- Where the two input windows sit at point `t`: image `t`, whole tile. -/
theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)

/-- The prediction tile at point `t` is image `t` of the first argument. -/
theorem iblk0_apply (c : Dev nD) (t : Fin cfg0.N) (h16 : t.val < 16) (a b : Fin 512) :
    (iblk m c 0 t : Vec Ideal S1x1x512x512 .f32) (ix4 (0 : Fin 1) (0 : Fin 1) a b)
      = m ((c : Thread nD τ).loc main_arg0) (ix4 (⟨t.val, h16⟩ : Fin 16) (0 : Fin 1) a b) := by
  unfold iblk
  rw [View.read_apply]
  show V m c main_arg0 _ = m (c.tc.loc main_arg0) _
  unfold V
  congr 1
  funext d
  apply Fin.ext
  obtain ⟨h0, h1, h2, h3⟩ := idx0 t
  match d with
  | ⟨0, _⟩ => show win0_0.index t 0 * 1 + 1 * 0 = t.val; rw [h0]; omega
  | ⟨1, _⟩ => show win0_0.index t 1 * 1 + 1 * 0 = 0; rw [h1]
  | ⟨2, _⟩ => show win0_0.index t 2 * 512 + 1 * a.val = a.val; rw [h2]; omega
  | ⟨3, _⟩ => show win0_0.index t 3 * 512 + 1 * b.val = b.val; rw [h3]; omega

/-- The target tile at point `t` is image `t` of the fourth argument. -/
theorem iblk1_apply (c : Dev nD) (t : Fin cfg0.N) (h16 : t.val < 16) (a b : Fin 512) :
    (iblk m c 1 t : Vec Ideal S1x1x512x512 .f32) (ix4 (0 : Fin 1) (0 : Fin 1) a b)
      = m ((c : Thread nD τ).loc main_arg3) (ix4 (⟨t.val, h16⟩ : Fin 16) (0 : Fin 1) a b) := by
  unfold iblk
  rw [View.read_apply]
  show V m c main_arg3 _ = m (c.tc.loc main_arg3) _
  unfold V
  congr 1
  funext d
  apply Fin.ext
  obtain ⟨h0, h1, h2, h3⟩ := idx1 t
  match d with
  | ⟨0, _⟩ => show win0_1.index t 0 * 1 + 1 * 0 = t.val; rw [h0]; omega
  | ⟨1, _⟩ => show win0_1.index t 1 * 1 + 1 * 0 = 0; rw [h1]
  | ⟨2, _⟩ => show win0_1.index t 2 * 512 + 1 * a.val = a.val; rw [h2]; omega
  | ⟨3, _⟩ => show win0_1.index t 3 * 512 + 1 * b.val = b.val; rw [h3]; omega

/-- A row of the result array: if each update adds `D` of the point's tiles and `D` of image `t`'s tiles is the
    double sum of `g` over image `t`, the row holds the sum of `g` over the whole array. -/
theorem result_row (r : Fin 8) (D : Vec Ideal S1x1x512x512 .f32 → Vec Ideal S1x1x512x512 .f32 → EReal)
    (hstep : ∀ (x0 x1 : Vec Ideal S1x1x512x512 .f32) (s : Vec Ideal S8x128 .f32) (l : Fin 128), step x0 x1 s (ix2 r l) = s (ix2 r l) + D x0 x1)
    (c : Dev nD) (g : (⟨4, ![16, 1, 512, 512]⟩ : Shape).Idx → EReal)
    (hD : ∀ (t : Fin cfg0.N) (h16 : t.val < 16), D (iblk m c 0 t) (iblk m c 1 t)
      = ∑ a : Fin 512, ∑ b : Fin 512, g (ix4 (⟨t.val, h16⟩ : Fin 16) (0 : Fin 1) a b)) (l : Fin 128) :
    result m c (ix2 r l) = ∑ j, g j := by
  have hN : cfg0.N = 16 := N_0
  rw [LossMath.sum_array_range g (fun t => if ht : t < cfg0.N then D (iblk m c 0 ⟨t, ht⟩) (iblk m c 1 ⟨t, ht⟩) else 0)
    (fun t => by rw [dif_pos (by rw [hN]; exact t.isLt)]; exact hD ⟨t.val, by rw [hN]; exact t.isLt⟩ t.isLt)]
  exact acc_row m r D hstep c l 15 (by rw [hN]; decide)

end Cert.KernelIdeal.Hand

end
-- ==== Proof.KI.Cats.lean ====
/-
  The host program stacks arrays with five concatenations.  A concatenation's operands sit inside a list
  of (shape, array) pairs that a later argument's type depends on, where rewriting cannot reach them;
  so each concatenation is given here as a named function of its plain operands, and the value its
  operation writes is stated through that name.
-/
import proofs.«116515_j64166811402734_2_alg».proof.Proof.KI.Base
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-- 3 arrays of shape S16x64x5x1 laid side by side along axis 3 of S16x64x5x3, as a function of its plain operands. -/
def cat3 {α : Type} (u0 u1 u2 : S16x64x5x1.Idx → α) : S16x64x5x3.Idx → α :=
  concatenate S16x64x5x3 3 [⟨S16x64x5x1, u0⟩, ⟨S16x64x5x1, u1⟩, ⟨S16x64x5x1, u2⟩] concatenates_S16x64x5x1_S16x64x5x1_S16x64x5x1_S16x64x5x3_d3

/-- 4 arrays of shape S1 laid side by side along axis 0 of S4, as a function of its plain operands. -/
def cat4 {α : Type} (u0 u1 u2 u3 : S1.Idx → α) : S4.Idx → α :=
  concatenate S4 0 [⟨S1, u0⟩, ⟨S1, u1⟩, ⟨S1, u2⟩, ⟨S1, u3⟩] concatenates_S1_S1_S1_S1_S4_d0

/-- 5 arrays of shape S16x64x1 laid side by side along axis 2 of S16x64x5, as a function of its plain operands. -/
def cat5 {α : Type} (u0 u1 u2 u3 u4 : S16x64x1.Idx → α) : S16x64x5.Idx → α :=
  concatenate S16x64x5 2 [⟨S16x64x1, u0⟩, ⟨S16x64x1, u1⟩, ⟨S16x64x1, u2⟩, ⟨S16x64x1, u3⟩, ⟨S16x64x1, u4⟩] concatenates_S16x64x1_S16x64x1_S16x64x1_S16x64x1_S16x64x1_S16x64x5_d2

/-- The concatenation written into `main_v56`, read at its own buffer: the named function of its operands' contents. -/
theorem res_main_v56 (hxs hy) (W : Valuation τ sig (Elt F)) :
    (StableHlo.nary ![main_v51, main_v52, main_v53, main_v54, main_v55] main_v56 (fun u => concatenate S16x64x5 2 [⟨S16x64x1, u 0⟩, ⟨S16x64x1, u 1⟩, ⟨S16x64x1, u 2⟩, ⟨S16x64x1, u 3⟩, ⟨S16x64x1, u 4⟩] concatenates_S16x64x1_S16x64x1_S16x64x1_S16x64x1_S16x64x1_S16x64x5_d2) hxs hy).result W (no_index (Proc.devRef .tc main_v56))
      = cat5 (W (Proc.devRef .tc main_v51)) (W (Proc.devRef .tc main_v52)) (W (Proc.devRef .tc main_v53)) (W (Proc.devRef .tc main_v54)) (W (Proc.devRef .tc main_v55)) := by
  rw [StableHlo.nary_result]; rfl

/-- The concatenation written into `main_v64`, read at its own buffer: the named function of its operands' contents. -/
theorem res_main_v64 (hxs hy) (W : Valuation τ sig (Elt F)) :
    (StableHlo.nary ![main_v59, main_v60, main_v61, main_v62, main_v63] main_v64 (fun u => concatenate S16x64x5 2 [⟨S16x64x1, u 0⟩, ⟨S16x64x1, u 1⟩, ⟨S16x64x1, u 2⟩, ⟨S16x64x1, u 3⟩, ⟨S16x64x1, u 4⟩] concatenates_S16x64x1_S16x64x1_S16x64x1_S16x64x1_S16x64x1_S16x64x5_d2) hxs hy).result W (no_index (Proc.devRef .tc main_v64))
      = cat5 (W (Proc.devRef .tc main_v59)) (W (Proc.devRef .tc main_v60)) (W (Proc.devRef .tc main_v61)) (W (Proc.devRef .tc main_v62)) (W (Proc.devRef .tc main_v63)) := by
  rw [StableHlo.nary_result]; rfl

/-- The concatenation written into `main_v87`, read at its own buffer: the named function of its operands' contents. -/
theorem res_main_v87 (hxs hy) (W : Valuation τ sig (Elt F)) :
    (StableHlo.nary ![main_v84, main_v85, main_v86] main_v87 (fun u => concatenate S16x64x5x3 3 [⟨S16x64x5x1, u 0⟩, ⟨S16x64x5x1, u 1⟩, ⟨S16x64x5x1, u 2⟩] concatenates_S16x64x5x1_S16x64x5x1_S16x64x5x1_S16x64x5x3_d3) hxs hy).result W (no_index (Proc.devRef .tc main_v87))
      = cat3 (W (Proc.devRef .tc main_v84)) (W (Proc.devRef .tc main_v85)) (W (Proc.devRef .tc main_v86)) := by
  rw [StableHlo.nary_result]; rfl

/-- The concatenation written into `main_v109`, read at its own buffer: the named function of its operands' contents. -/
theorem res_main_v109 (hxs hy) (W : Valuation τ sig (Elt F)) :
    (StableHlo.nary ![main_v106, main_v107, main_v108] main_v109 (fun u => concatenate S16x64x5x3 3 [⟨S16x64x5x1, u 0⟩, ⟨S16x64x5x1, u 1⟩, ⟨S16x64x5x1, u 2⟩] concatenates_S16x64x5x1_S16x64x5x1_S16x64x5x1_S16x64x5x3_d3) hxs hy).result W (no_index (Proc.devRef .tc main_v109))
      = cat3 (W (Proc.devRef .tc main_v106)) (W (Proc.devRef .tc main_v107)) (W (Proc.devRef .tc main_v108)) := by
  rw [StableHlo.nary_result]; rfl

/-- The concatenation written into `main_v220`, read at its own buffer: the named function of its operands' contents. -/
theorem res_main_v220 (hxs hy) (W : Valuation τ sig (Elt F)) :
    (StableHlo.nary ![main_v216, main_v217, main_v218, main_v219] main_v220 (fun u => concatenate S4 0 [⟨S1, u 0⟩, ⟨S1, u 1⟩, ⟨S1, u 2⟩, ⟨S1, u 3⟩] concatenates_S1_S1_S1_S1_S4_d0) hxs hy).result W (no_index (Proc.devRef .tc main_v220))
      = cat4 (W (Proc.devRef .tc main_v216)) (W (Proc.devRef .tc main_v217)) (W (Proc.devRef .tc main_v218)) (W (Proc.devRef .tc main_v219)) := by
  rw [StableHlo.nary_result]; rfl

end Cert.KernelIdeal.Hand

end
-- ==== Proof.Ref.Cats.lean ====
/-
  The host program stacks arrays with five concatenations.  A concatenation's operands sit inside a list
  of (shape, array) pairs that a later argument's type depends on, where rewriting cannot reach them;
  so each concatenation is given here as a named function of its plain operands, and the value its
  operation writes is stated through that name.
-/
import proofs.«116515_j64166811402734_2_alg».proof.Proof.Gen.ReferenceIdeal
import Idealize.ShloMosaic.Lib.StableHlo.Run

set_option maxRecDepth 16384

noncomputable section

namespace Cert.ReferenceIdeal.Hand

open Cert.ReferenceIdeal Cert.ReferenceIdeal.Gen
open Idealize.ShloMosaic Idealize.ShloMosaic.TcCoe Idealize.ShloMosaic.StableHlo
open Idealize.SL Idealize.SL.Sem

variable {F : FTy → Type} [FloatOps F]

/-- 3 arrays of shape S16x64x5x1 laid side by side along axis 3 of S16x64x5x3, as a function of its plain operands. -/
def cat3 {α : Type} (u0 u1 u2 : S16x64x5x1.Idx → α) : S16x64x5x3.Idx → α :=
  concatenate S16x64x5x3 3 [⟨S16x64x5x1, u0⟩, ⟨S16x64x5x1, u1⟩, ⟨S16x64x5x1, u2⟩] concatenates_S16x64x5x1_S16x64x5x1_S16x64x5x1_S16x64x5x3_d3

/-- 4 arrays of shape S1 laid side by side along axis 0 of S4, as a function of its plain operands. -/
def cat4 {α : Type} (u0 u1 u2 u3 : S1.Idx → α) : S4.Idx → α :=
  concatenate S4 0 [⟨S1, u0⟩, ⟨S1, u1⟩, ⟨S1, u2⟩, ⟨S1, u3⟩] concatenates_S1_S1_S1_S1_S4_d0

/-- 5 arrays of shape S16x64x1 laid side by side along axis 2 of S16x64x5, as a function of its plain operands. -/
def cat5 {α : Type} (u0 u1 u2 u3 u4 : S16x64x1.Idx → α) : S16x64x5.Idx → α :=
  concatenate S16x64x5 2 [⟨S16x64x1, u0⟩, ⟨S16x64x1, u1⟩, ⟨S16x64x1, u2⟩, ⟨S16x64x1, u3⟩, ⟨S16x64x1, u4⟩] concatenates_S16x64x1_S16x64x1_S16x64x1_S16x64x1_S16x64x1_S16x64x5_d2

/-- The concatenation written into `main_v63`, read at its own buffer: the named function of its operands' contents. -/
theorem res_main_v63 (hxs hy) (W : Valuation τ sig (Elt F)) :
    (StableHlo.nary ![main_v58, main_v59, main_v60, main_v61, main_v62] main_v63 (fun u => concatenate S16x64x5 2 [⟨S16x64x1, u 0⟩, ⟨S16x64x1, u 1⟩, ⟨S16x64x1, u 2⟩, ⟨S16x64x1, u 3⟩, ⟨S16x64x1, u 4⟩] concatenates_S16x64x1_S16x64x1_S16x64x1_S16x64x1_S16x64x1_S16x64x5_d2) hxs hy).result W (no_index (Proc.devRef .tc main_v63))
      = cat5 (W (Proc.devRef .tc main_v58)) (W (Proc.devRef .tc main_v59)) (W (Proc.devRef .tc main_v60)) (W (Proc.devRef .tc main_v61)) (W (Proc.devRef .tc main_v62)) := by
  rw [StableHlo.nary_result]; rfl

/-- The concatenation written into `main_v71`, read at its own buffer: the named function of its operands' contents. -/
theorem res_main_v71 (hxs hy) (W : Valuation τ sig (Elt F)) :
    (StableHlo.nary ![main_v66, main_v67, main_v68, main_v69, main_v70] main_v71 (fun u => concatenate S16x64x5 2 [⟨S16x64x1, u 0⟩, ⟨S16x64x1, u 1⟩, ⟨S16x64x1, u 2⟩, ⟨S16x64x1, u 3⟩, ⟨S16x64x1, u 4⟩] concatenates_S16x64x1_S16x64x1_S16x64x1_S16x64x1_S16x64x1_S16x64x5_d2) hxs hy).result W (no_index (Proc.devRef .tc main_v71))
      = cat5 (W (Proc.devRef .tc main_v66)) (W (Proc.devRef .tc main_v67)) (W (Proc.devRef .tc main_v68)) (W (Proc.devRef .tc main_v69)) (W (Proc.devRef .tc main_v70)) := by
  rw [StableHlo.nary_result]; rfl

/-- The concatenation written into `main_v94`, read at its own buffer: the named function of its operands' contents. -/
theorem res_main_v94 (hxs hy) (W : Valuation τ sig (Elt F)) :
    (StableHlo.nary ![main_v91, main_v92, main_v93] main_v94 (fun u => concatenate S16x64x5x3 3 [⟨S16x64x5x1, u 0⟩, ⟨S16x64x5x1, u 1⟩, ⟨S16x64x5x1, u 2⟩] concatenates_S16x64x5x1_S16x64x5x1_S16x64x5x1_S16x64x5x3_d3) hxs hy).result W (no_index (Proc.devRef .tc main_v94))
      = cat3 (W (Proc.devRef .tc main_v91)) (W (Proc.devRef .tc main_v92)) (W (Proc.devRef .tc main_v93)) := by
  rw [StableHlo.nary_result]; rfl

/-- The concatenation written into `main_v116`, read at its own buffer: the named function of its operands' contents. -/
theorem res_main_v116 (hxs hy) (W : Valuation τ sig (Elt F)) :
    (StableHlo.nary ![main_v113, main_v114, main_v115] main_v116 (fun u => concatenate S16x64x5x3 3 [⟨S16x64x5x1, u 0⟩, ⟨S16x64x5x1, u 1⟩, ⟨S16x64x5x1, u 2⟩] concatenates_S16x64x5x1_S16x64x5x1_S16x64x5x1_S16x64x5x3_d3) hxs hy).result W (no_index (Proc.devRef .tc main_v116))
      = cat3 (W (Proc.devRef .tc main_v113)) (W (Proc.devRef .tc main_v114)) (W (Proc.devRef .tc main_v115)) := by
  rw [StableHlo.nary_result]; rfl

/-- The concatenation written into `main_v227`, read at its own buffer: the named function of its operands' contents. -/
theorem res_main_v227 (hxs hy) (W : Valuation τ sig (Elt F)) :
    (StableHlo.nary ![main_v223, main_v224, main_v225, main_v226] main_v227 (fun u => concatenate S4 0 [⟨S1, u 0⟩, ⟨S1, u 1⟩, ⟨S1, u 2⟩, ⟨S1, u 3⟩] concatenates_S1_S1_S1_S1_S4_d0) hxs hy).result W (no_index (Proc.devRef .tc main_v227))
      = cat4 (W (Proc.devRef .tc main_v223)) (W (Proc.devRef .tc main_v224)) (W (Proc.devRef .tc main_v225)) (W (Proc.devRef .tc main_v226)) := by
  rw [StableHlo.nary_result]; rfl

end Cert.ReferenceIdeal.Hand

end
-- ==== Proof.Bridge.RestLists.lean ====
/-
  After its text-map loss each program goes on with the same host computation: the target boxes are
  scaled to pixel coordinates and clipped, five sample points per box are formed, the predicted boxes
  and confidences are gathered at those points, the box loss and the confidence loss are reduced to
  scalars, and the four results are stacked.  The kernel program reaches this part after 22 host
  operations, the reference after 36.  This module names the two remaining lists of 308 operations and
  states how a fold over a list splits at a position.
-/
import proofs.«116515_j64166811402734_2_alg».proof.Proof.KI.Cats
import proofs.«116515_j64166811402734_2_alg».proof.Proof.Ref.Cats
import proofs.«116515_j64166811402734_2_alg».proof.Proof.Ref.Ops0
import proofs.«116515_j64166811402734_2_alg».proof.Proof.Ref.Ops1
import proofs.«116515_j64166811402734_2_alg».proof.Proof.Ref.Ops2
import proofs.«116515_j64166811402734_2_alg».proof.Proof.Ref.Ops3
import proofs.«116515_j64166811402734_2_alg».proof.Proof.Ref.Ops4
import Idealize.ShloMosaic.Lib.StableHlo.Run
import Idealize.ShloMosaic.Lib.Pipeline.Frame

set_option maxRecDepth 16384

noncomputable section

namespace Cert.Bridge

open Idealize.ShloMosaic Idealize.ShloMosaic.TcCoe Idealize.ShloMosaic.StableHlo
open Idealize.SL Idealize.SL.Sem

variable {F : FTy → Type} [FloatOps F]

/-- The kernel program's host operations after its text-map loss. -/
abbrev restK : List (HloOp Cert.KernelIdeal.τ Cert.KernelIdeal.sig (Elt F)) :=
  List.drop 22 Cert.KernelIdeal.Gen.hostOps1 ++ List.flatten [Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18]

/-- The reference's host operations after its text-map loss. -/
abbrev restR : List (HloOp Cert.ReferenceIdeal.τ Cert.ReferenceIdeal.sig (Elt F)) :=
  List.drop 36 Cert.ReferenceIdeal.RefRun.ops0 ++ List.flatten [Cert.ReferenceIdeal.RefRun.ops1, Cert.ReferenceIdeal.RefRun.ops2, Cert.ReferenceIdeal.RefRun.ops3, Cert.ReferenceIdeal.RefRun.ops4]

/-- Folding over a list from position `a` on is folding over its next `n` operations and then over the rest. -/
theorem after_stage {τ : Topo} {sig : RefSig} {Val : EltTy → Type} (l : List (HloOp τ sig Val)) (a n : ℕ) (V : Valuation τ sig Val) :
    StableHlo.after (List.drop a l) V = StableHlo.after (List.drop (a + n) l) (StableHlo.after (List.take n (List.drop a l)) V) := by
  rw [← StableHlo.after_append, ← List.drop_drop, List.take_append_drop]

end Cert.Bridge

end
-- ==== Proof.Bridge.Stage0.lean ====
/-
  Operations 1–113 of the 308 host operations the two programs share after their text-map losses
  (the target boxes' pixel coordinates and the five sample points per box).  From contents that agree on the buffers still in use before this
  stretch, the buffers still in use after it end equal: each side's fold over the stretch is read back as
  one composed term of those inputs, the agreeing inputs are rewritten, and the two terms are the same.
-/
import proofs.«116515_j64166811402734_2_alg».proof.Proof.Bridge.RestLists

set_option maxRecDepth 16384

noncomputable section

namespace Cert.Bridge

open Idealize.ShloMosaic Idealize.ShloMosaic.TcCoe Idealize.ShloMosaic.StableHlo
open Idealize.SL Idealize.SL.Sem

variable {F : FTy → Type} [FloatOps F]

set_option maxHeartbeats 100000000 in
theorem stage0 (VK : Valuation Cert.KernelIdeal.τ Cert.KernelIdeal.sig (Elt F)) (VR : Valuation Cert.ReferenceIdeal.τ Cert.ReferenceIdeal.sig (Elt F))
    (h_arg4 : VK (Proc.devRef .tc Cert.KernelIdeal.main_arg4) = VR (Proc.devRef .tc Cert.ReferenceIdeal.main_arg4))
    (h_arg2 : VK (Proc.devRef .tc Cert.KernelIdeal.main_arg2) = VR (Proc.devRef .tc Cert.ReferenceIdeal.main_arg2))
    (h_arg1 : VK (Proc.devRef .tc Cert.KernelIdeal.main_arg1) = VR (Proc.devRef .tc Cert.ReferenceIdeal.main_arg1))
    (h_v17 : VK (Proc.devRef .tc Cert.KernelIdeal.main_v17) = VR (Proc.devRef .tc Cert.ReferenceIdeal.main_v24)) :
    (StableHlo.after (List.take 113 (List.drop 0 (restK (F := F)))) VK (Proc.devRef .tc Cert.KernelIdeal.main_arg2)
        = StableHlo.after (List.take 113 (List.drop 0 (restR (F := F)))) VR (Proc.devRef .tc Cert.ReferenceIdeal.main_arg2))
      ∧ (StableHlo.after (List.take 113 (List.drop 0 (restK (F := F)))) VK (Proc.devRef .tc Cert.KernelIdeal.main_arg1)
        = StableHlo.after (List.take 113 (List.drop 0 (restR (F := F)))) VR (Proc.devRef .tc Cert.ReferenceIdeal.main_arg1))
      ∧ (StableHlo.after (List.take 113 (List.drop 0 (restK (F := F)))) VK (Proc.devRef .tc Cert.KernelIdeal.main_v17)
        = StableHlo.after (List.take 113 (List.drop 0 (restR (F := F)))) VR (Proc.devRef .tc Cert.ReferenceIdeal.main_v24))
      ∧ (StableHlo.after (List.take 113 (List.drop 0 (restK (F := F)))) VK (Proc.devRef .tc Cert.KernelIdeal.main_v19)
        = StableHlo.after (List.take 113 (List.drop 0 (restR (F := F)))) VR (Proc.devRef .tc Cert.ReferenceIdeal.main_v26))
      ∧ (StableHlo.after (List.take 113 (List.drop 0 (restK (F := F)))) VK (Proc.devRef .tc Cert.KernelIdeal.main_v20)
        = StableHlo.after (List.take 113 (List.drop 0 (restR (F := F)))) VR (Proc.devRef .tc Cert.ReferenceIdeal.main_v27))
      ∧ (StableHlo.after (List.take 113 (List.drop 0 (restK (F := F)))) VK (Proc.devRef .tc Cert.KernelIdeal.main_v56)
        = StableHlo.after (List.take 113 (List.drop 0 (restR (F := F)))) VR (Proc.devRef .tc Cert.ReferenceIdeal.main_v63))
      ∧ (StableHlo.after (List.take 113 (List.drop 0 (restK (F := F)))) VK (Proc.devRef .tc Cert.KernelIdeal.main_v64)
        = StableHlo.after (List.take 113 (List.drop 0 (restR (F := F)))) VR (Proc.devRef .tc Cert.ReferenceIdeal.main_v71)) := by
  simp (config := { maxSteps := 4000000 }) only [restK, restR, List.flatten_cons, List.flatten_nil, List.append_nil, List.cons_append, List.nil_append,
    List.drop_succ_cons, List.drop_zero, List.take_succ_cons, List.take_zero,
    Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18,
    Cert.ReferenceIdeal.RefRun.ops0, Cert.ReferenceIdeal.RefRun.ops1, Cert.ReferenceIdeal.RefRun.ops2, Cert.ReferenceIdeal.RefRun.ops3, Cert.ReferenceIdeal.RefRun.ops4]
  simp (config := { maxSteps := 4000000 }) (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      Cert.KernelIdeal.Hand.res_main_v56, Cert.KernelIdeal.Hand.res_main_v64, Cert.KernelIdeal.Hand.res_main_v87, Cert.KernelIdeal.Hand.res_main_v109, Cert.KernelIdeal.Hand.res_main_v220,
      Cert.ReferenceIdeal.Hand.res_main_v63, Cert.ReferenceIdeal.Hand.res_main_v71, Cert.ReferenceIdeal.Hand.res_main_v94, Cert.ReferenceIdeal.Hand.res_main_v116, Cert.ReferenceIdeal.Hand.res_main_v227]
  refine ⟨?_, ?_, ?_, ?_, ?_, ?_, ?_⟩
  all_goals (try simp only [h_arg4, h_arg2, h_arg1, h_v17])
  all_goals (try rfl)

end Cert.Bridge

end
-- ==== Proof.Bridge.Stage1.lean ====
/-
  Operations 114–171 of the 308 host operations the two programs share after their text-map losses
  (the index arrays and the two gathers of predicted boxes and confidences).  From contents that agree on the buffers still in use before this
  stretch, the buffers still in use after it end equal: each side's fold over the stretch is read back as
  one composed term of those inputs, the agreeing inputs are rewritten, and the two terms are the same.
-/
import proofs.«116515_j64166811402734_2_alg».proof.Proof.Bridge.RestLists

set_option maxRecDepth 16384

noncomputable section

namespace Cert.Bridge

open Idealize.ShloMosaic Idealize.ShloMosaic.TcCoe Idealize.ShloMosaic.StableHlo
open Idealize.SL Idealize.SL.Sem

variable {F : FTy → Type} [FloatOps F]

set_option maxHeartbeats 100000000 in
theorem stage1 (VK : Valuation Cert.KernelIdeal.τ Cert.KernelIdeal.sig (Elt F)) (VR : Valuation Cert.ReferenceIdeal.τ Cert.ReferenceIdeal.sig (Elt F))
    (h_arg2 : VK (Proc.devRef .tc Cert.KernelIdeal.main_arg2) = VR (Proc.devRef .tc Cert.ReferenceIdeal.main_arg2))
    (h_arg1 : VK (Proc.devRef .tc Cert.KernelIdeal.main_arg1) = VR (Proc.devRef .tc Cert.ReferenceIdeal.main_arg1))
    (h_v17 : VK (Proc.devRef .tc Cert.KernelIdeal.main_v17) = VR (Proc.devRef .tc Cert.ReferenceIdeal.main_v24))
    (h_v19 : VK (Proc.devRef .tc Cert.KernelIdeal.main_v19) = VR (Proc.devRef .tc Cert.ReferenceIdeal.main_v26))
    (h_v20 : VK (Proc.devRef .tc Cert.KernelIdeal.main_v20) = VR (Proc.devRef .tc Cert.ReferenceIdeal.main_v27))
    (h_v56 : VK (Proc.devRef .tc Cert.KernelIdeal.main_v56) = VR (Proc.devRef .tc Cert.ReferenceIdeal.main_v63))
    (h_v64 : VK (Proc.devRef .tc Cert.KernelIdeal.main_v64) = VR (Proc.devRef .tc Cert.ReferenceIdeal.main_v71)) :
    (StableHlo.after (List.take 58 (List.drop 113 (restK (F := F)))) VK (Proc.devRef .tc Cert.KernelIdeal.main_v17)
        = StableHlo.after (List.take 58 (List.drop 113 (restR (F := F)))) VR (Proc.devRef .tc Cert.ReferenceIdeal.main_v24))
      ∧ (StableHlo.after (List.take 58 (List.drop 113 (restK (F := F)))) VK (Proc.devRef .tc Cert.KernelIdeal.main_v19)
        = StableHlo.after (List.take 58 (List.drop 113 (restR (F := F)))) VR (Proc.devRef .tc Cert.ReferenceIdeal.main_v26))
      ∧ (StableHlo.after (List.take 58 (List.drop 113 (restK (F := F)))) VK (Proc.devRef .tc Cert.KernelIdeal.main_v20)
        = StableHlo.after (List.take 58 (List.drop 113 (restR (F := F)))) VR (Proc.devRef .tc Cert.ReferenceIdeal.main_v27))
      ∧ (StableHlo.after (List.take 58 (List.drop 113 (restK (F := F)))) VK (Proc.devRef .tc Cert.KernelIdeal.main_v88)
        = StableHlo.after (List.take 58 (List.drop 113 (restR (F := F)))) VR (Proc.devRef .tc Cert.ReferenceIdeal.main_v95))
      ∧ (StableHlo.after (List.take 58 (List.drop 113 (restK (F := F)))) VK (Proc.devRef .tc Cert.KernelIdeal.main_v110)
        = StableHlo.after (List.take 58 (List.drop 113 (restR (F := F)))) VR (Proc.devRef .tc Cert.ReferenceIdeal.main_v117)) := by
  simp (config := { maxSteps := 4000000 }) only [restK, restR, List.flatten_cons, List.flatten_nil, List.append_nil, List.cons_append, List.nil_append,
    List.drop_succ_cons, List.drop_zero, List.take_succ_cons, List.take_zero,
    Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18,
    Cert.ReferenceIdeal.RefRun.ops0, Cert.ReferenceIdeal.RefRun.ops1, Cert.ReferenceIdeal.RefRun.ops2, Cert.ReferenceIdeal.RefRun.ops3, Cert.ReferenceIdeal.RefRun.ops4]
  simp (config := { maxSteps := 4000000 }) (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      Cert.KernelIdeal.Hand.res_main_v56, Cert.KernelIdeal.Hand.res_main_v64, Cert.KernelIdeal.Hand.res_main_v87, Cert.KernelIdeal.Hand.res_main_v109, Cert.KernelIdeal.Hand.res_main_v220,
      Cert.ReferenceIdeal.Hand.res_main_v63, Cert.ReferenceIdeal.Hand.res_main_v71, Cert.ReferenceIdeal.Hand.res_main_v94, Cert.ReferenceIdeal.Hand.res_main_v116, Cert.ReferenceIdeal.Hand.res_main_v227]
  refine ⟨?_, ?_, ?_, ?_, ?_⟩
  all_goals (try simp only [h_arg2, h_arg1, h_v17, h_v19, h_v20, h_v56, h_v64])
  all_goals (try rfl)

end Cert.Bridge

end
-- ==== Proof.Bridge.Stage2.lean ====
/-
  Operations 172–247 of the 308 host operations the two programs share after their text-map losses
  (the intersection-over-union and smooth-L1 terms of the box loss).  From contents that agree on the buffers still in use before this
  stretch, the buffers still in use after it end equal: each side's fold over the stretch is read back as
  one composed term of those inputs, the agreeing inputs are rewritten, and the two terms are the same.
-/
import proofs.«116515_j64166811402734_2_alg».proof.Proof.Bridge.RestLists

set_option maxRecDepth 16384

noncomputable section

namespace Cert.Bridge

open Idealize.ShloMosaic Idealize.ShloMosaic.TcCoe Idealize.ShloMosaic.StableHlo
open Idealize.SL Idealize.SL.Sem

variable {F : FTy → Type} [FloatOps F]

set_option maxHeartbeats 100000000 in
theorem stage2 (VK : Valuation Cert.KernelIdeal.τ Cert.KernelIdeal.sig (Elt F)) (VR : Valuation Cert.ReferenceIdeal.τ Cert.ReferenceIdeal.sig (Elt F))
    (h_v17 : VK (Proc.devRef .tc Cert.KernelIdeal.main_v17) = VR (Proc.devRef .tc Cert.ReferenceIdeal.main_v24))
    (h_v19 : VK (Proc.devRef .tc Cert.KernelIdeal.main_v19) = VR (Proc.devRef .tc Cert.ReferenceIdeal.main_v26))
    (h_v20 : VK (Proc.devRef .tc Cert.KernelIdeal.main_v20) = VR (Proc.devRef .tc Cert.ReferenceIdeal.main_v27))
    (h_v88 : VK (Proc.devRef .tc Cert.KernelIdeal.main_v88) = VR (Proc.devRef .tc Cert.ReferenceIdeal.main_v95))
    (h_v110 : VK (Proc.devRef .tc Cert.KernelIdeal.main_v110) = VR (Proc.devRef .tc Cert.ReferenceIdeal.main_v117)) :
    (StableHlo.after (List.take 76 (List.drop 171 (restK (F := F)))) VK (Proc.devRef .tc Cert.KernelIdeal.main_v17)
        = StableHlo.after (List.take 76 (List.drop 171 (restR (F := F)))) VR (Proc.devRef .tc Cert.ReferenceIdeal.main_v24))
      ∧ (StableHlo.after (List.take 76 (List.drop 171 (restK (F := F)))) VK (Proc.devRef .tc Cert.KernelIdeal.main_v110)
        = StableHlo.after (List.take 76 (List.drop 171 (restR (F := F)))) VR (Proc.devRef .tc Cert.ReferenceIdeal.main_v117))
      ∧ (StableHlo.after (List.take 76 (List.drop 171 (restK (F := F)))) VK (Proc.devRef .tc Cert.KernelIdeal.main_v114)
        = StableHlo.after (List.take 76 (List.drop 171 (restR (F := F)))) VR (Proc.devRef .tc Cert.ReferenceIdeal.main_v121))
      ∧ (StableHlo.after (List.take 76 (List.drop 171 (restK (F := F)))) VK (Proc.devRef .tc Cert.KernelIdeal.main_v175)
        = StableHlo.after (List.take 76 (List.drop 171 (restR (F := F)))) VR (Proc.devRef .tc Cert.ReferenceIdeal.main_v182))
      ∧ (StableHlo.after (List.take 76 (List.drop 171 (restK (F := F)))) VK (Proc.devRef .tc Cert.KernelIdeal.main_v176)
        = StableHlo.after (List.take 76 (List.drop 171 (restR (F := F)))) VR (Proc.devRef .tc Cert.ReferenceIdeal.main_v183)) := by
  simp (config := { maxSteps := 4000000 }) only [restK, restR, List.flatten_cons, List.flatten_nil, List.append_nil, List.cons_append, List.nil_append,
    List.drop_succ_cons, List.drop_zero, List.take_succ_cons, List.take_zero,
    Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18,
    Cert.ReferenceIdeal.RefRun.ops0, Cert.ReferenceIdeal.RefRun.ops1, Cert.ReferenceIdeal.RefRun.ops2, Cert.ReferenceIdeal.RefRun.ops3, Cert.ReferenceIdeal.RefRun.ops4]
  simp (config := { maxSteps := 4000000 }) (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      Cert.KernelIdeal.Hand.res_main_v56, Cert.KernelIdeal.Hand.res_main_v64, Cert.KernelIdeal.Hand.res_main_v87, Cert.KernelIdeal.Hand.res_main_v109, Cert.KernelIdeal.Hand.res_main_v220,
      Cert.ReferenceIdeal.Hand.res_main_v63, Cert.ReferenceIdeal.Hand.res_main_v71, Cert.ReferenceIdeal.Hand.res_main_v94, Cert.ReferenceIdeal.Hand.res_main_v116, Cert.ReferenceIdeal.Hand.res_main_v227]
  refine ⟨?_, ?_, ?_, ?_, ?_⟩
  all_goals (try simp only [h_v17, h_v19, h_v20, h_v88, h_v110])
  all_goals (try rfl)

end Cert.Bridge

end
-- ==== Proof.Bridge.Stage3.lean ====
/-
  Operations 248–285 of the 308 host operations the two programs share after their text-map losses
  (the box loss's means and the confidence loss's cross-entropy terms).  From contents that agree on the buffers still in use before this
  stretch, the buffers still in use after it end equal: each side's fold over the stretch is read back as
  one composed term of those inputs, the agreeing inputs are rewritten, and the two terms are the same.
-/
import proofs.«116515_j64166811402734_2_alg».proof.Proof.Bridge.RestLists

set_option maxRecDepth 16384

noncomputable section

namespace Cert.Bridge

open Idealize.ShloMosaic Idealize.ShloMosaic.TcCoe Idealize.ShloMosaic.StableHlo
open Idealize.SL Idealize.SL.Sem

variable {F : FTy → Type} [FloatOps F]

set_option maxHeartbeats 100000000 in
theorem stage3 (VK : Valuation Cert.KernelIdeal.τ Cert.KernelIdeal.sig (Elt F)) (VR : Valuation Cert.ReferenceIdeal.τ Cert.ReferenceIdeal.sig (Elt F))
    (h_v17 : VK (Proc.devRef .tc Cert.KernelIdeal.main_v17) = VR (Proc.devRef .tc Cert.ReferenceIdeal.main_v24))
    (h_v110 : VK (Proc.devRef .tc Cert.KernelIdeal.main_v110) = VR (Proc.devRef .tc Cert.ReferenceIdeal.main_v117))
    (h_v114 : VK (Proc.devRef .tc Cert.KernelIdeal.main_v114) = VR (Proc.devRef .tc Cert.ReferenceIdeal.main_v121))
    (h_v175 : VK (Proc.devRef .tc Cert.KernelIdeal.main_v175) = VR (Proc.devRef .tc Cert.ReferenceIdeal.main_v182))
    (h_v176 : VK (Proc.devRef .tc Cert.KernelIdeal.main_v176) = VR (Proc.devRef .tc Cert.ReferenceIdeal.main_v183)) :
    (StableHlo.after (List.take 38 (List.drop 247 (restK (F := F)))) VK (Proc.devRef .tc Cert.KernelIdeal.main_v17)
        = StableHlo.after (List.take 38 (List.drop 247 (restR (F := F)))) VR (Proc.devRef .tc Cert.ReferenceIdeal.main_v24))
      ∧ (StableHlo.after (List.take 38 (List.drop 247 (restK (F := F)))) VK (Proc.devRef .tc Cert.KernelIdeal.main_v193)
        = StableHlo.after (List.take 38 (List.drop 247 (restR (F := F)))) VR (Proc.devRef .tc Cert.ReferenceIdeal.main_v200))
      ∧ (StableHlo.after (List.take 38 (List.drop 247 (restK (F := F)))) VK (Proc.devRef .tc Cert.KernelIdeal.main_v204)
        = StableHlo.after (List.take 38 (List.drop 247 (restR (F := F)))) VR (Proc.devRef .tc Cert.ReferenceIdeal.main_v211)) := by
  simp (config := { maxSteps := 4000000 }) only [restK, restR, List.flatten_cons, List.flatten_nil, List.append_nil, List.cons_append, List.nil_append,
    List.drop_succ_cons, List.drop_zero, List.take_succ_cons, List.take_zero,
    Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18,
    Cert.ReferenceIdeal.RefRun.ops0, Cert.ReferenceIdeal.RefRun.ops1, Cert.ReferenceIdeal.RefRun.ops2, Cert.ReferenceIdeal.RefRun.ops3, Cert.ReferenceIdeal.RefRun.ops4]
  simp (config := { maxSteps := 4000000 }) (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      Cert.KernelIdeal.Hand.res_main_v56, Cert.KernelIdeal.Hand.res_main_v64, Cert.KernelIdeal.Hand.res_main_v87, Cert.KernelIdeal.Hand.res_main_v109, Cert.KernelIdeal.Hand.res_main_v220,
      Cert.ReferenceIdeal.Hand.res_main_v63, Cert.ReferenceIdeal.Hand.res_main_v71, Cert.ReferenceIdeal.Hand.res_main_v94, Cert.ReferenceIdeal.Hand.res_main_v116, Cert.ReferenceIdeal.Hand.res_main_v227]
  refine ⟨?_, ?_, ?_⟩
  all_goals (try simp only [h_v17, h_v110, h_v114, h_v175, h_v176])
  all_goals (try rfl)

end Cert.Bridge

end
-- ==== Proof.Bridge.Stage4.lean ====
/-
  Operations 286–308 of the 308 host operations the two programs share after their text-map losses
  (the confidence loss's means, the weighted total and the stacking of the four results).  From contents that agree on the buffers still in use before this
  stretch, the buffers still in use after it end equal: each side's fold over the stretch is read back as
  one composed term of those inputs, the agreeing inputs are rewritten, and the two terms are the same.
-/
import proofs.«116515_j64166811402734_2_alg».proof.Proof.Bridge.RestLists

set_option maxRecDepth 16384

noncomputable section

namespace Cert.Bridge

open Idealize.ShloMosaic Idealize.ShloMosaic.TcCoe Idealize.ShloMosaic.StableHlo
open Idealize.SL Idealize.SL.Sem

variable {F : FTy → Type} [FloatOps F]

set_option maxHeartbeats 100000000 in
theorem stage4 (VK : Valuation Cert.KernelIdeal.τ Cert.KernelIdeal.sig (Elt F)) (VR : Valuation Cert.ReferenceIdeal.τ Cert.ReferenceIdeal.sig (Elt F))
    (h_v17 : VK (Proc.devRef .tc Cert.KernelIdeal.main_v17) = VR (Proc.devRef .tc Cert.ReferenceIdeal.main_v24))
    (h_v193 : VK (Proc.devRef .tc Cert.KernelIdeal.main_v193) = VR (Proc.devRef .tc Cert.ReferenceIdeal.main_v200))
    (h_v204 : VK (Proc.devRef .tc Cert.KernelIdeal.main_v204) = VR (Proc.devRef .tc Cert.ReferenceIdeal.main_v211)) :
    (StableHlo.after (List.drop 285 (restK (F := F))) VK (Proc.devRef .tc Cert.KernelIdeal.main_v220)
        = StableHlo.after (List.drop 285 (restR (F := F))) VR (Proc.devRef .tc Cert.ReferenceIdeal.main_v227)) := by
  simp (config := { maxSteps := 4000000 }) only [restK, restR, List.flatten_cons, List.flatten_nil, List.append_nil, List.cons_append, List.nil_append,
    List.drop_succ_cons, List.drop_zero, List.take_succ_cons, List.take_zero,
    Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.KernelIdeal.Gen.hostOps1_17, Cert.KernelIdeal.Gen.hostOps1_18,
    Cert.ReferenceIdeal.RefRun.ops0, Cert.ReferenceIdeal.RefRun.ops1, Cert.ReferenceIdeal.RefRun.ops2, Cert.ReferenceIdeal.RefRun.ops3, Cert.ReferenceIdeal.RefRun.ops4]
  simp (config := { maxSteps := 4000000 }) (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne',
      Cert.KernelIdeal.Hand.res_main_v56, Cert.KernelIdeal.Hand.res_main_v64, Cert.KernelIdeal.Hand.res_main_v87, Cert.KernelIdeal.Hand.res_main_v109, Cert.KernelIdeal.Hand.res_main_v220,
      Cert.ReferenceIdeal.Hand.res_main_v63, Cert.ReferenceIdeal.Hand.res_main_v71, Cert.ReferenceIdeal.Hand.res_main_v94, Cert.ReferenceIdeal.Hand.res_main_v116, Cert.ReferenceIdeal.Hand.res_main_v227]
  all_goals (try simp only [h_v17, h_v193, h_v204])
  all_goals (try rfl)

end Cert.Bridge

end
-- ==== Proof.Bridge.Rest.lean ====
/-
  The shared rest of the two host programs, stretch after stretch: the five stretches' agreements chained
  from the text-map loss and the three argument arrays to the stacked result.
-/
import proofs.«116515_j64166811402734_2_alg».proof.Proof.Bridge.Stage0
import proofs.«116515_j64166811402734_2_alg».proof.Proof.Bridge.Stage1
import proofs.«116515_j64166811402734_2_alg».proof.Proof.Bridge.Stage2
import proofs.«116515_j64166811402734_2_alg».proof.Proof.Bridge.Stage3
import proofs.«116515_j64166811402734_2_alg».proof.Proof.Bridge.Stage4

set_option maxRecDepth 16384

noncomputable section

namespace Cert.Bridge

open Idealize.ShloMosaic Idealize.ShloMosaic.TcCoe Idealize.ShloMosaic.StableHlo
open Idealize.SL Idealize.SL.Sem

variable {F : FTy → Type} [FloatOps F]

set_option maxHeartbeats 4000000 in
/-- From contents agreeing on the text-map loss and on the three arrays the rest reads, the two programs'
    results agree: the stretches, one after the other. -/
theorem rest_eq (WK : Valuation Cert.KernelIdeal.τ Cert.KernelIdeal.sig (Elt F)) (WR : Valuation Cert.ReferenceIdeal.τ Cert.ReferenceIdeal.sig (Elt F))
    (hl : WK (Proc.devRef .tc Cert.KernelIdeal.main_v17) = WR (Proc.devRef .tc Cert.ReferenceIdeal.main_v24))
    (h1 : WK (Proc.devRef .tc Cert.KernelIdeal.main_arg1) = WR (Proc.devRef .tc Cert.ReferenceIdeal.main_arg1))
    (h2 : WK (Proc.devRef .tc Cert.KernelIdeal.main_arg2) = WR (Proc.devRef .tc Cert.ReferenceIdeal.main_arg2))
    (h4 : WK (Proc.devRef .tc Cert.KernelIdeal.main_arg4) = WR (Proc.devRef .tc Cert.ReferenceIdeal.main_arg4)) :
    StableHlo.after (restK (F := F)) WK (Proc.devRef .tc Cert.KernelIdeal.main_v220)
      = StableHlo.after (restR (F := F)) WR (Proc.devRef .tc Cert.ReferenceIdeal.main_v227) := by
  obtain ⟨e0_arg2, e0_arg1, e0_v17, e0_v19, e0_v20, e0_v56, e0_v64⟩ := stage0 (F := F) (WK) (WR) h4 h2 h1 hl
  obtain ⟨e1_v17, e1_v19, e1_v20, e1_v88, e1_v110⟩ := stage1 (F := F) (StableHlo.after (List.take 113 (List.drop 0 (restK (F := F)))) (WK)) (StableHlo.after (List.take 113 (List.drop 0 (restR (F := F)))) (WR)) e0_arg2 e0_arg1 e0_v17 e0_v19 e0_v20 e0_v56 e0_v64
  obtain ⟨e2_v17, e2_v110, e2_v114, e2_v175, e2_v176⟩ := stage2 (F := F) (StableHlo.after (List.take 58 (List.drop 113 (restK (F := F)))) (StableHlo.after (List.take 113 (List.drop 0 (restK (F := F)))) (WK))) (StableHlo.after (List.take 58 (List.drop 113 (restR (F := F)))) (StableHlo.after (List.take 113 (List.drop 0 (restR (F := F)))) (WR))) e1_v17 e1_v19 e1_v20 e1_v88 e1_v110
  obtain ⟨e3_v17, e3_v193, e3_v204⟩ := stage3 (F := F) (StableHlo.after (List.take 76 (List.drop 171 (restK (F := F)))) (StableHlo.after (List.take 58 (List.drop 113 (restK (F := F)))) (StableHlo.after (List.take 113 (List.drop 0 (restK (F := F)))) (WK)))) (StableHlo.after (List.take 76 (List.drop 171 (restR (F := F)))) (StableHlo.after (List.take 58 (List.drop 113 (restR (F := F)))) (StableHlo.after (List.take 113 (List.drop 0 (restR (F := F)))) (WR)))) e2_v17 e2_v110 e2_v114 e2_v175 e2_v176
  have e4_v220 := stage4 (F := F) (StableHlo.after (List.take 38 (List.drop 247 (restK (F := F)))) (StableHlo.after (List.take 76 (List.drop 171 (restK (F := F)))) (StableHlo.after (List.take 58 (List.drop 113 (restK (F := F)))) (StableHlo.after (List.take 113 (List.drop 0 (restK (F := F)))) (WK))))) (StableHlo.after (List.take 38 (List.drop 247 (restR (F := F)))) (StableHlo.after (List.take 76 (List.drop 171 (restR (F := F)))) (StableHlo.after (List.take 58 (List.drop 113 (restR (F := F)))) (StableHlo.after (List.take 113 (List.drop 0 (restR (F := F)))) (WR))))) e3_v17 e3_v193 e3_v204
  have cK : StableHlo.after (restK (F := F)) WK = StableHlo.after (List.drop 285 (restK (F := F))) (StableHlo.after (List.take 38 (List.drop 247 (restK (F := F)))) (StableHlo.after (List.take 76 (List.drop 171 (restK (F := F)))) (StableHlo.after (List.take 58 (List.drop 113 (restK (F := F)))) (StableHlo.after (List.take 113 (List.drop 0 (restK (F := F)))) (WK))))) :=
    (after_stage (restK (F := F)) 0 113 (WK)).trans ((after_stage (restK (F := F)) 113 58 (StableHlo.after (List.take 113 (List.drop 0 (restK (F := F)))) (WK))).trans ((after_stage (restK (F := F)) 171 76 (StableHlo.after (List.take 58 (List.drop 113 (restK (F := F)))) (StableHlo.after (List.take 113 (List.drop 0 (restK (F := F)))) (WK)))).trans (after_stage (restK (F := F)) 247 38 (StableHlo.after (List.take 76 (List.drop 171 (restK (F := F)))) (StableHlo.after (List.take 58 (List.drop 113 (restK (F := F)))) (StableHlo.after (List.take 113 (List.drop 0 (restK (F := F)))) (WK)))))))
  have cR : StableHlo.after (restR (F := F)) WR = StableHlo.after (List.drop 285 (restR (F := F))) (StableHlo.after (List.take 38 (List.drop 247 (restR (F := F)))) (StableHlo.after (List.take 76 (List.drop 171 (restR (F := F)))) (StableHlo.after (List.take 58 (List.drop 113 (restR (F := F)))) (StableHlo.after (List.take 113 (List.drop 0 (restR (F := F)))) (WR))))) :=
    (after_stage (restR (F := F)) 0 113 (WR)).trans ((after_stage (restR (F := F)) 113 58 (StableHlo.after (List.take 113 (List.drop 0 (restR (F := F)))) (WR))).trans ((after_stage (restR (F := F)) 171 76 (StableHlo.after (List.take 58 (List.drop 113 (restR (F := F)))) (StableHlo.after (List.take 113 (List.drop 0 (restR (F := F)))) (WR)))).trans (after_stage (restR (F := F)) 247 38 (StableHlo.after (List.take 76 (List.drop 171 (restR (F := F)))) (StableHlo.after (List.take 58 (List.drop 113 (restR (F := F)))) (StableHlo.after (List.take 113 (List.drop 0 (restR (F := F)))) (WR)))))))
  rw [cK, cR]
  exact e4_v220

end Cert.Bridge

end
-- ==== Proof.Bridge.PreK.lean ====
/-
  The kernel program's text-map loss, read off its first 22 host operations at the ideal instance: the
  four totals are rows 0–3 of the region's result array at column 0 (prediction sum, target sum, product
  sum, cross-entropy sum), each sliced out and cast to a scalar, and the scalar formula is applied to them.
-/
import proofs.«116515_j64166811402734_2_alg».proof.Proof.KI.Base
import proofs.«116515_j64166811402734_2_alg».proof.Proof.LossMath
import Idealize.ShloMosaic.Lib.StableHlo.Run
import Idealize.ShloMosaic.Lib.Pipeline.Value
import Idealize.ShloMosaic.PureOps.Ideal.Laws

set_option maxRecDepth 16384

noncomputable section

namespace Cert.Bridge

open Cert.KernelIdeal Cert.KernelIdeal.Gen
open Idealize.ShloMosaic Idealize.ShloMosaic.TcCoe Idealize.ShloMosaic.StableHlo Idealize.ShloMosaic.ValueIdx

/-- The row-major position of the one index of a rank-0 shape is 0. -/
theorem rowMajor_scalar (j : S_.Idx) : (S_.rowMajor j).val = 0 := by
  have h := (S_.rowMajor j).isLt
  have h1 : S_.numel = 1 := by decide
  omega

/-- Row `r` of the region's result array at column 0, sliced out as a 1 × 1 array and cast to a scalar, is the
    array's entry `(r, 0)`. -/
theorem read_row (X : S8x128.Idx → EReal) (n : Nat) (r : Fin 8) (hr : r.val = n)
    (h : S8x128.Slices ![n, 0] S1x1) (h' : S1x1.ShapeCasts S_) (j : S_.Idx) :
    shapeCast S_ (extractStridedSlice S1x1 ![n, 0] X h) h' j = X (ix2 r (0 : Fin 128)) := by
  rw [shapeCast_apply _ h' j (ix2 (0 : Fin 1) (0 : Fin 1)) (by rw [rowMajor_scalar, Shape.rowMajor_val_two]; rfl)]
  refine extractStridedSlice_apply _ X h _ (ix2 r (0 : Fin 128)) ?_
  intro a
  fin_cases a
  · show r.val = n + 0
    omega
  · rfl

/-- The dice-and-cross-entropy formula of the four scalars, as the host operations compose it, read at the one
    index of a scalar: every operation is pointwise over the extended reals. -/
theorem scalar_form (X : S8x128.Idx → EReal) (j : S_.Idx) :
    addf (F := Ideal)
      (Host.divf
        (Host.negf fun i => shapeCast S_ (extractStridedSlice S1x1 ![3, 0] X slices_S8x128_S1x1_3_0) shapeCasts_S1x1_S_ i)
        (constant S_ .f32 0x4A800000#32))
      (subf (constant S_ .f32 0x3F800000#32)
        (Host.divf
          (addf
            (mulf (constant S_ .f32 0x40000000#32) fun i =>
              shapeCast S_ (extractStridedSlice S1x1 ![2, 0] X slices_S8x128_S1x1_2_0) shapeCasts_S1x1_S_ i)
            (constant S_ .f32 0x3F800000#32))
          (addf
            (addf
              (fun i => shapeCast S_ (extractStridedSlice S1x1 ![0, 0] X slices_S8x128_S1x1_0_0) shapeCasts_S1x1_S_ i)
              fun i => shapeCast S_ (extractStridedSlice S1x1 ![1, 0] X slices_S8x128_S1x1_1_0) shapeCasts_S1x1_S_ i)
            (constant S_ .f32 0x3F800000#32))))
      j
    = LossMath.tmlKer (X (ix2 (3 : Fin 8) (0 : Fin 128))) (X (ix2 (2 : Fin 8) (0 : Fin 128)))
        (X (ix2 (0 : Fin 8) (0 : Fin 128))) (X (ix2 (1 : Fin 8) (0 : Fin 128))) := by
  simp only [addf, subf, mulf, Host.negf, Host.divf, constant, Ideal.ofBits_def, Ideal.addf_def, Ideal.subf_def,
    Ideal.mulf_def, Ideal.hostDivf_def, Ideal.hostNegf_def, Ideal.negf_def,
    read_row X 3 3 rfl, read_row X 2 2 rfl, read_row X 0 0 rfl, read_row X 1 1 rfl, LossMath.tmlKer]

set_option maxHeartbeats 4000000 in
/-- The kernel program's text-map loss is the scalar formula of the four totals the region left in rows 0–3. -/
theorem preK (W : Valuation τ sig (Elt Ideal)) (j : S_.Idx) :
    StableHlo.after (List.take 22 (hostOps1 (F := Ideal))) W (Proc.devRef .tc main_v17) j
      = LossMath.tmlKer ((W (Proc.devRef .tc main_v0) : S8x128.Idx → EReal) (ix2 (3 : Fin 8) (0 : Fin 128)))
                        ((W (Proc.devRef .tc main_v0) : S8x128.Idx → EReal) (ix2 (2 : Fin 8) (0 : Fin 128)))
                        ((W (Proc.devRef .tc main_v0) : S8x128.Idx → EReal) (ix2 (0 : Fin 8) (0 : Fin 128)))
                        ((W (Proc.devRef .tc main_v0) : S8x128.Idx → EReal) (ix2 (1 : Fin 8) (0 : Fin 128))) := by
  simp only [hostOps1, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  exact scalar_form _ j

set_option maxHeartbeats 4000000 in
/-- None of those operations writes `main_arg1`. -/
theorem preK_arg1 (W : Valuation τ sig (Elt Ideal)) :
    StableHlo.after (List.take 22 (hostOps1 (F := Ideal))) W (Proc.devRef .tc main_arg1) = W (Proc.devRef .tc main_arg1) := by
  simp only [hostOps1, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- None of those operations writes `main_arg2`. -/
theorem preK_arg2 (W : Valuation τ sig (Elt Ideal)) :
    StableHlo.after (List.take 22 (hostOps1 (F := Ideal))) W (Proc.devRef .tc main_arg2) = W (Proc.devRef .tc main_arg2) := by
  simp only [hostOps1, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']

set_option maxHeartbeats 4000000 in
/-- None of those operations writes `main_arg4`. -/
theorem preK_arg4 (W : Valuation τ sig (Elt Ideal)) :
    StableHlo.after (List.take 22 (hostOps1 (F := Ideal))) W (Proc.devRef .tc main_arg4) = W (Proc.devRef .tc main_arg4) := by
  simp only [hostOps1, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']

end Cert.Bridge

end
-- ==== Proof.Bridge.PreR.lean ====
/-
  The reference's text-map loss, read off its first 36 host operations at the ideal instance: the two maps
  are flattened, the cross-entropy terms, the products and the maps themselves are each summed from zero
  over the flattened index — which is the sum over the maps' own index — and the scalar formula is
  applied to the four sums.  None of these operations writes an argument array.
-/
import proofs.«116515_j64166811402734_2_alg».proof.Proof.Ref.Ops0
import proofs.«116515_j64166811402734_2_alg».proof.Proof.LossMath
import Idealize.ShloMosaic.Lib.StableHlo.Run
import Idealize.ShloMosaic.Lib.Pipeline.Value
import Idealize.ShloMosaic.PureOps.Ideal.Laws

set_option maxRecDepth 16384

noncomputable section

namespace Cert.Bridge

open Cert.ReferenceIdeal Cert.ReferenceIdeal.Gen Cert.ReferenceIdeal.RefRun
open Idealize.ShloMosaic Idealize.ShloMosaic.TcCoe Idealize.ShloMosaic.StableHlo Idealize.ShloMosaic.ValueIdx
open Idealize.SL Idealize.SL.Sem

/-- The host's sum of a flattened map from the zero literal, at the ideal instance: zero plus the sum over the flattened index. -/
theorem hsum (x : FVec Ideal S4194304 .f32) (j : S_.Idx) :
    Host.reduceAdd (F := Ideal) x (constant (F := Ideal) S_ .f32 0x00000000#32) reducesTo_S4194304_S_d0 h_S_ j
      = Ideal.ofBits .f32 0x00000000#32 + ∑ i, x i :=
  Ideal.hostReduceAdd_total reducesTo_S4194304_S_d0 (fun b => b.elim0) x _ j

/-- The scalar formula the reference applies to its four sums (rank-0 arrays), read at the one index. -/
theorem scalar_formR (rE rPT rP rT : FVec Ideal S_ .f32) (j : S_.Idx) :
    addf (Host.negf (Host.divf rE (constant (F := Ideal) S_ .f32 0x4A800000#32)))
      (subf (constant (F := Ideal) S_ .f32 0x3F800000#32)
        (Host.divf (addf (mulf (constant (F := Ideal) S_ .f32 0x40000000#32) rPT) (constant (F := Ideal) S_ .f32 0x3F800000#32))
          (addf (addf rP rT) (constant (F := Ideal) S_ .f32 0x3F800000#32)))) j
      = -(Ideal.div (rE j) LossMath.count) + (LossMath.one - Ideal.div (LossMath.two * rPT j + LossMath.one) ((rP j + rT j) + LossMath.one)) := rfl

set_option maxHeartbeats 4000000 in
/-- The reference's text-map loss is the scalar formula of the four whole-array sums of the prediction map `P`
    and the target map `T`. -/
theorem preR (W : Valuation τ sig (Elt Ideal)) (P T : S16x1x512x512.Idx → EReal)
    (hP : W (Proc.devRef .tc main_arg0) = P) (hT : W (Proc.devRef .tc main_arg3) = T) (j : S_.Idx) :
    StableHlo.after (List.take 36 (ops0 (F := Ideal))) W (Proc.devRef .tc main_v24) j
      = LossMath.tmlRef (∑ k, LossMath.bceTerm (P k) (T k)) (∑ k, P k * T k) (∑ k, P k) (∑ k, T k) := by
  simp only [ops0, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
  rw [hP, hT]
  have e1 : (∑ i, LossMath.bceTerm (shapeCast S4194304 P shapeCasts_S16x1x512x512_S4194304 i) (shapeCast S4194304 T shapeCasts_S16x1x512x512_S4194304 i))
      = ∑ k, LossMath.bceTerm (P k) (T k) := LossMath.flat_sum shapeCasts_S16x1x512x512_S4194304 LossMath.bceTerm P T
  have e2 : (∑ i, shapeCast S4194304 P shapeCasts_S16x1x512x512_S4194304 i * shapeCast S4194304 T shapeCasts_S16x1x512x512_S4194304 i)
      = ∑ k, P k * T k := LossMath.flat_sum shapeCasts_S16x1x512x512_S4194304 (fun p t => p * t) P T
  have e3 : (∑ i, shapeCast S4194304 P shapeCasts_S16x1x512x512_S4194304 i) = ∑ k, P k :=
    LossMath.flat_sum shapeCasts_S16x1x512x512_S4194304 (fun p _ => p) P T
  have e4 : (∑ i, shapeCast S4194304 T shapeCasts_S16x1x512x512_S4194304 i) = ∑ k, T k :=
    LossMath.flat_sum shapeCasts_S16x1x512x512_S4194304 (fun _ t => t) P T
  rw [← e1, ← e2, ← e3, ← e4]
  refine (scalar_formR _ _ _ _ j).trans ?_
  rw [hsum, hsum, hsum, hsum]
  rfl

/-- The first 36 operations leave the three arrays the rest reads as they found them. -/
theorem preR_arg1 (W : Valuation τ sig (Elt Ideal)) :
    StableHlo.after (List.take 36 (ops0 (F := Ideal))) W (Proc.devRef .tc main_arg1) = W (Proc.devRef .tc main_arg1) := by
  simp only [ops0, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
theorem preR_arg2 (W : Valuation τ sig (Elt Ideal)) :
    StableHlo.after (List.take 36 (ops0 (F := Ideal))) W (Proc.devRef .tc main_arg2) = W (Proc.devRef .tc main_arg2) := by
  simp only [ops0, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']
theorem preR_arg4 (W : Valuation τ sig (Elt Ideal)) :
    StableHlo.after (List.take 36 (ops0 (F := Ideal))) W (Proc.devRef .tc main_arg4) = W (Proc.devRef .tc main_arg4) := by
  simp only [ops0, List.take_succ_cons, List.take_zero]
  simp (disch := decide) only [after_cons, after_nil,
      nullary_result', unary_result', binary_result', ternary_result', quaternary_result', reshape_result',
      unaryIndexed_result', binaryIndexed_result',
      nullary_result_ne', unary_result_ne', binary_result_ne', ternary_result_ne', quaternary_result_ne', reshape_result_ne',
      nary_result_ne', unaryIndexed_result_ne', binaryIndexed_result_ne']

end Cert.Bridge

end
-- ==== Proof.Bridge.Main.lean ====
/-
  The two idealized programs end with equal results.
  The kernel program's result buffer is the fold of its host tail over the contents the region leaves:
  the [8, 128] result array at the accumulator after the last grid point, every other buffer as launched.
  The tail's first 22 operations read the four sums out of rows 0–3 of that array and form the text-map
  loss; the reference's first 36 operations form it from the flattened maps.  Rows 0–3 hold the four sums
  over the whole arrays (the accumulation, re-indexed), so the two losses are the same scalar formula of
  the same four numbers up to where the sign sits around the division by the element count.  From there
  on both programs apply the same operations to that loss and to the same three argument arrays.
-/
import proofs.«116515_j64166811402734_2_alg».proof.Proof.KI.Main
import proofs.«116515_j64166811402734_2_alg».proof.Proof.KI.ValueIdeal
import proofs.«116515_j64166811402734_2_alg».proof.Proof.Ref.Run
import proofs.«116515_j64166811402734_2_alg».proof.Proof.Bridge.Rest
import proofs.«116515_j64166811402734_2_alg».proof.Proof.Bridge.PreK
import proofs.«116515_j64166811402734_2_alg».proof.Proof.Bridge.PreR
import proofs.«116515_j64166811402734_2_alg».proof.Defs
import proofs.«116515_j64166811402734_2_alg».proof.Proof.Gen.Pre_finite_inputs

set_option maxRecDepth 16384

noncomputable section

namespace Cert.Bridge

open Idealize.ShloMosaic Idealize.ShloMosaic.TcCoe Idealize.ShloMosaic.StableHlo Idealize.ShloMosaic.ValueIdx
open Idealize.SL Idealize.SL.Sem
open Cert.KernelIdeal.Hand (dats V0 V tail result final_o result_row step_row0 step_row1 step_row2 step_row3 tileP tilePT tileE iblk iblk0_apply iblk1_apply run_post)

variable (m : (ℓ : Loc Cert.KernelIdeal.nD Cert.KernelIdeal.τ Cert.KernelIdeal.sig) → Buf (Elt Ideal) ℓ)

/-- The kernel program's tail is its text-map-loss prefix followed by the shared rest. -/
theorem tail_split : List.flatten (tail (F := Ideal)) = List.take 22 (Cert.KernelIdeal.Gen.hostOps1 (F := Ideal)) ++ restK (F := Ideal) := by
  unfold restK
  rw [← List.append_assoc, List.take_append_drop]
  rfl

/-- So is the reference's operation list. -/
theorem ops_split : (Cert.ReferenceIdeal.RefRun.ops (F := Ideal)) = List.take 36 (Cert.ReferenceIdeal.RefRun.ops0 (F := Ideal)) ++ restR (F := Ideal) := by
  unfold restR
  rw [← List.append_assoc, List.take_append_drop]
  simp only [Cert.ReferenceIdeal.RefRun.ops, List.flatten_cons, List.flatten_nil, List.append_nil]

/-- The prediction map and the target map, as arrays of extended reals. -/
abbrev Pm (c : Dev Cert.KernelIdeal.nD) : (⟨4, ![16, 1, 512, 512]⟩ : Shape).Idx → EReal := m ((c.tc : Thread Cert.KernelIdeal.nD Cert.KernelIdeal.τ).loc Cert.KernelIdeal.main_arg0)
abbrev Tm (c : Dev Cert.KernelIdeal.nD) : (⟨4, ![16, 1, 512, 512]⟩ : Shape).Idx → EReal := m ((c.tc : Thread Cert.KernelIdeal.nD Cert.KernelIdeal.τ).loc Cert.KernelIdeal.main_arg3)

/-- The contents the region leaves: the staged arrays at what the proof data computes, the rest as launched. -/
abbrev WK (c : Dev Cert.KernelIdeal.nD) : Valuation Cert.KernelIdeal.τ Cert.KernelIdeal.sig (Elt Ideal) :=
  Pipeline.withArrays Cert.KernelIdeal.spec0 c (V0 m c) fun w => (dats m 0 c).arrAt w Cert.KernelIdeal.cfg0.N

theorem WK_v0 (c : Dev Cert.KernelIdeal.nD) : WK m c (Proc.devRef .tc Cert.KernelIdeal.main_v0) = result m c :=
  (Pipeline.withArrays_arr Cert.KernelIdeal.spec0 Cert.KernelIdeal.Gen.launch0.win.arr_inj c _ _ 2).trans (final_o m c)

theorem WK_arg1 (c : Dev Cert.KernelIdeal.nD) : WK m c (Proc.devRef .tc Cert.KernelIdeal.main_arg1) = m ((c.tc : Thread Cert.KernelIdeal.nD Cert.KernelIdeal.τ).loc Cert.KernelIdeal.main_arg1) :=
  Pipeline.withArrays_of_ne _ c (V0 m c) _ Cert.KernelIdeal.main_arg1 (by exact (by decide : ∀ w, Pipeline.arrRef Cert.KernelIdeal.spec0 w ≠ Cert.KernelIdeal.main_arg1))
theorem WK_arg2 (c : Dev Cert.KernelIdeal.nD) : WK m c (Proc.devRef .tc Cert.KernelIdeal.main_arg2) = m ((c.tc : Thread Cert.KernelIdeal.nD Cert.KernelIdeal.τ).loc Cert.KernelIdeal.main_arg2) :=
  Pipeline.withArrays_of_ne _ c (V0 m c) _ Cert.KernelIdeal.main_arg2 (by exact (by decide : ∀ w, Pipeline.arrRef Cert.KernelIdeal.spec0 w ≠ Cert.KernelIdeal.main_arg2))
theorem WK_arg4 (c : Dev Cert.KernelIdeal.nD) : WK m c (Proc.devRef .tc Cert.KernelIdeal.main_arg4) = m ((c.tc : Thread Cert.KernelIdeal.nD Cert.KernelIdeal.τ).loc Cert.KernelIdeal.main_arg4) :=
  Pipeline.withArrays_of_ne _ c (V0 m c) _ Cert.KernelIdeal.main_arg4 (by exact (by decide : ∀ w, Pipeline.arrRef Cert.KernelIdeal.spec0 w ≠ Cert.KernelIdeal.main_arg4))

/-- Rows 0–3 of the result array hold the four whole-array sums. -/
theorem row0 (c : Dev Cert.KernelIdeal.nD) : result m c (ix2 (0 : Fin 8) (0 : Fin 128)) = ∑ k, Pm m c k :=
  result_row m 0 (fun x0 _ => tileP x0) step_row0 c (Pm m c) (fun t h16 => by
    unfold tileP
    exact Finset.sum_congr rfl fun a _ => Finset.sum_congr rfl fun b _ => iblk0_apply m c t h16 a b) 0
theorem row1 (c : Dev Cert.KernelIdeal.nD) : result m c (ix2 (1 : Fin 8) (0 : Fin 128)) = ∑ k, Tm m c k :=
  result_row m 1 (fun _ x1 => tileP x1) step_row1 c (Tm m c) (fun t h16 => by
    unfold tileP
    exact Finset.sum_congr rfl fun a _ => Finset.sum_congr rfl fun b _ => iblk1_apply m c t h16 a b) 0
theorem row2 (c : Dev Cert.KernelIdeal.nD) : result m c (ix2 (2 : Fin 8) (0 : Fin 128)) = ∑ k, Pm m c k * Tm m c k :=
  result_row m 2 tilePT step_row2 c (fun k => Pm m c k * Tm m c k) (fun t h16 => by
    unfold tilePT
    refine Finset.sum_congr rfl fun a _ => Finset.sum_congr rfl fun b _ => ?_
    rw [iblk0_apply m c t h16 a b, iblk1_apply m c t h16 a b]) 0
theorem row3 (c : Dev Cert.KernelIdeal.nD) : result m c (ix2 (3 : Fin 8) (0 : Fin 128)) = ∑ k, LossMath.bceTerm (Pm m c k) (Tm m c k) :=
  result_row m 3 tileE step_row3 c (fun k => LossMath.bceTerm (Pm m c k) (Tm m c k)) (fun t h16 => by
    unfold tileE
    refine Finset.sum_congr rfl fun a _ => Finset.sum_congr rfl fun b _ => ?_
    rw [iblk0_apply m c t h16 a b, iblk1_apply m c t h16 a b]) 0

/-- THE BRIDGE: from memories agreeing on the arguments, the reference's result is the kernel program's. -/
theorem bridge (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    StableHlo.after (Cert.ReferenceIdeal.RefRun.ops (F := Ideal)) (fun b => m' (c, b)) (Proc.devRef .tc Cert.ReferenceIdeal.main_v227)
      = Pipeline.afterTail₀ Cert.KernelIdeal.cfgs (dats m) 0 (V0 m) tail c Cert.KernelIdeal.main_v220 := by
  have hK : StableHlo.after (List.flatten (tail (F := Ideal))) (WK m c)
      = StableHlo.after (restK (F := Ideal)) (StableHlo.after (List.take 22 (Cert.KernelIdeal.Gen.hostOps1 (F := Ideal))) (WK m c)) := by
    rw [tail_split, StableHlo.after_append]
  have hR : StableHlo.after (Cert.ReferenceIdeal.RefRun.ops (F := Ideal)) (fun b => m' (c, b))
      = StableHlo.after (restR (F := Ideal)) (StableHlo.after (List.take 36 (Cert.ReferenceIdeal.RefRun.ops0 (F := Ideal))) (fun b => m' (c, b))) := by
    rw [ops_split, StableHlo.after_append]
  unfold Pipeline.afterTail₀
  show StableHlo.after (Cert.ReferenceIdeal.RefRun.ops (F := Ideal)) (fun b => m' (c, b)) (Proc.devRef .tc Cert.ReferenceIdeal.main_v227)
    = StableHlo.after (List.flatten (tail (F := Ideal))) (WK m c) (Proc.devRef .tc Cert.KernelIdeal.main_v220)
  rw [hK, hR]
  symm
  refine rest_eq _ _ ?_ ?_ ?_ ?_
  · funext j
    rw [preK (WK m c) j, preR (fun b => m' (c, b)) (Pm m c) (Tm m c) h0 h3 j, WK_v0, row0, row1, row2, row3]
    exact LossMath.tml_eq _ _ _ _
  · rw [preK_arg1, preR_arg1]; exact (WK_arg1 m c).trans h1.symm
  · rw [preK_arg2, preR_arg2]; exact (WK_arg2 m c).trans h2.symm
  · rw [preK_arg4, preR_arg4]; exact (WK_arg4 m c).trans h4.symm

/-- The algebraic claim. -/
theorem algebraic : Cert.algebraic_KernelIdeal_ReferenceIdeal := by
  intro m ρ m' ρ' _ hagree
  refine ⟨fun c => Pipeline.afterTail₀ Cert.KernelIdeal.cfgs (dats m) 0 (V0 m) tail c Cert.KernelIdeal.main_v220, run_post (F := Ideal) m ρ, ?_⟩
  refine (θ_run Cert.ReferenceIdeal.defs _ _).mono (fun _ h c => ⟨(h c).1.trans
    (bridge m m' c (hagree c).1 (hagree c).2.1 (hagree c).2.2.1 (hagree c).2.2.2.1 (hagree c).2.2.2.2), (h c).2⟩)
    (Cert.ReferenceIdeal.RefRun.run (F := Ideal) m' ρ')

end Cert.Bridge

end
-- ==== Proof.lean ====
/-
  The certificate of the text-detection loss kernel against its reference.

  The kernel program computes the text-map loss with one pipelined region: a grid of sixteen points, one
  512 × 512 tile of the prediction map and of the target map per point, accumulating four sums (of the
  predictions, of the targets, of their products and of the binary cross-entropy terms) into rows 0–3 of
  an [8, 128] scratch block that is zeroed at the first point and copied to the result at the last; a
  tail of 330 host operations then forms the dice and cross-entropy scalars from those four numbers and
  goes on to the box and confidence losses.  The reference computes the same four sums over the flattened
  maps and the same scalars.

  Frames.  Each kernel program (word level and idealized) is the region followed by its host tail: the
  body runs in three control cases (first point, middle points, last point) with the accumulator carried
  from point to point in the region's invariant, no operation of the tail writes an argument or a staged
  array, and the launch theorem for a region followed by host operations gives termination, no fault and
  unchanged arguments.  The reference is a straight line of host operations.

  Values.  At the ideal instance every sum is a sum in the commutative monoid of extended reals, so the
  ordered accumulation over tiles is the sum over the whole array, which is also the sum over its
  flattening; no finiteness of the inputs is used.  The two text-map losses then differ only by where the
  sign sits around the division by the element count 2²², and dividing by a nonzero real is multiplying
  by its reciprocal.  Everything after the text-map loss is the same composition of the same operations
  on both sides.

  The ideal pass rewrote nothing, so the kernel's idealization is the program's own text read at the
  ideal instance and that conjunct is trivial.
-/
import proofs.«116515_j64166811402734_2_alg».proof.Defs
import proofs.«116515_j64166811402734_2_alg».proof.Proof.Gen.Kernel
import proofs.«116515_j64166811402734_2_alg».proof.Proof.Gen.KernelIdeal
import proofs.«116515_j64166811402734_2_alg».proof.Proof.Gen.ReferenceIdeal
import proofs.«116515_j64166811402734_2_alg».proof.Proof.Gen.Pre_finite_inputs
import proofs.«116515_j64166811402734_2_alg».proof.Proof.K.Main
import proofs.«116515_j64166811402734_2_alg».proof.Proof.KI.Main
import proofs.«116515_j64166811402734_2_alg».proof.Proof.Ref.Frame
import proofs.«116515_j64166811402734_2_alg».proof.Proof.Bridge.Main

noncomputable section

namespace Cert.Proof

open Idealize.ShloMosaic Idealize.SL.Sem

/-- The word-level kernel program runs to the end, faults nowhere and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.RefClaims.frame, trivial, Cert.Bridge.algebraic⟩

end Cert.Proof

end
